-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v136)) (v2 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_v116) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : IVec S1x640000 32 := (extractStridedSlice S1x640000 ![1, 0] · slices_S2x640000_S1x640000_1_0) main_arg1
  let main_v55 : IVec S640000 32 := shapeCast S640000 main_v54 shapeCasts_S1x640000_S640000
  let main_c_20 : IVec S_ 32 := constantI S_ 32 0#32
  let main_v56 : IVec S640000 32 := broadcastInDim S640000 ![] bcast_S_S640000 main_c_20
  let main_v57 : IVec S640000 1 := cmpi .sge main_v55 main_v56
  let main_c_21 : IVec S_ 1 := constantI S_ 1 1#1
  let main_v58 : IVec S_ 1 := (fun x v => Host.reduce IntOp.andi x v reducesTo_S640000_S_d0 h_S_) main_v57 main_c_21
  let main_v59 : IVec S_ 1 := andi main_v53 main_v58
  main_v59

def fn_part2 {F : FTy → Type} [FloatOps F] (main_arg1 : IVec S2x640000 32) (main_arg9 : FVec F S256x128 .f32) (main_arg10 : FVec F S128 .f32) (main_arg11 : FVec F S128x10 .f32) (main_arg12 : FVec F S10 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_arg1 main_v48 main_v49 main_v50

def fn_part1 {F : FTy → Type} [FloatOps F] (main_arg1 : IVec S2x640000 32) (main_arg6 : FVec F S128 .f32) (main_arg7 : FVec F S128x128 .f32) (main_arg8 : FVec F S128 .f32) (main_arg9 : FVec F S256x128 .f32) (main_arg10 : FVec F S128 .f32) (main_arg11 : FVec F S128x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S40000x128 .f32) (main_arg1 : IVec S2x640000 32) (main_arg2 : IVec S40000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S128x10 .f32) (main_arg12 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S5000x128 : Shape := ⟨2, ![5000, 128]⟩
abbrev S640000x128 : Shape := ⟨2, ![640000, 128]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S256x10 : Shape := ⟨2, ![256, 10]⟩
abbrev S1x10 : Shape := ⟨2, ![1, 10]⟩

abbrev nBuf : Space → Nat
  | .hbm => 182
  | .vmem => 21
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S128x10, .f32⟩
  | 12 => ⟨S10, .f32⟩
  | 13 => ⟨S1x640000, .i32⟩
  | 14 => ⟨S640000, .i32⟩
  | 15 => ⟨S1x640000, .i32⟩
  | 16 => ⟨S640000, .i32⟩
  | 17 => ⟨S_, .f32⟩
  | 18 => ⟨S40000, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S_, .f32⟩
  | 28 => ⟨S640000, .f32⟩
  | 29 => ⟨S40000, .f32⟩
  | 30 => ⟨S_, .f32⟩
  | 31 => ⟨S40000, .f32⟩
  | 32 => ⟨S40000, .f32⟩
  | 33 => ⟨S40000, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000, .f32⟩
  | 52 => ⟨S640000, .f32⟩
  | 53 => ⟨S_, .f32⟩
  | 54 => ⟨S40000, .f32⟩
  | 55 => ⟨S40000, .f32⟩
  | 56 => ⟨S40000x1, .f32⟩
  | 57 => ⟨S40000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x128, .f32⟩
  | 67 => ⟨S640000x1, .f32⟩
  | 68 => ⟨S640000x128, .f32⟩
  | 69 => ⟨S640000x128, .f32⟩
  | 70 => ⟨S_, .f32⟩
  | 71 => ⟨S40000x128, .f32⟩
  | 72 => ⟨S640000x1, .i32⟩
  | 73 => ⟨S40000x128, .f32⟩
  | 74 => ⟨S40000x128, .f32⟩
  | 75 => ⟨S40000x128, .f32⟩
  | 76 => ⟨S40000x128, .f32⟩
  | 77 => ⟨S1x128, .f32⟩
  | 78 => ⟨S40000x128, .f32⟩
  | 79 => ⟨S40000x128, .f32⟩
  | 80 => ⟨S_, .f32⟩
  | 81 => ⟨S40000x128, .f32⟩
  | 82 => ⟨S40000x128, .i1⟩
  | 83 => ⟨S_, .f32⟩
  | 84 => ⟨S40000x128, .f32⟩
  | 85 => ⟨S40000x128, .f32⟩
  | 86 => ⟨S40000x128, .f32⟩
  | 87 => ⟨S40000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S640000x1, .f32⟩
  | 98 => ⟨S640000x128, .f32⟩
  | 99 => ⟨S640000x128, .f32⟩
  | 100 => ⟨S_, .f32⟩
  | 101 => ⟨S40000x128, .f32⟩
  | 102 => ⟨S640000x1, .i32⟩
  | 103 => ⟨S40000x128, .f32⟩
  | 104 => ⟨S40000x128, .f32⟩
  | 105 => ⟨S40000x128, .f32⟩
  | 106 => ⟨S40000x128, .f32⟩
  | 107 => ⟨S1x128, .f32⟩
  | 108 => ⟨S40000x128, .f32⟩
  | 109 => ⟨S40000x128, .f32⟩
  | 110 => ⟨S_, .f32⟩
  | 111 => ⟨S40000x128, .f32⟩
  | 112 => ⟨S40000x128, .i1⟩
  | 113 => ⟨S_, .f32⟩
  | 114 => ⟨S40000x128, .f32⟩
  | 115 => ⟨S40000x128, .f32⟩
  | 116 => ⟨S40000x128, .f32⟩
  | 117 => ⟨S40000x128, .f32⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S640000x128, .f32⟩
  | 127 => ⟨S640000x1, .f32⟩
  | _ => ⟨S40000x128, .f32⟩

abbrev hbmTy0_1 (i : Nat) : BufTy := match i % 128 with
  | 0 => ⟨S640000x128, .f32⟩
  | 1 => ⟨S640000x128, .f32⟩
  | 2 => ⟨S_, .f32⟩
  | 3 => ⟨S40000x128, .f32⟩
  | 4 => ⟨S640000x1, .i32⟩
  | 5 => ⟨S40000x128, .f32⟩
  | 6 => ⟨S40000x128, .f32⟩
  | 7 => ⟨S40000x128, .f32⟩
  | 8 => ⟨S40000x128, .f32⟩
  | 9 => ⟨S1x128, .f32⟩
  | 10 => ⟨S40000x128, .f32⟩
  | 11 => ⟨S40000x128, .f32⟩
  | 12 => ⟨S_, .f32⟩
  | 13 => ⟨S256x128, .f32⟩
  | 14 => ⟨S40000x1, .i32⟩
  | 15 => ⟨S256x128, .f32⟩
  | 16 => ⟨S_, .f32⟩
  | 17 => ⟨S40000, .f32⟩
  | 18 => ⟨S_, .f32⟩
  | 19 => ⟨S256, .f32⟩
  | 20 => ⟨S40000x1, .i32⟩
  | 21 => ⟨S256, .f32⟩
  | 22 => ⟨S_, .f32⟩
  | 23 => ⟨S256, .f32⟩
  | 24 => ⟨S256, .f32⟩
  | 25 => ⟨S256x1, .f32⟩
  | 26 => ⟨S256x128, .f32⟩
  | 27 => ⟨S256x128, .f32⟩
  | 28 => ⟨S256x256, .f32⟩
  | 29 => ⟨S256x128, .f32⟩
  | 30 => ⟨S1x128, .f32⟩
  | 31 => ⟨S256x128, .f32⟩
  | 32 => ⟨S256x128, .f32⟩
  | 33 => ⟨S_, .f32⟩
  | 34 => ⟨S256x128, .f32⟩
  | 35 => ⟨S256x128, .f32⟩
  | 36 => ⟨S256x10, .f32⟩
  | 37 => ⟨S1x10, .f32⟩
  | 38 => ⟨S256x10, .f32⟩
  | 39 => ⟨S256x10, .f32⟩
  | 40 => ⟨S_, .f32⟩
  | 41 => ⟨S256, .f32⟩
  | 42 => ⟨S_, .f32⟩
  | 43 => ⟨S256, .f32⟩
  | 44 => ⟨S256, .f32⟩
  | 45 => ⟨S256x1, .f32⟩
  | 46 => ⟨S256x10, .f32⟩
  | 47 => ⟨S256x10, .f32⟩
  | 48 => ⟨S256x10, .f32⟩
  | 49 => ⟨S_, .f32⟩
  | 50 => ⟨S256, .f32⟩
  | 51 => ⟨S256x1, .f32⟩
  | 52 => ⟨S256x10, .f32⟩
  | 53 => ⟨S256x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S256x256, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S128x10, .f32⟩
  | .local _ .vmem, ⟨20, _⟩ => ⟨S256x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_21 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_cst_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_call2_cst : Ref sig .tc := ⟨.hbm, 161, rfl⟩
abbrev main_call2_v0 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_25 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_27 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem1_0 : DmaSem sig := 19
abbrev cc4_sem2_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S_S640000 : S_.BroadcastsInDim S640000 (![] : Fin 0 → Fin S640000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  shapeCasts_S5000x128_S5000x128 : S5000x128.ShapeCasts S5000x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x256_d1 : Shape.Concatenates [S256x128, S256x128] S256x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  bcast_S1x128_S256x128_0_1 : S1x128.BroadcastsInDim S256x128 (![0, 1] : Fin 2 → Fin S256x128.rank)
  shapeCasts_S256x128_S256x128 : S256x128.ShapeCasts S256x128
  inb_S128x10_S128x10_0_0 : ∀ a, (![0, 0] : Fin 2 → Nat) a + S128x10.size a ≤ S128x10.size a
  h_S128x10 : 0 < S128x10.numel
  inb_S256x10_S256x10_0_0 : ∀ a, (![0, 0] : Fin 2 → Nat) a + S256x10.size a ≤ S256x10.size a
  h_S256x10 : 0 < S256x10.numel
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S256x128_S40000x1_S40000x128_1_0_0_1_wf : ScatterDims.WF S256x128 S40000x1 S40000x128 [1] [0] [0] 1
  scatter_S256_S40000x1_S40000_n_0_0_1_wf : ScatterDims.WF S256 S40000x1 S40000 [] [0] [0] 1
  dot_S256x256_S256x128_S256x128_1_0_0_1_n_n_wf : DotDims.WF S256x256 S256x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .f32 = 32 ∨ (Rect.block (s := S256x256) S256x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S256x10.size a ≤ S256x10.size a
  hwx4_2 : ∀ i : grid4.Coords, EltTy.bits .f32 = 32 ∨ (Rect.block (s := S256x10) S256x10.size (cc4_transform_2 i) (hinb4_2 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v116) S256x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v117) S256x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v121) S256x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v122) S256x10.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S256x10 : Shape := ⟨2, ![256, 10]⟩
abbrev S1x10 : Shape := ⟨2, ![1, 10]⟩

abbrev nBuf : Space → Nat
  | .hbm => 283
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S128x10, .f32⟩
  | 12 => ⟨S10, .f32⟩
  | 13 => ⟨S1x640000, .i32⟩
  | 14 => ⟨S640000, .i32⟩
  | 15 => ⟨S1x640000, .i32⟩
  | 16 => ⟨S640000, .i32⟩
  | 17 => ⟨S40000x128, .f32⟩
  | 18 => ⟨S_, .f32⟩
  | 19 => ⟨S40000, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S_, .f32⟩
  | 29 => ⟨S640000, .f32⟩
  | 30 => ⟨S40000, .f32⟩
  | 31 => ⟨S_, .f32⟩
  | 32 => ⟨S40000, .f32⟩
  | 33 => ⟨S40000, .f32⟩
  | 34 => ⟨S40000, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000, .f32⟩
  | 53 => ⟨S640000, .f32⟩
  | 54 => ⟨S_, .f32⟩
  | 55 => ⟨S40000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S640000x1, .f32⟩
  | 66 => ⟨S640000x128, .f32⟩
  | 67 => ⟨S640000x128, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S40000x128, .f32⟩
  | 77 => ⟨S_, .f32⟩
  | 78 => ⟨S40000, .f32⟩
  | 79 => ⟨S40000, .f32⟩
  | 80 => ⟨S40000x1, .f32⟩
  | 81 => ⟨S40000x128, .f32⟩
  | 82 => ⟨S40000x128, .f32⟩
  | 83 => ⟨S40000x128, .f32⟩
  | 84 => ⟨S1x128, .f32⟩
  | 85 => ⟨S40000x128, .f32⟩
  | 86 => ⟨S40000x128, .f32⟩
  | 87 => ⟨S_, .f32⟩
  | 88 => ⟨S40000x128, .f32⟩
  | 89 => ⟨S40000x128, .i1⟩
  | 90 => ⟨S_, .f32⟩
  | 91 => ⟨S40000x128, .f32⟩
  | 92 => ⟨S40000x128, .f32⟩
  | 93 => ⟨S40000x128, .f32⟩
  | 94 => ⟨S40000x128, .f32⟩
  | 95 => ⟨S_, .f32⟩
  | 96 => ⟨S40000, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S_, .f32⟩
  | 106 => ⟨S640000, .f32⟩
  | 107 => ⟨S40000, .f32⟩
  | 108 => ⟨S_, .f32⟩
  | 109 => ⟨S40000, .f32⟩
  | 110 => ⟨S40000, .f32⟩
  | 111 => ⟨S40000, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S40000x128, .f32⟩

abbrev hbmTy0_1 (i : Nat) : BufTy := match i % 128 with
  | 0 => ⟨S640000x1, .i32⟩
  | 1 => ⟨S640000, .f32⟩
  | 2 => ⟨S640000, .f32⟩
  | 3 => ⟨S_, .f32⟩
  | 4 => ⟨S40000x128, .f32⟩
  | 5 => ⟨S_, .i32⟩
  | 6 => ⟨S640000, .i32⟩
  | 7 => ⟨S640000, .i1⟩
  | 8 => ⟨S_, .i32⟩
  | 9 => ⟨S640000, .i32⟩
  | 10 => ⟨S640000, .i32⟩
  | 11 => ⟨S640000, .i32⟩
  | 12 => ⟨S640000x1, .i32⟩
  | 13 => ⟨S640000x128, .f32⟩
  | 14 => ⟨S640000x1, .f32⟩
  | 15 => ⟨S640000x128, .f32⟩
  | 16 => ⟨S640000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S40000x128, .f32⟩
  | 26 => ⟨S_, .f32⟩
  | 27 => ⟨S40000, .f32⟩
  | 28 => ⟨S40000, .f32⟩
  | 29 => ⟨S40000x1, .f32⟩
  | 30 => ⟨S40000x128, .f32⟩
  | 31 => ⟨S40000x128, .f32⟩
  | 32 => ⟨S40000x128, .f32⟩
  | 33 => ⟨S1x128, .f32⟩
  | 34 => ⟨S40000x128, .f32⟩
  | 35 => ⟨S40000x128, .f32⟩
  | 36 => ⟨S_, .f32⟩
  | 37 => ⟨S40000x128, .f32⟩
  | 38 => ⟨S40000x128, .i1⟩
  | 39 => ⟨S_, .f32⟩
  | 40 => ⟨S40000x128, .f32⟩
  | 41 => ⟨S40000x128, .f32⟩
  | 42 => ⟨S40000x128, .f32⟩
  | 43 => ⟨S40000x128, .f32⟩
  | 44 => ⟨S_, .f32⟩
  | 45 => ⟨S40000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S_, .f32⟩
  | 55 => ⟨S640000, .f32⟩
  | 56 => ⟨S40000, .f32⟩
  | 57 => ⟨S_, .f32⟩
  | 58 => ⟨S40000, .f32⟩
  | 59 => ⟨S40000, .f32⟩
  | 60 => ⟨S40000, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000, .f32⟩
  | 79 => ⟨S640000, .f32⟩
  | 80 => ⟨S_, .f32⟩
  | 81 => ⟨S40000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x128, .f32⟩
  | 91 => ⟨S640000x1, .f32⟩
  | 92 => ⟨S640000x128, .f32⟩
  | 93 => ⟨S640000x128, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S40000x128, .f32⟩
  | 103 => ⟨S_, .f32⟩
  | 104 => ⟨S40000, .f32⟩
  | 105 => ⟨S40000, .f32⟩
  | 106 => ⟨S40000x1, .f32⟩
  | 107 => ⟨S40000x128, .f32⟩
  | 108 => ⟨S40000x128, .f32⟩
  | 109 => ⟨S40000x128, .f32⟩
  | 110 => ⟨S1x128, .f32⟩
  | 111 => ⟨S40000x128, .f32⟩
  | 112 => ⟨S40000x128, .f32⟩
  | 113 => ⟨S_, .f32⟩
  | 114 => ⟨S256x128, .f32⟩
  | 115 => ⟨S40000x1, .i32⟩
  | 116 => ⟨S256x128, .f32⟩
  | 117 => ⟨S_, .f32⟩
  | 118 => ⟨S40000, .f32⟩
  | 119 => ⟨S_, .f32⟩
  | 120 => ⟨S256, .f32⟩
  | 121 => ⟨S40000x1, .i32⟩
  | 122 => ⟨S256, .f32⟩
  | 123 => ⟨S_, .f32⟩
  | 124 => ⟨S256, .f32⟩
  | 125 => ⟨S256, .f32⟩
  | 126 => ⟨S256x1, .f32⟩
  | 127 => ⟨S256x128, .f32⟩
  | _ => ⟨S40000x128, .f32⟩

abbrev hbmTy0_2 (i : Nat) : BufTy := match i % 128 with
  | 0 => ⟨S256x128, .f32⟩
  | 1 => ⟨S256x256, .f32⟩
  | 2 => ⟨S256x128, .f32⟩
  | 3 => ⟨S1x128, .f32⟩
  | 4 => ⟨S256x128, .f32⟩
  | 5 => ⟨S256x128, .f32⟩
  | 6 => ⟨S_, .f32⟩
  | 7 => ⟨S256x128, .f32⟩
  | 8 => ⟨S256x128, .f32⟩
  | 9 => ⟨S256x10, .f32⟩
  | 10 => ⟨S1x10, .f32⟩
  | 11 => ⟨S256x10, .f32⟩
  | 12 => ⟨S256x10, .f32⟩
  | 13 => ⟨S_, .f32⟩
  | 14 => ⟨S256, .f32⟩
  | 15 => ⟨S_, .f32⟩
  | 16 => ⟨S256, .f32⟩
  | 17 => ⟨S256, .f32⟩
  | 18 => ⟨S256x1, .f32⟩
  | 19 => ⟨S256x10, .f32⟩
  | 20 => ⟨S256x10, .f32⟩
  | 21 => ⟨S256x10, .f32⟩
  | 22 => ⟨S_, .f32⟩
  | 23 => ⟨S256, .f32⟩
  | 24 => ⟨S256x1, .f32⟩
  | 25 => ⟨S256x10, .f32⟩
  | 26 => ⟨S256x10, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_c_25 : Ref sig .tc := ⟨.hbm, 133, rfl⟩
abbrev main_v93 : Ref sig .tc := ⟨.hbm, 134, rfl⟩
abbrev main_v94 : Ref sig .tc := ⟨.hbm, 135, rfl⟩
abbrev main_c_26 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_27 : Ref sig .tc := ⟨.hbm, 145, rfl⟩
abbrev main_v103 : Ref sig .tc := ⟨.hbm, 146, rfl⟩
abbrev main_v104 : Ref sig .tc := ⟨.hbm, 147, rfl⟩
abbrev main_c_28 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_29 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_30 : Ref sig .tc := ⟨.hbm, 164, rfl⟩
abbrev main_v119 : Ref sig .tc := ⟨.hbm, 165, rfl⟩
abbrev main_v120 : Ref sig .tc := ⟨.hbm, 166, rfl⟩
abbrev main_cst_31 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_32 : Ref sig .tc := ⟨.hbm, 172, rfl⟩
abbrev main_v125 : Ref sig .tc := ⟨.hbm, 173, rfl⟩
abbrev main_c_33 : Ref sig .tc := ⟨.hbm, 174, rfl⟩
abbrev main_v126 : Ref sig .tc := ⟨.hbm, 175, rfl⟩
abbrev main_v127 : Ref sig .tc := ⟨.hbm, 176, rfl⟩
abbrev main_c_34 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_35 : Ref sig .tc := ⟨.hbm, 182, rfl⟩
abbrev main_v132 : Ref sig .tc := ⟨.hbm, 183, rfl⟩
abbrev main_v133 : Ref sig .tc := ⟨.hbm, 184, rfl⟩
abbrev main_cst_36 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_c_37 : Ref sig .tc := ⟨.hbm, 189, rfl⟩
abbrev main_v137 : Ref sig .tc := ⟨.hbm, 190, rfl⟩
abbrev main_v138 : Ref sig .tc := ⟨.hbm, 191, rfl⟩
abbrev main_c_38 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_c_39 : Ref sig .tc := ⟨.hbm, 198, rfl⟩
abbrev main_v144 : Ref sig .tc := ⟨.hbm, 199, rfl⟩
abbrev main_v145 : Ref sig .tc := ⟨.hbm, 200, rfl⟩
abbrev main_c_40 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_41 : Ref sig .tc := ⟨.hbm, 208, rfl⟩
abbrev main_v152 : Ref sig .tc := ⟨.hbm, 209, rfl⟩
abbrev main_c_42 : Ref sig .tc := ⟨.hbm, 210, rfl⟩
abbrev main_v153 : Ref sig .tc := ⟨.hbm, 211, rfl⟩
abbrev main_v154 : Ref sig .tc := ⟨.hbm, 212, rfl⟩
abbrev main_c_43 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_c_44 : Ref sig .tc := ⟨.hbm, 222, rfl⟩
abbrev main_v163 : Ref sig .tc := ⟨.hbm, 223, rfl⟩
abbrev main_v164 : Ref sig .tc := ⟨.hbm, 224, rfl⟩
abbrev main_c_45 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_46 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_47 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_48 : Ref sig .tc := ⟨.hbm, 245, rfl⟩
abbrev main_v182 : Ref sig .tc := ⟨.hbm, 246, rfl⟩
abbrev main_cst_49 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_50 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_call2_cst : Ref sig .tc := ⟨.hbm, 262, rfl⟩
abbrev main_call2_v0 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_51 : Ref sig .tc := ⟨.hbm, 269, rfl⟩
abbrev main_v201 : Ref sig .tc := ⟨.hbm, 270, rfl⟩
abbrev main_cst_52 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_cst_53 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S640000x1_S640000x128_0_1 : S640000x1.BroadcastsInDim S640000x128 (![0, 1] : Fin 2 → Fin S640000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x256_d1 : Shape.Concatenates [S256x128, S256x128] S256x256 1
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  dot_S40000x128_S128x128_S40000x128_1_0_0_1_n_n_wf : DotDims.WF S40000x128 S128x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S256x128_S40000x1_S40000x128_1_0_0_1_wf : ScatterDims.WF S256x128 S40000x1 S40000x128 [1] [0] [0] 1
  scatter_S256_S40000x1_S40000_n_0_0_1_wf : ScatterDims.WF S256 S40000x1 S40000 [] [0] [0] 1
  dot_S256x256_S256x128_S256x128_1_0_0_1_n_n_wf : DotDims.WF S256x256 S256x128 S256x128 [1] [0] [0] [1] [] []
  dot_S256x128_S128x10_S256x10_1_0_0_1_n_n_wf : DotDims.WF S256x128 S128x10 S256x10 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.Spec.lean ====
/-
  The mathematics both programs compute, one named function per piece, over whole arrays.

  A graph-convolution layer on N = 40000 nodes and E = 640000 directed edges (src e → dst e), features of width 128:
    deg n    = 1 + #{e | dst e = n}                      (in-degree with a self-loop)
    norm e   = deg(src e)^(-1/2) · deg(dst e)^(-1/2)
    layer    = (Σ_{e : dst e = n} norm e · hw[src e, ·]) + hw[n, ·] / deg n + b,      hw = h · W
  followed by sum- and mean-pooling of the nodes into 256 graphs, a two-layer head and a softmax.

  Node indices are read Python-style where an array is indexed with them: a negative index v stands for v + 40000
  (`wrapIdx`).  The one place the two programs differ is the index the layer's scatter-add is given (`aggIdx`):
  one passes dst itself, the other `wrapIdx dst`; for dst ≥ 0 these are the same array.  A matrix product enters a
  layer as the array `hw`, however it was computed.
-/
import proofs.«147250_j29549374997129_1_alg».proof.Proof.Gen.KernelIdeal
import proofs.«147250_j29549374997129_1_alg».proof.Proof.Gen.ReferenceIdeal
import Idealize.ShloMosaic.PureOps.Ideal

noncomputable section

namespace Cert.Spec

open Idealize.ShloMosaic Cert.KernelIdeal Cert.KernelIdeal.Facts₀ Cert.KernelIdeal.Facts

/-- Row 0 of the edge list: the source node of every edge. -/
def srcOf (ei : IVec S2x640000 32) : IVec S640000 32 :=
  shapeCast S640000 (extractStridedSlice S1x640000 ![0, 0] ei slices_S2x640000_S1x640000_0_0) shapeCasts_S1x640000_S640000

/-- Row 1 of the edge list: the destination node of every edge. -/
def dstOf (ei : IVec S2x640000 32) : IVec S640000 32 :=
  shapeCast S640000 (extractStridedSlice S1x640000 ![1, 0] ei slices_S2x640000_S1x640000_1_0) shapeCasts_S1x640000_S640000

/-- A node index read Python-style: a negative v stands for v + 40000. -/
def wrapIdx (v : IVec S640000 32) : IVec S640000 32 :=
  select (cmpi .slt v (broadcastInDim S640000 ![] bcast_S_S640000 (constantI S_ 32 0#32)))
    (addi v (broadcastInDim S640000 ![] bcast_S_S640000 (constantI S_ 32 40000#32))) v

/-- An index vector as the one-column index matrix a gather or scatter takes. -/
def col (v : IVec S640000 32) : IVec S640000x1 32 := broadcastInDim S640000x1 ![0] bcast_S640000_S640000x1_0 v

/-- deg n = 1 + the number of edges arriving at n. -/
def deg (dst : IVec S640000 32) : FVec Ideal S40000 .f32 :=
  addf (Host.scatterAdd scatter_S40000_S640000x1_S640000_n_0_0_1
      (broadcastInDim S40000 ![] bcast_S_S40000 (constant S_ .f32 0x00000000#32))
      (col (wrapIdx dst))
      (broadcastInDim S640000 ![] bcast_S_S640000 (constant S_ .f32 0x3F800000#32)))
    (broadcastInDim S40000 ![] bcast_S_S40000 (constant S_ .f32 0x3F800000#32))

/-- norm e = deg(src e)^(-1/2) · deg(dst e)^(-1/2). -/
def norm (src dst : IVec S640000 32) : FVec Ideal S640000 .f32 :=
  mulf (Host.gather gather_S40000_S640000x1_S640000_n_0_n_n_0_1_1 (Host.rsqrt (deg dst)) (col (wrapIdx src)))
    (Host.gather gather_S40000_S640000x1_S640000_n_0_n_n_0_1_1 (Host.rsqrt (deg dst)) (col (wrapIdx dst)))

/-- The self-loop weight 1 / deg n, as a column. -/
def selfCol (dst : IVec S640000 32) : FVec Ideal S40000x1 .f32 :=
  broadcastInDim S40000x1 ![0] bcast_S40000_S40000x1_0
    (Host.divf (broadcastInDim S40000 ![] bcast_S_S40000 (constant S_ .f32 0x3F800000#32)) (deg dst))

/-- One layer after its matrix product hw: the edges' messages norm e · hw[src e] summed at the index aggIdx e,
    plus the self-loop term hw[n] / deg n, plus the bias. -/
def layer (aggIdx src : IVec S640000 32) (nrm : FVec Ideal S640000 .f32) (sc : FVec Ideal S40000x1 .f32)
    (hw : FVec Ideal S40000x128 .f32) (b : FVec Ideal S128 .f32) : FVec Ideal S40000x128 .f32 :=
  addf (addf
      (Host.scatterAdd scatter_S40000x128_S640000x1_S640000x128_1_0_0_1
        (broadcastInDim S40000x128 ![] bcast_S_S40000x128 (constant S_ .f32 0x00000000#32))
        (col aggIdx)
        (mulf (Host.gather gather_S40000x128_S640000x1_S640000x128_1_0_n_n_0_1_1128 hw (col (wrapIdx src)))
          (broadcastInDim S640000x128 ![0, 1] bcast_S640000x1_S640000x128_0_1
            (broadcastInDim S640000x1 ![0] bcast_S640000_S640000x1_0 nrm))))
      (mulf hw (broadcastInDim S40000x128 ![0, 1] bcast_S40000x1_S40000x128_0_1 sc)))
    (broadcastInDim S40000x128 ![0, 1] bcast_S1x128_S40000x128_0_1 (broadcastInDim S1x128 ![1] bcast_S128_S1x128_1 b))

/-- The leaky rectifier with slope 0.01 on the negative side. -/
def leaky (v : FVec Ideal S40000x128 .f32) : FVec Ideal S40000x128 .f32 :=
  select (cmpf .oge v (broadcastInDim S40000x128 ![] bcast_S_S40000x128 (constant S_ .f32 0x00000000#32))) v
    (mulf (broadcastInDim S40000x128 ![] bcast_S_S40000x128 (constant S_ .f32 0x3C23D70A#32)) v)

/-- Per graph, the sum of its nodes' features. -/
def sums (batch : IVec S40000 32) (h : FVec Ideal S40000x128 .f32) : FVec Ideal S256x128 .f32 :=
  Host.scatterAdd scatter_S256x128_S40000x1_S40000x128_1_0_0_1
    (broadcastInDim S256x128 ![] bcast_S_S256x128 (constant S_ .f32 0x00000000#32))
    (broadcastInDim S40000x1 ![0] bcast_S40000_S40000x1_0 batch) h

/-- Per graph, max(number of its nodes, 1). -/
def counts (batch : IVec S40000 32) : FVec Ideal S256 .f32 :=
  maximumf (Host.scatterAdd scatter_S256_S40000x1_S40000_n_0_0_1
      (broadcastInDim S256 ![] bcast_S_S256 (constant S_ .f32 0x00000000#32))
      (broadcastInDim S40000x1 ![0] bcast_S40000_S40000x1_0 batch)
      (broadcastInDim S40000 ![] bcast_S_S40000 (constant S_ .f32 0x3F800000#32)))
    (broadcastInDim S256 ![] bcast_S_S256 (constant S_ .f32 0x3F800000#32))

/-- The graph embedding: the sums beside the means, [256, 256]. -/
def embeds (batch : IVec S40000 32) (h : FVec Ideal S40000x128 .f32) : FVec Ideal S256x256 .f32 :=
  concatenate S256x256 1 [⟨S256x128, sums batch h⟩,
    ⟨S256x128, Host.divf (sums batch h)
      (broadcastInDim S256x128 ![0, 1] bcast_S256x1_S256x128_0_1 (broadcastInDim S256x1 ![0] bcast_S256_S256x1_0 (counts batch)))⟩]
    concatenates_S256x128_S256x128_S256x256_d1

/-- The head's hidden layer after its matrix product: bias, then the rectifier. -/
def hidden (p : FVec Ideal S256x128 .f32) (b : FVec Ideal S128 .f32) : FVec Ideal S256x128 .f32 :=
  maximumf (addf p (broadcastInDim S256x128 ![0, 1] bcast_S1x128_S256x128_0_1 (broadcastInDim S1x128 ![1] bcast_S128_S1x128_1 b)))
    (broadcastInDim S256x128 ![] bcast_S_S256x128 (constant S_ .f32 0x00000000#32))

/-- The logits after their matrix product: the bias added. -/
def logits (p : FVec Ideal S256x10 .f32) (b : FVec Ideal S10 .f32) : FVec Ideal S256x10 .f32 :=
  addf p (broadcastInDim S256x10 ![0, 1] bcast_S1x10_S256x10_0_1 (broadcastInDim S1x10 ![1] bcast_S10_S1x10_1 b))

/-- exp (l − the row's maximum). -/
def shifted (l : FVec Ideal S256x10 .f32) : FVec Ideal S256x10 .f32 :=
  Host.exp (subf l (broadcastInDim S256x10 ![0, 1] bcast_S256x1_S256x10_0_1 (broadcastInDim S256x1 ![0] bcast_S256_S256x1_0
    (maximumf (broadcastInDim S256 ![] bcast_S_S256 (constant S_ .f32 0xFF800000#32))
      (Host.reduce FloatOps.maximumf l (constant S_ .f32 0xFF800000#32) reducesTo_S256x10_S256_d1 h_S_)))))

/-- The softmax of every row. -/
def softmax (l : FVec Ideal S256x10 .f32) : FVec Ideal S256x10 .f32 :=
  Host.divf (shifted l) (broadcastInDim S256x10 ![0, 1] bcast_S256x1_S256x10_0_1 (broadcastInDim S256x1 ![0] bcast_S256_S256x1_0
    (Host.reduceAdd (shifted l) (constant S_ .f32 0x00000000#32) reducesTo_S256x10_S256_d1 h_S_)))

/-- The three matrix products, as the host's dot_general (contracting the left operand's axis 1 with the right
    operand's axis 0). -/
def mm128 (x : FVec Ideal S40000x128 .f32) (w : FVec Ideal S128x128 .f32) : FVec Ideal S40000x128 .f32 :=
  Host.dotGeneral Cert.ReferenceIdeal.dot_S40000x128_S128x128_S40000x128_1_0_0_1_n_n none x w
def mmLin (x : FVec Ideal S256x256 .f32) (w : FVec Ideal S256x128 .f32) : FVec Ideal S256x128 .f32 :=
  Host.dotGeneral Cert.ReferenceIdeal.dot_S256x256_S256x128_S256x128_1_0_0_1_n_n none x w
def mmOut (x : FVec Ideal S256x128 .f32) (w : FVec Ideal S128x10 .f32) : FVec Ideal S256x10 .f32 :=
  Host.dotGeneral Cert.ReferenceIdeal.dot_S256x128_S128x10_S256x10_1_0_0_1_n_n none x w

/-- The node features after the three layers (a leaky rectifier after the first two, none after the third), the
    layers' sums taken at the index aggIdx. -/
def feats (aggIdx src dst : IVec S640000 32) (x : FVec Ideal S40000x128 .f32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) : FVec Ideal S40000x128 .f32 :=
  layer aggIdx src (norm src dst) (selfCol dst)
    (mm128 (leaky (layer aggIdx src (norm src dst) (selfCol dst)
      (mm128 (leaky (layer aggIdx src (norm src dst) (selfCol dst) (mm128 x W1) b1)) W2) b2)) W3) b3

/-- The logits from the graph embedding: two dense layers, a rectifier between them. -/
def logitsOf (e : FVec Ideal S256x256 .f32) (Wlin : FVec Ideal S256x128 .f32) (blin : FVec Ideal S128 .f32)
    (Wout : FVec Ideal S128x10 .f32) (bout : FVec Ideal S10 .f32) : FVec Ideal S256x10 .f32 :=
  logits (mmOut (hidden (mmLin e Wlin) blin) Wout) bout

end Cert.Spec

end
-- ==== Proof.PreIdx.lean ====
/-
  What the precondition says about the destination row of the edge list, and what follows for the index read
  Python-style: every destination index is ≥ 0 (as a signed word), so "v, or v + 40000 when v < 0" is v.
-/
import proofs.«147250_j29549374997129_1_alg».proof.Defs
import proofs.«147250_j29549374997129_1_alg».proof.Proof.Gen.Pre_finite_inputs
import proofs.«147250_j29549374997129_1_alg».proof.Proof.Spec
import Idealize.ShloMosaic.Lib.ReduceAll
import Idealize.ShloMosaic.Lib.Affine

set_option maxRecDepth 16384

noncomputable section

namespace Cert.PreIdx

open Idealize.ShloMosaic Idealize.SL.Sem Cert.KernelIdeal

/-- A rank-0 array has one index. -/
instance : Subsingleton Cert.Pre_finite_inputs.S_.Idx := ⟨fun a b => funext fun d => d.elim0⟩

/-- Where no entry is negative, an index vector read Python-style (v + 40000 for a negative v) is itself. -/
theorem wrapIdx_of_nonneg (D : IVec S640000 32) (h : ∀ e, IntOp.cmpi .sge (D e) (0#32) = 1#1) :
    Cert.Spec.wrapIdx D = D := by
  funext e
  have hz : (0#32 : BitVec 32).toInt = 0 := by decide
  have h0 : ¬ IntOp.cmpi .slt (D e) (0#32) = 1#1 := by
    rw [IntOp.cmpi_slt, hz]
    have := IntOp.cmpi_sge.mp (h e)
    rw [hz] at this
    omega
  show Scalar.select (IntOp.cmpi .slt (D e) (0#32)) _ (D e) = D e
  unfold Scalar.select
  rw [if_neg (show ¬ IntOp.cmpi .slt (D e) (0#32) = 1 from h0)]

variable (m : (ℓ : Loc nD τ sig) → Buf (Elt Ideal) ℓ)

/-- The precondition's last conjunct, read at an edge: the destination index of every edge is ≥ 0. -/
theorem dst_nonneg (h : Cert.Pre_KernelIdeal m) (c : Dev nD) (e : S640000.Idx) :
    IntOp.cmpi .sge (Cert.Spec.dstOf (m ((c.tc : Thread nD τ).loc main_arg1)) e) (0#32) = 1#1 := by
  have e0 := congrFun (h c) (fun a => a.elim0)
  dsimp only [Cert.Pre_finite_inputs.fn, Cert.Pre_finite_inputs.fn_part1, Cert.Pre_finite_inputs.fn_part2,
    Cert.Pre_finite_inputs.fn_part3] at e0
  have e1 := (IntOp.andi_eq_one.mp e0).2
  exact Host.reduce_andi_all _ _ _ _ _ e1 e

/-- Under the precondition the destination row read Python-style is the destination row. -/
theorem wrap_dst (h : Cert.Pre_KernelIdeal m) (c : Dev nD) :
    Cert.Spec.wrapIdx (Cert.Spec.dstOf (m ((c.tc : Thread nD τ).loc main_arg1)))
      = Cert.Spec.dstOf (m ((c.tc : Thread nD τ).loc main_arg1)) :=
  wrapIdx_of_nonneg _ (dst_nonneg m h c)

end Cert.PreIdx

end
-- ==== Proof.KRun.lean ====
/-
  The kernel program's run with its RESULTS named: every weakly fair execution of its @main terminates, nothing
  faulting, in a state where each of the three result buffers holds the contents the segment-by-segment fold of
  @main leaves there (`W14`: the host stretches' operations applied in order, each matrix-product region's output
  array at what its pipeline wrote back), and the thirteen argument buffers hold what they held at launch.
  It is the library's launch theorem for a program of several regions over the program's segments, the final
  thread state read against the final memory at every unscoped buffer.
-/
import proofs.«147250_j29549374997129_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the logits (`main_v125`), the probabilities (`main_v136`) and the graph embedding (`main_v116`)
    read at the end of the fold, and the arguments as launched. -/
theorem run_results : θ_run defs (onTc (τ := τ) (main (F := F))) ⟨m, fun _ => 0, ρ⟩ (fun r => ∀ c : Dev nD,
      r.2.mem ((c.tc : Thread nD τ).loc main_v125) = W14 m ρ c (Proc.devRef .tc main_v125)
      ∧ r.2.mem ((c.tc : Thread nD τ).loc main_v136) = W14 m ρ c (Proc.devRef .tc main_v136)
      ∧ r.2.mem ((c.tc : Thread nD τ).loc main_v116) = W14 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v125 (by decide)),
       h c _ (mem_uc main_v136 (by decide)),
       h c _ (mem_uc main_v116 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KRun

end
-- ==== Proof.KKeep.lean ====
import proofs.«147250_j29549374997129_1_alg».proof.Proof.Gen.KernelIdeal.Launch
import Idealize.ShloMosaic.Lib.StableHlo.Run

noncomputable section
namespace Cert.KKeep
open Idealize.ShloMosaic Cert.KernelIdeal Cert.KernelIdeal.Gen

variable {F : FTy → Type} [FloatOps F]

/-! What each host stretch writes, as a list of references; a reference outside the list keeps its contents through the
    stretch, from any contents `V`. -/

/-- the references the operations of `hostOps0` write -/
abbrev w0 : List (Ref sig .tc) := [
    main_v0, main_v1, main_v2, main_v3, main_cst, main_v4, main_c, main_v5, main_v6, main_c_0, main_v7, main_v8,
    main_v9, main_v10, main_cst_1, main_v11, main_v12, main_cst_2, main_v13, main_v14, main_v15, main_c_3, main_v16, main_v17,
    main_c_4, main_v18, main_v19, main_v20, main_v21, main_v22, main_c_5, main_v23, main_v24, main_c_6, main_v25, main_v26,
    main_v27, main_v28, main_v29, main_v30, main_cst_7, main_v31, main_v32, main_v33]
theorem writes0 : (hostOps0 : List (HloOp τ sig (Elt F))).Forall fun op => op.writes ⊆ (w0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps0` does not write keeps its contents -/
theorem keep0 (V : Valuation τ sig (Elt F)) {r : Ref sig .tc} (h : r ∉ w0) :
    StableHlo.after hostOps0 V (Proc.devRef .tc r) = V (Proc.devRef .tc r) :=
  StableHlo.after_of_writes_sub hostOps0 V writes0 h

/-- the references the operations of `hostOps1` write -/
abbrev w1 : List (Ref sig .tc) := [
    main_c_8, main_v35, main_v36, main_c_9, main_v37, main_v38, main_v39, main_v40, main_v41, main_v42, main_v43, main_v44,
    main_cst_10, main_v45, main_v46, main_v47, main_v48, main_v49, main_v50, main_v51, main_v52, main_v53, main_cst_11, main_v54,
    main_v55, main_cst_12, main_v56, main_v57]
theorem writes1 : (hostOps1 : List (HloOp τ sig (Elt F))).Forall fun op => op.writes ⊆ (w1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps1` does not write keeps its contents -/
theorem keep1 (V : Valuation τ sig (Elt F)) {r : Ref sig .tc} (h : r ∉ w1) :
    StableHlo.after hostOps1 V (Proc.devRef .tc r) = V (Proc.devRef .tc r) :=
  StableHlo.after_of_writes_sub hostOps1 V writes1 h

/-- the references the operations of `hostOps1_1` write -/
abbrev w1b : List (Ref sig .tc) := [
    main_v58]
theorem writes1b : (hostOps1_1 : List (HloOp τ sig (Elt F))).Forall fun op => op.writes ⊆ (w1b.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps1_1` does not write keeps its contents -/
theorem keep1b (V : Valuation τ sig (Elt F)) {r : Ref sig .tc} (h : r ∉ w1b) :
    StableHlo.after hostOps1_1 V (Proc.devRef .tc r) = V (Proc.devRef .tc r) :=
  StableHlo.after_of_writes_sub hostOps1_1 V writes1b h

/-- the references the operations of `hostOps2` write -/
abbrev w2 : List (Ref sig .tc) := [
    main_c_13, main_v60, main_v61, main_c_14, main_v62, main_v63, main_v64, main_v65, main_v66, main_v67, main_v68, main_v69,
    main_cst_15, main_v70, main_v71, main_v72, main_v73, main_v74, main_v75, main_v76, main_v77, main_v78, main_cst_16, main_v79,
    main_v80, main_cst_17, main_v81, main_v82]
theorem writes2 : (hostOps2 : List (HloOp τ sig (Elt F))).Forall fun op => op.writes ⊆ (w2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps2` does not write keeps its contents -/
theorem keep2 (V : Valuation τ sig (Elt F)) {r : Ref sig .tc} (h : r ∉ w2) :
    StableHlo.after hostOps2 V (Proc.devRef .tc r) = V (Proc.devRef .tc r) :=
  StableHlo.after_of_writes_sub hostOps2 V writes2 h

/-- the references the operations of `hostOps2_1` write -/
abbrev w2b : List (Ref sig .tc) := [
    main_v83]
theorem writes2b : (hostOps2_1 : List (HloOp τ sig (Elt F))).Forall fun op => op.writes ⊆ (w2b.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps2_1` does not write keeps its contents -/
theorem keep2b (V : Valuation τ sig (Elt F)) {r : Ref sig .tc} (h : r ∉ w2b) :
    StableHlo.after hostOps2_1 V (Proc.devRef .tc r) = V (Proc.devRef .tc r) :=
  StableHlo.after_of_writes_sub hostOps2_1 V writes2b h

/-- the references the operations of `hostOps3` write -/
abbrev w3 : List (Ref sig .tc) := [
    main_c_18, main_v85, main_v86, main_c_19, main_v87, main_v88, main_v89, main_v90, main_v91, main_v92, main_v93, main_v94,
    main_cst_20, main_v95, main_v96, main_v97, main_v98, main_v99, main_v100, main_v101, main_v102, main_v103, main_cst_21, main_v104,
    main_v105, main_v106, main_cst_22, main_v107, main_cst_23, main_v108, main_v109, main_v110, main_cst_24, main_v111, main_v112, main_v113,
    main_v114, main_v115, main_v116]
theorem writes3 : (hostOps3 : List (HloOp τ sig (Elt F))).Forall fun op => op.writes ⊆ (w3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps3` does not write keeps its contents -/
theorem keep3 (V : Valuation τ sig (Elt F)) {r : Ref sig .tc} (h : r ∉ w3) :
    StableHlo.after hostOps3 V (Proc.devRef .tc r) = V (Proc.devRef .tc r) :=
  StableHlo.after_of_writes_sub hostOps3 V writes3 h

/-- the references the operations of `hostOps4` write -/
abbrev w4 : List (Ref sig .tc) := [
    main_v118, main_v119, main_v120]
theorem writes4 : (hostOps4 : List (HloOp τ sig (Elt F))).Forall fun op => op.writes ⊆ (w4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps4` does not write keeps its contents -/
theorem keep4 (V : Valuation τ sig (Elt F)) {r : Ref sig .tc} (h : r ∉ w4) :
    StableHlo.after hostOps4 V (Proc.devRef .tc r) = V (Proc.devRef .tc r) :=
  StableHlo.after_of_writes_sub hostOps4 V writes4 h

/-- the references the operations of `hostOps4_1` write -/
abbrev w4b : List (Ref sig .tc) := [
    main_call2_cst, main_call2_v0, main_v121]
theorem writes4b : (hostOps4_1 : List (HloOp τ sig (Elt F))).Forall fun op => op.writes ⊆ (w4b.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps4_1` does not write keeps its contents -/
theorem keep4b (V : Valuation τ sig (Elt F)) {r : Ref sig .tc} (h : r ∉ w4b) :
    StableHlo.after hostOps4_1 V (Proc.devRef .tc r) = V (Proc.devRef .tc r) :=
  StableHlo.after_of_writes_sub hostOps4_1 V writes4b h

/-- the references the operations of `hostOps5` write -/
abbrev w5 : List (Ref sig .tc) := [
    main_v123, main_v124, main_v125, main_cst_25, main_v126, main_cst_26, main_v127, main_v128, main_v129, main_v130, main_v131, main_v132,
    main_cst_27, main_v133, main_v134, main_v135, main_v136]
theorem writes5 : (hostOps5 : List (HloOp τ sig (Elt F))).Forall fun op => op.writes ⊆ (w5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- a reference `hostOps5` does not write keeps its contents -/
theorem keep5 (V : Valuation τ sig (Elt F)) {r : Ref sig .tc} (h : r ∉ w5) :
    StableHlo.after hostOps5 V (Proc.devRef .tc r) = V (Proc.devRef .tc r) :=
  StableHlo.after_of_writes_sub hostOps5 V writes5 h

end Cert.KKeep
end
-- ==== Proof.KHost0.lean ====
import proofs.«147250_j29549374997129_1_alg».proof.Proof.Gen.KernelIdeal.Launch
import proofs.«147250_j29549374997129_1_alg».proof.Proof.Spec
import Idealize.ShloMosaic.Lib.StableHlo.Run

noncomputable section
namespace Cert.KHost
open Idealize.ShloMosaic Cert.KernelIdeal Cert.KernelIdeal.Gen

/-! The first host stretch, from any contents `V`: the two rows of the edge list, the edge weights and the self-loop
    weights, each as a function of the edge list alone. -/

/-- row 0 of the edge list: the sources -/
theorem h0_v1 (V : Valuation τ sig (Elt Ideal)) :
    StableHlo.after hostOps0 V (Proc.devRef .tc main_v1) = Cert.Spec.srcOf (V (Proc.devRef .tc main_arg1)) := by
  after_results_simp
  rfl

/-- row 1 of the edge list: the destinations -/
theorem h0_v3 (V : Valuation τ sig (Elt Ideal)) :
    StableHlo.after hostOps0 V (Proc.devRef .tc main_v3) = Cert.Spec.dstOf (V (Proc.devRef .tc main_arg1)) := by
  after_results_simp
  rfl

/-- the edge weights deg(src e)^(-1/2) · deg(dst e)^(-1/2), deg counted over the destinations -/
theorem h0_v30 (V : Valuation τ sig (Elt Ideal)) :
    StableHlo.after hostOps0 V (Proc.devRef .tc main_v30)
      = Cert.Spec.norm (Cert.Spec.srcOf (V (Proc.devRef .tc main_arg1))) (Cert.Spec.dstOf (V (Proc.devRef .tc main_arg1))) := by
  after_results_simp
  rfl

/-- the self-loop weights 1 / deg n, as a column -/
theorem h0_v33 (V : Valuation τ sig (Elt Ideal)) :
    StableHlo.after hostOps0 V (Proc.devRef .tc main_v33) = Cert.Spec.selfCol (Cert.Spec.dstOf (V (Proc.devRef .tc main_arg1))) := by
  after_results_simp
  rfl

end Cert.KHost
end
-- ==== Proof.KHost1.lean ====
import proofs.«147250_j29549374997129_1_alg».proof.Proof.Gen.KernelIdeal.Launch
import proofs.«147250_j29549374997129_1_alg».proof.Proof.Spec
import Idealize.ShloMosaic.Lib.StableHlo.Run

noncomputable section
namespace Cert.KHost
open Idealize.ShloMosaic Cert.KernelIdeal Cert.KernelIdeal.Gen

/-! One graph-convolution layer after its matrix product, from any contents `V`: the messages norm e · hw[src e] summed at
    the destination index itself, the self-loop term and the bias; then the leaky rectifier as the selection
    (x ≥ 0 ? x : 0.01 · x). -/

/-- the selection alone: its three operands are whatever the contents hold -/
theorem h1_sel (V : Valuation τ sig (Elt Ideal)) :
    StableHlo.after hostOps1_1 V (Proc.devRef .tc main_v58)
      = select (V (Proc.devRef .tc main_v55) : (⟨S40000x128, .i1⟩ : BufTy).Contents (Elt Ideal))
          (V (Proc.devRef .tc main_v53) : (⟨S40000x128, .f32⟩ : BufTy).Contents (Elt Ideal))
          (V (Proc.devRef .tc main_v57) : (⟨S40000x128, .f32⟩ : BufTy).Contents (Elt Ideal)) := by
  after_results_simp
  simp only [cast_eq]

/-- the layer's sum before the rectifier -/
theorem h1_pre (V : Valuation τ sig (Elt Ideal)) :
    StableHlo.after hostOps1 V (Proc.devRef .tc main_v53)
      = Cert.Spec.layer (V (Proc.devRef .tc main_v3)) (V (Proc.devRef .tc main_v1)) (V (Proc.devRef .tc main_v30)) (V (Proc.devRef .tc main_v33))
          (V (Proc.devRef .tc main_v34)) (V (Proc.devRef .tc main_arg4)) := by
  after_results_simp
  rfl

/-- the layer's output: the rectifier's three operands are the sum's sign test, the sum, and 0.01 · the sum -/
theorem h1_out (V : Valuation τ sig (Elt Ideal)) :
    StableHlo.after hostOps1_1 (StableHlo.after hostOps1 V) (Proc.devRef .tc main_v58)
      = Cert.Spec.leaky (Cert.Spec.layer (V (Proc.devRef .tc main_v3)) (V (Proc.devRef .tc main_v1)) (V (Proc.devRef .tc main_v30)) (V (Proc.devRef .tc main_v33))
          (V (Proc.devRef .tc main_v34)) (V (Proc.devRef .tc main_arg4))) := by
  refine (h1_sel _).trans ?_
  after_results_simp
  rfl

end Cert.KHost
end
-- ==== Proof.KHost2.lean ====
import proofs.«147250_j29549374997129_1_alg».proof.Proof.Gen.KernelIdeal.Launch
import proofs.«147250_j29549374997129_1_alg».proof.Proof.Spec
import Idealize.ShloMosaic.Lib.StableHlo.Run

noncomputable section
namespace Cert.KHost
open Idealize.ShloMosaic Cert.KernelIdeal Cert.KernelIdeal.Gen

/-! One graph-convolution layer after its matrix product, from any contents `V`: the messages norm e · hw[src e] summed at
    the destination index itself, the self-loop term and the bias; then the leaky rectifier as the selection
    (x ≥ 0 ? x : 0.01 · x). -/

/-- the selection alone: its three operands are whatever the contents hold -/
theorem h2_sel (V : Valuation τ sig (Elt Ideal)) :
    StableHlo.after hostOps2_1 V (Proc.devRef .tc main_v83)
      = select (V (Proc.devRef .tc main_v80) : (⟨S40000x128, .i1⟩ : BufTy).Contents (Elt Ideal))
          (V (Proc.devRef .tc main_v78) : (⟨S40000x128, .f32⟩ : BufTy).Contents (Elt Ideal))
          (V (Proc.devRef .tc main_v82) : (⟨S40000x128, .f32⟩ : BufTy).Contents (Elt Ideal)) := by
  after_results_simp
  simp only [cast_eq]

/-- the layer's sum before the rectifier -/
theorem h2_pre (V : Valuation τ sig (Elt Ideal)) :
    StableHlo.after hostOps2 V (Proc.devRef .tc main_v78)
      = Cert.Spec.layer (V (Proc.devRef .tc main_v3)) (V (Proc.devRef .tc main_v1)) (V (Proc.devRef .tc main_v30)) (V (Proc.devRef .tc main_v33))
          (V (Proc.devRef .tc main_v59)) (V (Proc.devRef .tc main_arg6)) := by
  after_results_simp
  rfl

/-- the layer's output: the rectifier's three operands are the sum's sign test, the sum, and 0.01 · the sum -/
theorem h2_out (V : Valuation τ sig (Elt Ideal)) :
    StableHlo.after hostOps2_1 (StableHlo.after hostOps2 V) (Proc.devRef .tc main_v83)
      = Cert.Spec.leaky (Cert.Spec.layer (V (Proc.devRef .tc main_v3)) (V (Proc.devRef .tc main_v1)) (V (Proc.devRef .tc main_v30)) (V (Proc.devRef .tc main_v33))
          (V (Proc.devRef .tc main_v59)) (V (Proc.devRef .tc main_arg6))) := by
  refine (h2_sel _).trans ?_
  after_results_simp
  rfl

end Cert.KHost
end
-- ==== Proof.KTail.lean ====
/-
  The pooling read-off of the third layer's host stretch.

  The stretch first forms the layer's output  h = layer(aggIdx, src, norm, selfCol, hw, b)  (its first 22 operations),
  then pools it (its remaining operations): per graph the sum of its nodes' rows of h, the count of its nodes (at
  least 1), the mean = sum / count, and the [256, 256] embedding = the sums beside the means. The pooling operations
  read h only as a whole array, so they are read once for ANY contents with h an atom, and the stretch is the two
  parts run one after the other.
-/
import proofs.«147250_j29549374997129_1_alg».proof.Proof.Gen.KernelIdeal.Launch
import proofs.«147250_j29549374997129_1_alg».proof.Proof.Spec
import Idealize.ShloMosaic.Lib.StableHlo.Run

noncomputable section

namespace Cert.KTail

open Idealize.ShloMosaic Cert.KernelIdeal Cert.KernelIdeal.Gen

/-- Two lists of operations run one after the other are their concatenation run as one. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- The pooling operations, from ANY contents W: the embedding of the graph assignment and the node features W holds. -/
theorem pool_embeds (W : Valuation τ sig (Elt Ideal)) :
    StableHlo.after (List.drop 22 (hostOps3 (F := Ideal))) W (Proc.devRef .tc main_v116)
      = Cert.Spec.embeds (W (Proc.devRef .tc main_arg2)) (W (Proc.devRef .tc main_v103)) := by
  simp only [List.drop_succ_cons, List.drop_zero]
  after_results_simp
  rfl

/-- The layer's operations leave the graph assignment as it was. -/
theorem pre_batch (V : Valuation τ sig (Elt Ideal)) :
    StableHlo.after (List.take 22 (hostOps3 (F := Ideal))) V (Proc.devRef .tc main_arg2) = V (Proc.devRef .tc main_arg2) := by
  simp only [List.take_succ_cons, List.take_zero]
  after_results_simp

/-- The layer's operations leave the layer of the contents they started from. -/
theorem pre_feats (V : Valuation τ sig (Elt Ideal)) :
    StableHlo.after (List.take 22 (hostOps3 (F := Ideal))) V (Proc.devRef .tc main_v103)
      = Cert.Spec.layer (V (Proc.devRef .tc main_v3)) (V (Proc.devRef .tc main_v1)) (V (Proc.devRef .tc main_v30))
          (V (Proc.devRef .tc main_v33)) (V (Proc.devRef .tc main_v84)) (V (Proc.devRef .tc main_arg8)) := by
  simp only [List.take_succ_cons, List.take_zero]
  after_results_simp
  rfl

/-- The whole stretch: the embedding of the layer's output. -/
theorem host3_embeds (V : Valuation τ sig (Elt Ideal)) :
    StableHlo.after hostOps3 V (Proc.devRef .tc main_v116)
      = Cert.Spec.embeds (V (Proc.devRef .tc main_arg2))
          (Cert.Spec.layer (V (Proc.devRef .tc main_v3)) (V (Proc.devRef .tc main_v1)) (V (Proc.devRef .tc main_v30))
            (V (Proc.devRef .tc main_v33)) (V (Proc.devRef .tc main_v84)) (V (Proc.devRef .tc main_arg8))) := by
  have h : StableHlo.after (hostOps3 (F := Ideal)) V
      = StableHlo.after (List.drop 22 hostOps3) (StableHlo.after (List.take 22 hostOps3) V) := by
    rw [← after_append, List.take_append_drop]
  rw [h, pool_embeds, pre_batch, pre_feats]

end Cert.KTail

end
-- ==== Proof.KHost3.lean ====
import proofs.«147250_j29549374997129_1_alg».proof.Proof.Gen.KernelIdeal.Launch
import proofs.«147250_j29549374997129_1_alg».proof.Proof.Spec
import Idealize.ShloMosaic.Lib.StableHlo.Run
import proofs.«147250_j29549374997129_1_alg».proof.Proof.KTail

noncomputable section
namespace Cert.KHost
open Idealize.ShloMosaic Cert.KernelIdeal Cert.KernelIdeal.Gen

/-! The third layer (no rectifier) and the pooling, from any contents `V`: the graph embedding is the per-graph sums of the
    node features beside their means. -/

/-- the graph embedding from the third matrix product -/
theorem h3_v116 (V : Valuation τ sig (Elt Ideal)) :
    StableHlo.after hostOps3 V (Proc.devRef .tc main_v116)
      = Cert.Spec.embeds (V (Proc.devRef .tc main_arg2))
          (Cert.Spec.layer (V (Proc.devRef .tc main_v3)) (V (Proc.devRef .tc main_v1)) (V (Proc.devRef .tc main_v30)) (V (Proc.devRef .tc main_v33))
          (V (Proc.devRef .tc main_v84)) (V (Proc.devRef .tc main_arg8))) :=
  Cert.KTail.host3_embeds V

end Cert.KHost
end
-- ==== Proof.KHost4.lean ====
import proofs.«147250_j29549374997129_1_alg».proof.Proof.Gen.KernelIdeal.Launch
import proofs.«147250_j29549374997129_1_alg».proof.Proof.Spec
import Idealize.ShloMosaic.Lib.StableHlo.Run

noncomputable section
namespace Cert.KHost
open Idealize.ShloMosaic Cert.KernelIdeal Cert.KernelIdeal.Gen

/-! The head, from any contents `V`: bias and rectifier after the first dense product; bias after the second; the softmax. -/

/-- the hidden layer: max(p + b, 0) -/
theorem h4_v121 (V : Valuation τ sig (Elt Ideal)) :
    StableHlo.after hostOps4_1 (StableHlo.after hostOps4 V) (Proc.devRef .tc main_v121)
      = Cert.Spec.hidden (V (Proc.devRef .tc main_v117)) (V (Proc.devRef .tc main_arg10)) := by
  after_results_simp
  simp only [cast_eq]
  rfl

/-- the logits: the second dense product plus its bias -/
theorem h5_v125 (V : Valuation τ sig (Elt Ideal)) :
    StableHlo.after hostOps5 V (Proc.devRef .tc main_v125) = Cert.Spec.logits (V (Proc.devRef .tc main_v122)) (V (Proc.devRef .tc main_arg12)) := by
  after_results_simp
  rfl

/-- the probabilities: the softmax of the logits' rows -/
theorem h5_v136 (V : Valuation τ sig (Elt Ideal)) :
    StableHlo.after hostOps5 V (Proc.devRef .tc main_v136)
      = Cert.Spec.softmax (Cert.Spec.logits (V (Proc.devRef .tc main_v122)) (V (Proc.devRef .tc main_arg12))) := by
  after_results_simp
  rfl

end Cert.KHost
end
-- ==== Proof.KWalk.lean ====
import proofs.«147250_j29549374997129_1_alg».proof.Proof.Gen.KernelIdeal.Frame
import proofs.«147250_j29549374997129_1_alg».proof.Proof.Spec
import proofs.«147250_j29549374997129_1_alg».proof.Proof.KKeep
import proofs.«147250_j29549374997129_1_alg».proof.Proof.KHost0
import proofs.«147250_j29549374997129_1_alg».proof.Proof.KHost1
import proofs.«147250_j29549374997129_1_alg».proof.Proof.KHost2
import proofs.«147250_j29549374997129_1_alg».proof.Proof.KHost3
import proofs.«147250_j29549374997129_1_alg».proof.Proof.KHost4

set_option maxRecDepth 16384

noncomputable section
namespace Cert.KChain
open Idealize.ShloMosaic Idealize.ShloMosaic.TcCoe Cert.KernelIdeal Cert.KernelIdeal.Gen Cert.KKeep Cert.KHost

/-! The buffer contents at the end of the program, read back boundary by boundary to functions of the launch memory.
    Every stretch is entered through its lemma "from any contents"; between boundaries a buffer that is not written keeps its
    contents.  The five matrix products enter as hypotheses on what each pipeline leaves in its output array. -/

variable (m : (ℓ : Loc nD τ sig) → Buf (Elt Ideal) ℓ) (ρ : Dev nD → PrngReg) (c : Dev nD)

/-! ## The launch memory's functions -/

/-- the sources and the destinations of the edges -/
def src : IVec S640000 32 := Cert.Spec.srcOf (m ((c : Thread nD τ).loc main_arg1))
def dst : IVec S640000 32 := Cert.Spec.dstOf (m ((c : Thread nD τ).loc main_arg1))
/-- the edge weights and the self-loop weights -/
def nrm : FVec Ideal S640000 .f32 := Cert.Spec.norm (src m c) (dst m c)
def slf : FVec Ideal S40000x1 .f32 := Cert.Spec.selfCol (dst m c)
/-- a layer after its matrix product `hw`, the messages summed at the destination index itself -/
def lay (hw : FVec Ideal S40000x128 .f32) (b : FVec Ideal S128 .f32) : FVec Ideal S40000x128 .f32 :=
  Cert.Spec.layer (dst m c) (src m c) (nrm m c) (slf m c) hw b
/-- the node features after the first, the second and the third layer -/
def f1 : FVec Ideal S40000x128 .f32 := Cert.Spec.leaky (lay m c (Cert.Spec.mm128 (m ((c : Thread nD τ).loc main_arg0)) (m ((c : Thread nD τ).loc main_arg3))) (m ((c : Thread nD τ).loc main_arg4)))
def f2 : FVec Ideal S40000x128 .f32 := Cert.Spec.leaky (lay m c (Cert.Spec.mm128 (f1 m c) (m ((c : Thread nD τ).loc main_arg5))) (m ((c : Thread nD τ).loc main_arg6)))
def f3 : FVec Ideal S40000x128 .f32 := lay m c (Cert.Spec.mm128 (f2 m c) (m ((c : Thread nD τ).loc main_arg7))) (m ((c : Thread nD τ).loc main_arg8))

/-- the graph embedding as the kernel program computes it: the layers sum at the destination index ITSELF -/
def E : FVec Ideal S256x256 .f32 :=
  Cert.Spec.embeds (m ((c : Thread nD τ).loc main_arg2)) (Cert.Spec.feats (Cert.Spec.dstOf (m ((c : Thread nD τ).loc main_arg1))) (Cert.Spec.srcOf (m ((c : Thread nD τ).loc main_arg1))) (Cert.Spec.dstOf (m ((c : Thread nD τ).loc main_arg1)))
    (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

/-- the three layers, one after the other, are `feats` -/
theorem E_eq : E m c = Cert.Spec.embeds (m ((c : Thread nD τ).loc main_arg2)) (f3 m c) := rfl

/-! ## A buffer that is not written keeps its contents: boundary by boundary -/

/-- the conditions under which a reference passes a host stretch (it is not among the written references) or a matrix-product
    region (it is none of the region's arrays) -/
abbrev C1 (b : Ref sig .tc) : Prop := b ∉ w0
abbrev C2 (b : Ref sig .tc) : Prop := ∀ w, Pipeline.arrRef spec0 w ≠ b
abbrev C4 (b : Ref sig .tc) : Prop := b ∉ w1 ∧ b ∉ w1b
abbrev C5 (b : Ref sig .tc) : Prop := ∀ w, Pipeline.arrRef spec1 w ≠ b
abbrev C7 (b : Ref sig .tc) : Prop := b ∉ w2 ∧ b ∉ w2b
abbrev C8 (b : Ref sig .tc) : Prop := ∀ w, Pipeline.arrRef spec2 w ≠ b
abbrev C9 (b : Ref sig .tc) : Prop := b ∉ w3
abbrev C10 (b : Ref sig .tc) : Prop := ∀ w, Pipeline.arrRef spec3 w ≠ b
abbrev C12 (b : Ref sig .tc) : Prop := b ∉ w4 ∧ b ∉ w4b
abbrev C13 (b : Ref sig .tc) : Prop := ∀ w, Pipeline.arrRef spec4 w ≠ b
abbrev C14 (b : Ref sig .tc) : Prop := b ∉ w5

variable {b : Ref sig .tc}

theorem s1 (h : C1 b) : W1 m ρ c (Proc.devRef .tc b) = (m ((c : Thread nD τ).loc b)) := keep0 (W0 m ρ c) h
theorem s2 (h : C2 b) : W2 m ρ c (Proc.devRef .tc b) = W1 m ρ c (Proc.devRef .tc b) := W2_of_ne m ρ c b h
theorem s4 (h : C4 b) : W4 m ρ c (Proc.devRef .tc b) = W2 m ρ c (Proc.devRef .tc b) := (keep1b (W3 m ρ c) h.2).trans (keep1 (W2 m ρ c) h.1)
theorem s5 (h : C5 b) : W5 m ρ c (Proc.devRef .tc b) = W4 m ρ c (Proc.devRef .tc b) := W5_of_ne m ρ c b h
theorem s7 (h : C7 b) : W7 m ρ c (Proc.devRef .tc b) = W5 m ρ c (Proc.devRef .tc b) := (keep2b (W6 m ρ c) h.2).trans (keep2 (W5 m ρ c) h.1)
theorem s8 (h : C8 b) : W8 m ρ c (Proc.devRef .tc b) = W7 m ρ c (Proc.devRef .tc b) := W8_of_ne m ρ c b h
theorem s9 (h : C9 b) : W9 m ρ c (Proc.devRef .tc b) = W8 m ρ c (Proc.devRef .tc b) := keep3 (W8 m ρ c) h
theorem s10 (h : C10 b) : W10 m ρ c (Proc.devRef .tc b) = W9 m ρ c (Proc.devRef .tc b) := W10_of_ne m ρ c b h
theorem s12 (h : C12 b) : W12 m ρ c (Proc.devRef .tc b) = W10 m ρ c (Proc.devRef .tc b) := (keep4b (W11 m ρ c) h.2).trans (keep4 (W10 m ρ c) h.1)
theorem s13 (h : C13 b) : W13 m ρ c (Proc.devRef .tc b) = W12 m ρ c (Proc.devRef .tc b) := W13_of_ne m ρ c b h
theorem s14 (h : C14 b) : W14 m ρ c (Proc.devRef .tc b) = W13 m ρ c (Proc.devRef .tc b) := keep5 (W13 m ρ c) h

/-- a reference nothing has written yet holds the launch memory -/
abbrev U2 (b : Ref sig .tc) : Prop := C1 b ∧ C2 b
abbrev U4 (b : Ref sig .tc) : Prop := U2 b ∧ C4 b
abbrev U5 (b : Ref sig .tc) : Prop := U4 b ∧ C5 b
abbrev U7 (b : Ref sig .tc) : Prop := U5 b ∧ C7 b
abbrev U8 (b : Ref sig .tc) : Prop := U7 b ∧ C8 b
abbrev U9 (b : Ref sig .tc) : Prop := U8 b ∧ C9 b
abbrev U10 (b : Ref sig .tc) : Prop := U9 b ∧ C10 b
abbrev U12 (b : Ref sig .tc) : Prop := U10 b ∧ C12 b
abbrev U13 (b : Ref sig .tc) : Prop := U12 b ∧ C13 b

theorem a2 (h : U2 b) : W2 m ρ c (Proc.devRef .tc b) = (m ((c : Thread nD τ).loc b)) := (s2 m ρ c h.2).trans (s1 m ρ c h.1)
theorem a4 (h : U4 b) : W4 m ρ c (Proc.devRef .tc b) = (m ((c : Thread nD τ).loc b)) := (s4 m ρ c h.2).trans (a2 m ρ c h.1)
theorem a5 (h : U5 b) : W5 m ρ c (Proc.devRef .tc b) = (m ((c : Thread nD τ).loc b)) := (s5 m ρ c h.2).trans (a4 m ρ c h.1)
theorem a7 (h : U7 b) : W7 m ρ c (Proc.devRef .tc b) = (m ((c : Thread nD τ).loc b)) := (s7 m ρ c h.2).trans (a5 m ρ c h.1)
theorem a8 (h : U8 b) : W8 m ρ c (Proc.devRef .tc b) = (m ((c : Thread nD τ).loc b)) := (s8 m ρ c h.2).trans (a7 m ρ c h.1)
theorem a9 (h : U9 b) : W9 m ρ c (Proc.devRef .tc b) = (m ((c : Thread nD τ).loc b)) := (s9 m ρ c h.2).trans (a8 m ρ c h.1)
theorem a10 (h : U10 b) : W10 m ρ c (Proc.devRef .tc b) = (m ((c : Thread nD τ).loc b)) := (s10 m ρ c h.2).trans (a9 m ρ c h.1)
theorem a12 (h : U12 b) : W12 m ρ c (Proc.devRef .tc b) = (m ((c : Thread nD τ).loc b)) := (s12 m ρ c h.2).trans (a10 m ρ c h.1)
theorem a13 (h : U13 b) : W13 m ρ c (Proc.devRef .tc b) = (m ((c : Thread nD τ).loc b)) := (s13 m ρ c h.2).trans (a12 m ρ c h.1)

/-! ## The graph's constants, computed once by the first stretch and read by every layer -/

/-- contents at which the four buffers of the graph's constants hold them -/
structure Graph (W : Valuation τ sig (Elt Ideal)) : Prop where
  v1 : W (Proc.devRef .tc main_v1) = src m c
  v3 : W (Proc.devRef .tc main_v3) = dst m c
  v30 : W (Proc.devRef .tc main_v30) = nrm m c
  v33 : W (Proc.devRef .tc main_v33) = slf m c

theorem graph1 : Graph m c (W1 m ρ c) :=
  ⟨h0_v1 (W0 m ρ c), h0_v3 (W0 m ρ c), h0_v30 (W0 m ρ c), h0_v33 (W0 m ρ c)⟩
theorem graph2 : Graph m c (W2 m ρ c) :=
  have g := graph1 m ρ c
  ⟨(s2 m ρ c (by decide)).trans g.v1, (s2 m ρ c (by decide)).trans g.v3, (s2 m ρ c (by decide)).trans g.v30,
    (s2 m ρ c (by decide)).trans g.v33⟩
theorem graph5 : Graph m c (W5 m ρ c) :=
  have g := graph2 m ρ c
  ⟨(s5 m ρ c (by decide)).trans ((s4 m ρ c (by decide)).trans g.v1), (s5 m ρ c (by decide)).trans ((s4 m ρ c (by decide)).trans g.v3),
    (s5 m ρ c (by decide)).trans ((s4 m ρ c (by decide)).trans g.v30), (s5 m ρ c (by decide)).trans ((s4 m ρ c (by decide)).trans g.v33)⟩
theorem graph8 : Graph m c (W8 m ρ c) :=
  have g := graph5 m ρ c
  ⟨(s8 m ρ c (by decide)).trans ((s7 m ρ c (by decide)).trans g.v1), (s8 m ρ c (by decide)).trans ((s7 m ρ c (by decide)).trans g.v3),
    (s8 m ρ c (by decide)).trans ((s7 m ρ c (by decide)).trans g.v30), (s8 m ρ c (by decide)).trans ((s7 m ρ c (by decide)).trans g.v33)⟩

/-! ## The host stretches at contents that hold the graph's constants -/

variable {m c} in
theorem layer1 {W : Valuation τ sig (Elt Ideal)} (g : Graph m c W) {x : FVec Ideal S40000x128 .f32} {y : FVec Ideal S128 .f32}
    (hx : W (Proc.devRef .tc main_v34) = x) (hy : W (Proc.devRef .tc main_arg4) = y) :
    StableHlo.after hostOps1_1 (StableHlo.after hostOps1 W) (Proc.devRef .tc main_v58) = Cert.Spec.leaky (lay m c x y) := by
  rw [h1_out, g.v1, g.v3, g.v30, g.v33, hx, hy]; rfl

variable {m c} in
theorem layer2 {W : Valuation τ sig (Elt Ideal)} (g : Graph m c W) {x : FVec Ideal S40000x128 .f32} {y : FVec Ideal S128 .f32}
    (hx : W (Proc.devRef .tc main_v59) = x) (hy : W (Proc.devRef .tc main_arg6) = y) :
    StableHlo.after hostOps2_1 (StableHlo.after hostOps2 W) (Proc.devRef .tc main_v83) = Cert.Spec.leaky (lay m c x y) := by
  rw [h2_out, g.v1, g.v3, g.v30, g.v33, hx, hy]; rfl

variable {m c} in
theorem layer3 {W : Valuation τ sig (Elt Ideal)} (g : Graph m c W) {x : FVec Ideal S40000x128 .f32} {y : FVec Ideal S128 .f32}
    {z : IVec S40000 32} (hx : W (Proc.devRef .tc main_v84) = x) (hy : W (Proc.devRef .tc main_arg8) = y) (hz : W (Proc.devRef .tc main_arg2) = z) :
    StableHlo.after hostOps3 W (Proc.devRef .tc main_v116) = Cert.Spec.embeds z (lay m c x y) := by
  rw [h3_v116, g.v1, g.v3, g.v30, g.v33, hx, hy, hz]; rfl

/-! ## The walk -/

section Walk

variable
  (hv0 : ∀ (V : (c : Dev nD) → (b : Ref sig .tc) → Buf (Elt Ideal) ((c : Thread nD τ).loc b)) (c : Dev nD),
    (dat0 (F := Ideal) V c).arrAt 2 cfg0.N = Cert.Spec.mm128 (V c main_arg0) (V c main_arg3))
  (hv1 : ∀ (V : (c : Dev nD) → (b : Ref sig .tc) → Buf (Elt Ideal) ((c : Thread nD τ).loc b)) (c : Dev nD),
    (dat1 (F := Ideal) V c).arrAt 2 cfg1.N = Cert.Spec.mm128 (V c main_v58) (V c main_arg5))
  (hv2 : ∀ (V : (c : Dev nD) → (b : Ref sig .tc) → Buf (Elt Ideal) ((c : Thread nD τ).loc b)) (c : Dev nD),
    (dat2 (F := Ideal) V c).arrAt 2 cfg2.N = Cert.Spec.mm128 (V c main_v83) (V c main_arg7))
  (hv3 : ∀ (V : (c : Dev nD) → (b : Ref sig .tc) → Buf (Elt Ideal) ((c : Thread nD τ).loc b)) (c : Dev nD),
    (dat3 (F := Ideal) V c).arrAt 2 cfg3.N = Cert.Spec.mmLin (V c main_v116) (V c main_arg9))
  (hv4 : ∀ (V : (c : Dev nD) → (b : Ref sig .tc) → Buf (Elt Ideal) ((c : Thread nD τ).loc b)) (c : Dev nD),
    (dat4 (F := Ideal) V c).arrAt 2 cfg4.N = Cert.Spec.mmOut (V c main_v121) (V c main_arg11))

include hv0 in
/-- the first matrix product: x · W₁ -/
theorem x2 : W2 m ρ c (Proc.devRef .tc main_v34) = Cert.Spec.mm128 (m ((c : Thread nD τ).loc main_arg0)) (m ((c : Thread nD τ).loc main_arg3)) :=
  (W2_arr m ρ c 2).trans ((hv0 (V1 m ρ) c).trans
    (congrArg₂ Cert.Spec.mm128 (s1 m ρ c (b := main_arg0) (by decide)) (s1 m ρ c (b := main_arg3) (by decide))))

include hv0 in
/-- the first layer's output -/
theorem x4 : W4 m ρ c (Proc.devRef .tc main_v58) = f1 m c :=
  layer1 (graph2 m ρ c) (x2 m ρ c hv0) (a2 m ρ c (b := main_arg4) (by decide))

include hv0 hv1 in
theorem x5 : W5 m ρ c (Proc.devRef .tc main_v59) = Cert.Spec.mm128 (f1 m c) (m ((c : Thread nD τ).loc main_arg5)) :=
  (W5_arr m ρ c 2).trans ((hv1 (V4 m ρ) c).trans
    (congrArg₂ Cert.Spec.mm128 (x4 m ρ c hv0) (a4 m ρ c (b := main_arg5) (by decide))))

include hv0 hv1 in
/-- the second layer's output -/
theorem x7 : W7 m ρ c (Proc.devRef .tc main_v83) = f2 m c :=
  layer2 (graph5 m ρ c) (x5 m ρ c hv0 hv1) (a5 m ρ c (b := main_arg6) (by decide))

include hv0 hv1 hv2 in
theorem x8 : W8 m ρ c (Proc.devRef .tc main_v84) = Cert.Spec.mm128 (f2 m c) (m ((c : Thread nD τ).loc main_arg7)) :=
  (W8_arr m ρ c 2).trans ((hv2 (V7 m ρ) c).trans
    (congrArg₂ Cert.Spec.mm128 (x7 m ρ c hv0 hv1) (a7 m ρ c (b := main_arg7) (by decide))))

include hv0 hv1 hv2 in
/-- the graph embedding when the head is entered -/
theorem x9 : W9 m ρ c (Proc.devRef .tc main_v116) = E m c :=
  (layer3 (graph8 m ρ c) (x8 m ρ c hv0 hv1 hv2) (a8 m ρ c (b := main_arg8) (by decide)) (a8 m ρ c (b := main_arg2) (by decide))).trans
    (E_eq m c).symm

include hv0 hv1 hv2 in
/-- the embedding is an input array of the head's first matrix product: the pipeline never writes it back -/
theorem e10 : W10 m ρ c (Proc.devRef .tc main_v116) = E m c :=
  ((W10_arr m ρ c 0).trans (((dat3 (V9 m ρ) c).arrAt_in 0 rfl _).trans (A_eq3 (V9 m ρ) c 0))).trans (x9 m ρ c hv0 hv1 hv2)

include hv0 hv1 hv2 hv3 in
theorem x10 : W10 m ρ c (Proc.devRef .tc main_v117) = Cert.Spec.mmLin (E m c) (m ((c : Thread nD τ).loc main_arg9)) :=
  (W10_arr m ρ c 2).trans ((hv3 (V9 m ρ) c).trans
    (congrArg₂ Cert.Spec.mmLin (x9 m ρ c hv0 hv1 hv2) (a9 m ρ c (b := main_arg9) (by decide))))

include hv0 hv1 hv2 hv3 in
/-- the head's hidden layer -/
theorem x12 : W12 m ρ c (Proc.devRef .tc main_v121) = Cert.Spec.hidden (Cert.Spec.mmLin (E m c) (m ((c : Thread nD τ).loc main_arg9))) (m ((c : Thread nD τ).loc main_arg10)) :=
  (h4_v121 (W10 m ρ c)).trans
    (congrArg₂ Cert.Spec.hidden (x10 m ρ c hv0 hv1 hv2 hv3) (a10 m ρ c (b := main_arg10) (by decide)))

include hv0 hv1 hv2 hv3 hv4 in
theorem x13 : W13 m ρ c (Proc.devRef .tc main_v122)
    = Cert.Spec.mmOut (Cert.Spec.hidden (Cert.Spec.mmLin (E m c) (m ((c : Thread nD τ).loc main_arg9))) (m ((c : Thread nD τ).loc main_arg10))) (m ((c : Thread nD τ).loc main_arg11)) :=
  (W13_arr m ρ c 2).trans ((hv4 (V12 m ρ) c).trans
    (congrArg₂ Cert.Spec.mmOut (x12 m ρ c hv0 hv1 hv2 hv3) (a12 m ρ c (b := main_arg11) (by decide))))

include hv0 hv1 hv2 in
/-- the embedding at the end: nothing after the third layer's stretch writes it -/
theorem embeds_end : W14 m ρ c (Proc.devRef .tc main_v116) = E m c :=
  (s14 m ρ c (by decide)).trans ((s13 m ρ c (by decide)).trans ((s12 m ρ c (by decide)).trans (e10 m ρ c hv0 hv1 hv2)))

include hv0 hv1 hv2 hv3 hv4 in
/-- the logits at the end -/
theorem logits_end : W14 m ρ c (Proc.devRef .tc main_v125)
    = Cert.Spec.logitsOf (E m c) (m ((c : Thread nD τ).loc main_arg9)) (m ((c : Thread nD τ).loc main_arg10)) (m ((c : Thread nD τ).loc main_arg11)) (m ((c : Thread nD τ).loc main_arg12)) :=
  (h5_v125 (W13 m ρ c)).trans
    (congrArg₂ Cert.Spec.logits (x13 m ρ c hv0 hv1 hv2 hv3 hv4) (a13 m ρ c (b := main_arg12) (by decide)))

include hv0 hv1 hv2 hv3 hv4 in
/-- the probabilities at the end -/
theorem probs_end : W14 m ρ c (Proc.devRef .tc main_v136)
    = Cert.Spec.softmax (Cert.Spec.logitsOf (E m c) (m ((c : Thread nD τ).loc main_arg9)) (m ((c : Thread nD τ).loc main_arg10)) (m ((c : Thread nD τ).loc main_arg11)) (m ((c : Thread nD τ).loc main_arg12))) :=
  (h5_v136 (W13 m ρ c)).trans
    (congrArg Cert.Spec.softmax (congrArg₂ Cert.Spec.logits (x13 m ρ c hv0 hv1 hv2 hv3 hv4) (a13 m ρ c (b := main_arg12) (by decide))))

end Walk

end Cert.KChain
end
-- ==== Proof.RegionLib.lean ====
/-
  A matrix product read at one entry, at the ideal values (extended reals; a change of float format is the identity).

  Entry (p, j) of an [R, K] by [K, N] product is  Σ_k x[p, k] · w[k, j], the sum over the contracted coordinate k.
  `kernel_mm_apply`: the product of the two format-narrowed operands accumulated into a zero splat has that entry.
  `host_mm_apply`: the host's product (no accumulator) has the same entry. Both for any dimension numbers equal to
  the plain ones (left axis 1 contracted with right axis 0).
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.KRegion

open Idealize.ShloMosaic Idealize.ShloMosaic.ValueIdx Idealize.ShloMosaic.StackMember

/-- The product of format-narrowed operands into a zero accumulator, at (p, j): Σ_k x[p, k] · w[k, j]. -/
theorem kernel_mm_apply {R K N : Nat} (D : DotDims ⟨2, ![R, K]⟩ ⟨2, ![K, N]⟩ ⟨2, ![R, N]⟩) (hD : D = DotDims.plain R K N)
    (x : FVec Ideal ⟨2, ![R, K]⟩ .f32) (w : FVec Ideal ⟨2, ![K, N]⟩ .f32) (ht : FTy.bits .bf16 < FTy.bits .f32)
    (p : Fin R) (j : Fin N) :
    matmul D none (truncf .bf16 x ht) (truncf .bf16 w ht) (constant ⟨2, ![R, N]⟩ .f32 0x00000000#32) (ix2 p j)
      = ∑ k : Fin K, x (ix2 p k) * w (ix2 k j) := by
  subst hD
  exact (congrFun (matmul_zero_eq_dotGeneral _ none (truncf .bf16 x ht) (truncf .bf16 w ht)) _).trans
    (dotGeneral_plain_apply none (truncf .bf16 x ht) (truncf .bf16 w ht) p j)

/-- The host's product at (p, j): Σ_k x[p, k] · w[k, j]. -/
theorem host_mm_apply {R K N : Nat} (D : DotDims ⟨2, ![R, K]⟩ ⟨2, ![K, N]⟩ ⟨2, ![R, N]⟩) (hD : D = DotDims.plain R K N)
    (x : FVec Ideal ⟨2, ![R, K]⟩ .f32) (w : FVec Ideal ⟨2, ![K, N]⟩ .f32) (p : Fin R) (j : Fin N) :
    Host.dotGeneral D none x w (ix2 p j) = ∑ k : Fin K, x (ix2 p k) * w (ix2 k j) := by
  subst hD
  exact dotGeneral_plain_apply none x w p j

/-- The offset (0, 0), spelt as the constant zero function. -/
theorem hz : (![0, 0] : Fin 2 → Nat) = fun _ => 0 := funext fun a => by fin_cases a <;> rfl

end Cert.KRegion

end
-- ==== Proof.Region0.lean ====
/-
  Matrix-product region 0: the output array after the region is the whole product of its two input arrays as the
  region found them.

  The grid has 8 points. Point t reads rows 5000·t … 5000·t + 4999 of the left array (all 128 columns) and the whole
  [128, 128] right array, and stores, at row p and column j of its output block,  Σ_k x[5000·t + p, k] · w[k, j]  —
  the entry (5000·t + p, j) of the whole product. Output block t is rows 5000·t … 5000·t + 4999; the 8 blocks tile the
  40000 rows (row r lies in block r / 5000), so the array ends holding the whole product.
-/
import proofs.«147250_j29549374997129_1_alg».proof.Proof.Gen.KernelIdeal.Frame
import proofs.«147250_j29549374997129_1_alg».proof.Proof.Spec
import proofs.«147250_j29549374997129_1_alg».proof.Proof.RegionLib
import Idealize.ShloMosaic.Lib.Pipeline.Value

noncomputable section

open scoped BigOperators

namespace Cert.KRegion

open Idealize.ShloMosaic Idealize.ShloMosaic.TcCoe Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The block indices at point t: the left input and the output are at block row t, column block 0; the right input
    at block (0, 0). Decided over the 8 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: at (p, j) both are Σ_k x[5000·t + p, k] · w[k, j]. -/
theorem flushed0 (c : Dev nD) (t : Fin cfg0.N) :
    (dat0 (F := Ideal) V c).flushed 2 t
      = ((cfg0.win 2).blk t).view.read (Elt Ideal) (Cert.Spec.mm128 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext y
  obtain ⟨p, j, rfl⟩ : ∃ (p : Fin 5000) (j : Fin 128), y = ix2 p j := ⟨y 0, y 1, eq_ix2 y⟩
  have ht : t.val < 8 := lt_of_lt_of_eq t.isLt N_0
  have hp : p.val < 5000 := p.isLt
  have hr : 5000 * t.val + p.val < 40000 := by omega
  -- entry (p, j) of output block t is entry (5000·t + p, j) of the array
  have hemb : ((cfg0.win 2).blk t).view.emb (ix2 p j) = ix2 (⟨5000 * t.val + p.val, hr⟩ : Fin 40000) j := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * j.val = j.val; omega
  -- entry (p, k) of left block t is entry (5000·t + p, k) of the left array
  have h0 : ∀ k : Fin 128, iblk0 V c 0 t (ix2 p k) = V c main_arg0 (ix2 (⟨5000 * t.val + p.val, hr⟩ : Fin 40000) k) := by
    intro k
    show V c main_arg0 (((cfg0.win 0).blk t).view.emb (ix2 p k)) = _
    refine congrArg _ ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  -- the right block is the whole right array
  have h1 : ∀ k : Fin 128, iblk0 V c 1 t (ix2 k j) = V c main_arg3 (ix2 k j) := by
    intro k
    show V c main_arg3 (((cfg0.win 1).blk t).view.emb (ix2 k j)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * j.val = j.val; omega
  show k0_pay1 (iblk0 V c 0 t) (iblk0 V c 1 t) (ix2 p j)
    = Cert.Spec.mm128 (V c main_arg0) (V c main_arg3) (((cfg0.win 2).blk t).view.emb (ix2 p j))
  rw [hemb]
  unfold Cert.Spec.mm128 k0_pay1
  refine (kernel_mm_apply dot_S5000x128_S128x128_S5000x128_1_0_0_1_n_n rfl _ _ _ p j).trans ?_
  refine Eq.trans ?_ (host_mm_apply Cert.ReferenceIdeal.dot_S40000x128_S128x128_S40000x128_1_0_0_1_n_n rfl _ _ _ j).symm
  exact Finset.sum_congr rfl fun k _ => by rw [h0, h1]

/-- An index of the array is in output block t iff each coordinate is in the block's range on its axis. -/
theorem mem_blk0 (t : Fin cfg0.N) (i : S40000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- The output blocks tile the array: row r lies in block r / 5000. -/
theorem cover0 (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  have hq : (i 0).val / 5000 < cfg0.N := by rw [show cfg0.N = 8 from N_0]; omega
  obtain ⟨e0, e1, e2, e3, e4, e5⟩ := idx_facts0 ⟨(i 0).val / 5000, hq⟩
  refine ⟨⟨(i 0).val / 5000, hq⟩, flush0_2 _, ?_⟩
  rw [mem_blk0]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    rw [e5]; omega

/-- The output array after the region is the whole product of the two input arrays as the region found them. -/
theorem value0 (c : Dev nD) :
    (dat0 (F := Ideal) V c).arrAt 2 cfg0.N = Cert.Spec.mm128 (V c main_arg0) (V c main_arg3) :=
  (dat0 V c).arrAt_eq_of_cover 2 (Cert.Spec.mm128 (V c main_arg0) (V c main_arg3)) (fun t _ => flushed0 V c t) cover0

end Cert.KRegion

end
-- ==== Proof.Region1.lean ====
/-
  Matrix-product region 1: the output array after the region is the whole product of its two input arrays as the
  region found them.

  The grid has 8 points. Point t reads rows 5000·t … 5000·t + 4999 of the left array (all 128 columns) and the whole
  [128, 128] right array, and stores, at row p and column j of its output block,  Σ_k x[5000·t + p, k] · w[k, j]  —
  the entry (5000·t + p, j) of the whole product. Output block t is rows 5000·t … 5000·t + 4999; the 8 blocks tile the
  40000 rows (row r lies in block r / 5000), so the array ends holding the whole product.
-/
import proofs.«147250_j29549374997129_1_alg».proof.Proof.Gen.KernelIdeal.Frame
import proofs.«147250_j29549374997129_1_alg».proof.Proof.Spec
import proofs.«147250_j29549374997129_1_alg».proof.Proof.RegionLib
import Idealize.ShloMosaic.Lib.Pipeline.Value

noncomputable section

open scoped BigOperators

namespace Cert.KRegion

open Idealize.ShloMosaic Idealize.ShloMosaic.TcCoe Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The block indices at point t: the left input and the output are at block row t, column block 0; the right input
    at block (0, 0). Decided over the 8 points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product: at (p, j) both are Σ_k x[5000·t + p, k] · w[k, j]. -/
theorem flushed1 (c : Dev nD) (t : Fin cfg1.N) :
    (dat1 (F := Ideal) V c).flushed 2 t
      = ((cfg1.win 2).blk t).view.read (Elt Ideal) (Cert.Spec.mm128 (V c main_v58) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts1 t
  funext y
  obtain ⟨p, j, rfl⟩ : ∃ (p : Fin 5000) (j : Fin 128), y = ix2 p j := ⟨y 0, y 1, eq_ix2 y⟩
  have ht : t.val < 8 := lt_of_lt_of_eq t.isLt N_1
  have hp : p.val < 5000 := p.isLt
  have hr : 5000 * t.val + p.val < 40000 := by omega
  -- entry (p, j) of output block t is entry (5000·t + p, j) of the array
  have hemb : ((cfg1.win 2).blk t).view.emb (ix2 p j) = ix2 (⟨5000 * t.val + p.val, hr⟩ : Fin 40000) j := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * j.val = j.val; omega
  -- entry (p, k) of left block t is entry (5000·t + p, k) of the left array
  have h0 : ∀ k : Fin 128, iblk1 V c 0 t (ix2 p k) = V c main_v58 (ix2 (⟨5000 * t.val + p.val, hr⟩ : Fin 40000) k) := by
    intro k
    show V c main_v58 (((cfg1.win 0).blk t).view.emb (ix2 p k)) = _
    refine congrArg _ ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  -- the right block is the whole right array
  have h1 : ∀ k : Fin 128, iblk1 V c 1 t (ix2 k j) = V c main_arg5 (ix2 k j) := by
    intro k
    show V c main_arg5 (((cfg1.win 1).blk t).view.emb (ix2 k j)) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * j.val = j.val; omega
  show k1_pay1 (iblk1 V c 0 t) (iblk1 V c 1 t) (ix2 p j)
    = Cert.Spec.mm128 (V c main_v58) (V c main_arg5) (((cfg1.win 2).blk t).view.emb (ix2 p j))
  rw [hemb]
  unfold Cert.Spec.mm128 k1_pay1
  simp only [shapeCast_self]
  refine (kernel_mm_apply dot_S5000x128_S128x128_S5000x128_1_0_0_1_n_n rfl _ _ _ p j).trans ?_
  refine Eq.trans ?_ (host_mm_apply Cert.ReferenceIdeal.dot_S40000x128_S128x128_S40000x128_1_0_0_1_n_n rfl _ _ _ j).symm
  exact Finset.sum_congr rfl fun k _ => by rw [h0, h1]

/-- An index of the array is in output block t iff each coordinate is in the block's range on its axis. -/
theorem mem_blk1 (t : Fin cfg1.N) (i : S40000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v59).slice (win1_2.rect t)).set ↔ _
  rw [View.set_slice_whole, Rect.mem_set_unit]
  exact Iff.rfl

/-- The output blocks tile the array: row r lies in block r / 5000. -/
theorem cover1 (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  have hq : (i 0).val / 5000 < cfg1.N := by rw [show cfg1.N = 8 from N_1]; omega
  obtain ⟨e0, e1, e2, e3, e4, e5⟩ := idx_facts1 ⟨(i 0).val / 5000, hq⟩
  refine ⟨⟨(i 0).val / 5000, hq⟩, flush1_2 _, ?_⟩
  rw [mem_blk1]
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    rw [e5]; omega

/-- The output array after the region is the whole product of the two input arrays as the region found them. -/
theorem value1 (c : Dev nD) :
    (dat1 (F := Ideal) V c).arrAt 2 cfg1.N = Cert.Spec.mm128 (V c main_v58) (V c main_arg5) :=
  (dat1 V c).arrAt_eq_of_cover 2 (Cert.Spec.mm128 (V c main_v58) (V c main_arg5)) (fun t _ => flushed1 V c t) cover1

end Cert.KRegion

end
-- ==== Proof.Region2.lean ====
/-
  Matrix-product region 2: the output array after the region is the whole product of its two input arrays as the
  region found them.

  The grid has 8 points. Point t reads rows 5000·t … 5000·t + 4999 of the left array (all 128 columns) and the whole
  [128, 128] right array, and stores, at row p and column j of its output block,  Σ_k x[5000·t + p, k] · w[k, j]  —
  the entry (5000·t + p, j) of the whole product. Output block t is rows 5000·t … 5000·t + 4999; the 8 blocks tile the
  40000 rows (row r lies in block r / 5000), so the array ends holding the whole product.
-/
import proofs.«147250_j29549374997129_1_alg».proof.Proof.Gen.KernelIdeal.Frame
import proofs.«147250_j29549374997129_1_alg».proof.Proof.Spec
import proofs.«147250_j29549374997129_1_alg».proof.Proof.RegionLib
import Idealize.ShloMosaic.Lib.Pipeline.Value

noncomputable section

open scoped BigOperators

namespace Cert.KRegion

open Idealize.ShloMosaic Idealize.ShloMosaic.TcCoe Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The block indices at point t: the left input and the output are at block row t, column block 0; the right input
    at block (0, 0). Decided over the 8 points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: at (p, j) both are Σ_k x[5000·t + p, k] · w[k, j]. -/
theorem flushed2 (c : Dev nD) (t : Fin cfg2.N) :
    (dat2 (F := Ideal) V c).flushed 2 t
      = ((cfg2.win 2).blk t).view.read (Elt Ideal) (Cert.Spec.mm128 (V c main_v83) (V c main_arg7)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts2 t
  funext y
  obtain ⟨p, j, rfl⟩ : ∃ (p : Fin 5000) (j : Fin 128), y = ix2 p j := ⟨y 0, y 1, eq_ix2 y⟩
  have ht : t.val < 8 := lt_of_lt_of_eq t.isLt N_2
  have hp : p.val < 5000 := p.isLt
  have hr : 5000 * t.val + p.val < 40000 := by omega
  -- entry (p, j) of output block t is entry (5000·t + p, j) of the array
  have hemb : ((cfg2.win 2).blk t).view.emb (ix2 p j) = ix2 (⟨5000 * t.val + p.val, hr⟩ : Fin 40000) j := by
    funext a; apply Fin.ext
    match a with
    | ⟨0, _⟩ => show win2_2.index t (0 : Fin 2) * 5000 + 1 * p.val = 5000 * t.val + p.val; omega
    | ⟨1, _⟩ => show win2_2.index t (1 : Fin 2) * 128 + 1 * j.val = j.val; omega
  -- entry (p, k) of left block t is entry (5000·t + p, k) of the left array
  have h0 : ∀ k : Fin 128, iblk2 V c 0 t (ix2 p k) = V c main_v83 (ix2 (⟨5000 * t.val + p.val, hr⟩ : Fin 40000) k) := by
    intro k
    show V c main_v83 (((cfg2.win 0).blk t).view.emb (ix2 p k)) = _
    refine congrArg _ ?_
    funext a; apply Fin.ext
    match a with
    | ⟨0, _⟩ => show win2_0.index t (0 : Fin 2) * 5000 + 1 * p.val = 5000 * t.val + p.val; omega
    | ⟨1, _⟩ => show win2_0.index t (1 : Fin 2) * 128 + 1 * k.val = k.val; omega
  -- the right block is the whole right array
  have h1 : ∀ k : Fin 128, iblk2 V c 1 t (ix2 k j) = V c main_arg7 (ix2 k j) := by
    intro k
    show V c main_arg7 (((cfg2.win 1).blk t).view.emb (ix2 k j)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * j.val = j.val; omega
  show k2_pay1 (iblk2 V c 0 t) (iblk2 V c 1 t) (ix2 p j)
    = Cert.Spec.mm128 (V c main_v83) (V c main_arg7) (((cfg2.win 2).blk t).view.emb (ix2 p j))
  rw [hemb]
  unfold Cert.Spec.mm128 k2_pay1
  simp only [shapeCast_self]
  refine (kernel_mm_apply dot_S5000x128_S128x128_S5000x128_1_0_0_1_n_n rfl _ _ _ p j).trans ?_
  refine Eq.trans ?_ (host_mm_apply Cert.ReferenceIdeal.dot_S40000x128_S128x128_S40000x128_1_0_0_1_n_n rfl _ _ _ j).symm
  exact Finset.sum_congr rfl fun k _ => by rw [h0, h1]

/-- An index of the array is in output block t iff each coordinate is in the block's range on its axis. -/
theorem mem_blk2 (t : Fin cfg2.N) (i : S40000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v84).slice (win2_2.rect t)).set ↔ _
  rw [View.set_slice_whole, Rect.mem_set_unit]
  exact Iff.rfl

/-- The output blocks tile the array: row r lies in block r / 5000. -/
theorem cover2 (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  have hq : (i 0).val / 5000 < cfg2.N := by rw [show cfg2.N = 8 from N_2]; omega
  obtain ⟨e0, e1, e2, e3, e4, e5⟩ := idx_facts2 ⟨(i 0).val / 5000, hq⟩
  refine ⟨⟨(i 0).val / 5000, hq⟩, flush2_2 _, ?_⟩
  rw [mem_blk2]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hq⟩ (1 : Fin 2) * 128 ≤ (i 1).val
      ∧ (i 1).val < win2_2.index ⟨(i 0).val / 5000, hq⟩ (1 : Fin 2) * 128 + 128
    rw [e5]; omega

/-- The output array after the region is the whole product of the two input arrays as the region found them. -/
theorem value2 (c : Dev nD) :
    (dat2 (F := Ideal) V c).arrAt 2 cfg2.N = Cert.Spec.mm128 (V c main_v83) (V c main_arg7) :=
  (dat2 V c).arrAt_eq_of_cover 2 (Cert.Spec.mm128 (V c main_v83) (V c main_arg7)) (fun t _ => flushed2 V c t) cover2

end Cert.KRegion

end
-- ==== Proof.Region3.lean ====
/-
  Matrix-product region 3: the output array after the region is the whole product of its two input arrays as the
  region found them.

  The grid has one point, and every block is its whole array: the point reads the [256, 256] left array and the
  [256, 128] right array and stores, at (p, j),  Σ_k x[p, k] · w[k, j]  — the entry (p, j) of the product. The one
  output block is the whole [256, 128] array.
-/
import proofs.«147250_j29549374997129_1_alg».proof.Proof.Gen.KernelIdeal.Frame
import proofs.«147250_j29549374997129_1_alg».proof.Proof.Spec
import proofs.«147250_j29549374997129_1_alg».proof.Proof.RegionLib
import Idealize.ShloMosaic.Lib.Pipeline.Value

noncomputable section

open scoped BigOperators

namespace Cert.KRegion

open Idealize.ShloMosaic Idealize.ShloMosaic.TcCoe Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- Every window is at block (0, 0) at the one point. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- What the point writes back is the whole product: at (p, j) both are Σ_k x[p, k] · w[k, j]. -/
theorem flushed3 (c : Dev nD) (t : Fin cfg3.N) :
    (dat3 (F := Ideal) V c).flushed 2 t
      = ((cfg3.win 2).blk t).view.read (Elt Ideal) (Cert.Spec.mmLin (V c main_v116) (V c main_arg9)) := by
  show (cfg3.win 2).cut (grid3.coords t) ((dat3 V c).after 2 t) = _
  rw [after3_2]
  unfold out3_2
  rw [View.canon_unit_zero hz]
  simp only [View.ld_unit_zero (S := S256x256) hz, View.ld_unit_zero (S := S256x128) hz]
  obtain ⟨e0, e1, e2, e3, e4, e5⟩ := idx_facts3 t
  funext y
  obtain ⟨p, j, rfl⟩ : ∃ (p : Fin 256) (j : Fin 128), y = ix2 p j := ⟨y 0, y 1, eq_ix2 y⟩
  -- the output block is the whole array
  have hemb : ((cfg3.win 2).blk t).view.emb (ix2 p j) = ix2 p j := by
    funext a; apply Fin.ext
    match a with
    | ⟨0, _⟩ => show win3_2.index t (0 : Fin 2) * 256 + 1 * p.val = p.val; omega
    | ⟨1, _⟩ => show win3_2.index t (1 : Fin 2) * 128 + 1 * j.val = j.val; omega
  -- the left block is the whole left array
  have h0 : ∀ k : Fin 256, iblk3 V c 0 t (ix2 p k) = V c main_v116 (ix2 p k) := by
    intro k
    show V c main_v116 (((cfg3.win 0).blk t).view.emb (ix2 p k)) = _
    refine congrArg _ ?_
    funext a; apply Fin.ext
    match a with
    | ⟨0, _⟩ => show win3_0.index t (0 : Fin 2) * 256 + 1 * p.val = p.val; omega
    | ⟨1, _⟩ => show win3_0.index t (1 : Fin 2) * 256 + 1 * k.val = k.val; omega
  -- the right block is the whole right array
  have h1 : ∀ k : Fin 256, iblk3 V c 1 t (ix2 k j) = V c main_arg9 (ix2 k j) := by
    intro k
    show V c main_arg9 (((cfg3.win 1).blk t).view.emb (ix2 k j)) = _
    refine congrArg _ ?_
    funext a; apply Fin.ext
    match a with
    | ⟨0, _⟩ => show win3_1.index t (0 : Fin 2) * 256 + 1 * k.val = k.val; omega
    | ⟨1, _⟩ => show win3_1.index t (1 : Fin 2) * 128 + 1 * j.val = j.val; omega
  show k3_pay1 (iblk3 V c 0 t) (iblk3 V c 1 t) (ix2 p j)
    = Cert.Spec.mmLin (V c main_v116) (V c main_arg9) (((cfg3.win 2).blk t).view.emb (ix2 p j))
  rw [hemb]
  unfold Cert.Spec.mmLin k3_pay1
  simp only [shapeCast_self]
  refine (kernel_mm_apply dot_S256x256_S256x128_S256x128_1_0_0_1_n_n rfl _ _ _ p j).trans ?_
  refine Eq.trans ?_ (host_mm_apply Cert.ReferenceIdeal.dot_S256x256_S256x128_S256x128_1_0_0_1_n_n rfl _ _ _ j).symm
  exact Finset.sum_congr rfl fun k _ => by rw [h0, h1]

/-- An index of the array is in the output block iff each coordinate is in the block's range on its axis. -/
theorem mem_blk3 (t : Fin cfg3.N) (i : S256x128.Idx) :
    i ∈ ((cfg3.win 2).blk t).view.set ↔ ∀ a : Fin 2, win3_2.index t a * S256x128.size a ≤ (i a).val
      ∧ (i a).val < win3_2.index t a * S256x128.size a + S256x128.size a := by
  show i ∈ ((View.whole main_v117).slice (win3_2.rect t)).set ↔ _
  rw [View.set_slice_whole, Rect.mem_set_unit]
  exact Iff.rfl

/-- The one output block covers the array. -/
theorem cover3 (i : S256x128.Idx) :
    ∃ t : Fin cfg3.N, (cfg3.win 2).flush t = true ∧ i ∈ ((cfg3.win 2).blk t).view.set := by
  have hi0 : (i 0).val < 256 := (i 0).isLt
  have hi1 : (i 1).val < 128 := (i 1).isLt
  have hq : 0 < cfg3.N := by rw [show cfg3.N = 1 from N_3]; omega
  obtain ⟨e0, e1, e2, e3, e4, e5⟩ := idx_facts3 ⟨0, hq⟩
  refine ⟨⟨0, hq⟩, flush3_2 _, ?_⟩
  rw [mem_blk3]
  intro a
  match a with
  | ⟨0, _⟩ =>
    show win3_2.index ⟨0, hq⟩ (0 : Fin 2) * 256 ≤ (i 0).val ∧ (i 0).val < win3_2.index ⟨0, hq⟩ (0 : Fin 2) * 256 + 256
    rw [e4]; omega
  | ⟨1, _⟩ =>
    show win3_2.index ⟨0, hq⟩ (1 : Fin 2) * 128 ≤ (i 1).val ∧ (i 1).val < win3_2.index ⟨0, hq⟩ (1 : Fin 2) * 128 + 128
    rw [e5]; omega

/-- The output array after the region is the whole product of the two input arrays as the region found them. -/
theorem value3 (c : Dev nD) :
    (dat3 (F := Ideal) V c).arrAt 2 cfg3.N = Cert.Spec.mmLin (V c main_v116) (V c main_arg9) :=
  (dat3 V c).arrAt_eq_of_cover 2 (Cert.Spec.mmLin (V c main_v116) (V c main_arg9)) (fun t _ => flushed3 V c t) cover3

end Cert.KRegion

end
-- ==== Proof.Region4.lean ====
/-
  Matrix-product region 4: the output array after the region is the whole product of its two input arrays as the
  region found them.

  The grid has one point, and every block is its whole array: the point reads the [256, 128] left array and the
  [128, 10] right array and stores, at (p, j),  Σ_k x[p, k] · w[k, j]  — the entry (p, j) of the product. The one
  output block is the whole [256, 10] array.
-/
import proofs.«147250_j29549374997129_1_alg».proof.Proof.Gen.KernelIdeal.Frame
import proofs.«147250_j29549374997129_1_alg».proof.Proof.Spec
import proofs.«147250_j29549374997129_1_alg».proof.Proof.RegionLib
import Idealize.ShloMosaic.Lib.Pipeline.Value

noncomputable section

open scoped BigOperators

namespace Cert.KRegion

open Idealize.ShloMosaic Idealize.ShloMosaic.TcCoe Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- Every window is at block (0, 0) at the one point. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What the point writes back is the whole product: at (p, j) both are Σ_k x[p, k] · w[k, j]. -/
theorem flushed4 (c : Dev nD) (t : Fin cfg4.N) :
    (dat4 (F := Ideal) V c).flushed 2 t
      = ((cfg4.win 2).blk t).view.read (Elt Ideal) (Cert.Spec.mmOut (V c main_v121) (V c main_arg11)) := by
  show (cfg4.win 2).cut (grid4.coords t) ((dat4 V c).after 2 t) = _
  rw [after4_2]
  unfold out4_2
  rw [View.canon_unit_zero hz]
  simp only [View.ld_unit_zero (S := S256x128) hz, View.ld_unit_zero (S := S128x10) hz]
  obtain ⟨e0, e1, e2, e3, e4, e5⟩ := idx_facts4 t
  funext y
  obtain ⟨p, j, rfl⟩ : ∃ (p : Fin 256) (j : Fin 10), y = ix2 p j := ⟨y 0, y 1, eq_ix2 y⟩
  -- the output block is the whole array
  have hemb : ((cfg4.win 2).blk t).view.emb (ix2 p j) = ix2 p j := by
    funext a; apply Fin.ext
    match a with
    | ⟨0, _⟩ => show win4_2.index t (0 : Fin 2) * 256 + 1 * p.val = p.val; omega
    | ⟨1, _⟩ => show win4_2.index t (1 : Fin 2) * 10 + 1 * j.val = j.val; omega
  -- the left block is the whole left array
  have h0 : ∀ k : Fin 128, iblk4 V c 0 t (ix2 p k) = V c main_v121 (ix2 p k) := by
    intro k
    show V c main_v121 (((cfg4.win 0).blk t).view.emb (ix2 p k)) = _
    refine congrArg _ ?_
    funext a; apply Fin.ext
    match a with
    | ⟨0, _⟩ => show win4_0.index t (0 : Fin 2) * 256 + 1 * p.val = p.val; omega
    | ⟨1, _⟩ => show win4_0.index t (1 : Fin 2) * 128 + 1 * k.val = k.val; omega
  -- the right block is the whole right array
  have h1 : ∀ k : Fin 128, iblk4 V c 1 t (ix2 k j) = V c main_arg11 (ix2 k j) := by
    intro k
    show V c main_arg11 (((cfg4.win 1).blk t).view.emb (ix2 k j)) = _
    refine congrArg _ ?_
    funext a; apply Fin.ext
    match a with
    | ⟨0, _⟩ => show win4_1.index t (0 : Fin 2) * 128 + 1 * k.val = k.val; omega
    | ⟨1, _⟩ => show win4_1.index t (1 : Fin 2) * 10 + 1 * j.val = j.val; omega
  show k4_pay1 (iblk4 V c 0 t) (iblk4 V c 1 t) (ix2 p j)
    = Cert.Spec.mmOut (V c main_v121) (V c main_arg11) (((cfg4.win 2).blk t).view.emb (ix2 p j))
  rw [hemb]
  unfold Cert.Spec.mmOut k4_pay1
  simp only [shapeCast_self]
  refine (kernel_mm_apply dot_S256x128_S128x10_S256x10_1_0_0_1_n_n rfl _ _ _ p j).trans ?_
  refine Eq.trans ?_ (host_mm_apply Cert.ReferenceIdeal.dot_S256x128_S128x10_S256x10_1_0_0_1_n_n rfl _ _ _ j).symm
  exact Finset.sum_congr rfl fun k _ => by rw [h0, h1]

/-- An index of the array is in the output block iff each coordinate is in the block's range on its axis. -/
theorem mem_blk4 (t : Fin cfg4.N) (i : S256x10.Idx) :
    i ∈ ((cfg4.win 2).blk t).view.set ↔ ∀ a : Fin 2, win4_2.index t a * S256x10.size a ≤ (i a).val
      ∧ (i a).val < win4_2.index t a * S256x10.size a + S256x10.size a := by
  show i ∈ ((View.whole main_v122).slice (win4_2.rect t)).set ↔ _
  rw [View.set_slice_whole, Rect.mem_set_unit]
  exact Iff.rfl

/-- The one output block covers the array. -/
theorem cover4 (i : S256x10.Idx) :
    ∃ t : Fin cfg4.N, (cfg4.win 2).flush t = true ∧ i ∈ ((cfg4.win 2).blk t).view.set := by
  have hi0 : (i 0).val < 256 := (i 0).isLt
  have hi1 : (i 1).val < 10 := (i 1).isLt
  have hq : 0 < cfg4.N := by rw [show cfg4.N = 1 from N_4]; omega
  obtain ⟨e0, e1, e2, e3, e4, e5⟩ := idx_facts4 ⟨0, hq⟩
  refine ⟨⟨0, hq⟩, flush4_2 _, ?_⟩
  rw [mem_blk4]
  intro a
  match a with
  | ⟨0, _⟩ =>
    show win4_2.index ⟨0, hq⟩ (0 : Fin 2) * 256 ≤ (i 0).val ∧ (i 0).val < win4_2.index ⟨0, hq⟩ (0 : Fin 2) * 256 + 256
    rw [e4]; omega
  | ⟨1, _⟩ =>
    show win4_2.index ⟨0, hq⟩ (1 : Fin 2) * 10 ≤ (i 1).val ∧ (i 1).val < win4_2.index ⟨0, hq⟩ (1 : Fin 2) * 10 + 10
    rw [e5]; omega

/-- The output array after the region is the whole product of the two input arrays as the region found them. -/
theorem value4 (c : Dev nD) :
    (dat4 (F := Ideal) V c).arrAt 2 cfg4.N = Cert.Spec.mmOut (V c main_v121) (V c main_arg11) :=
  (dat4 V c).arrAt_eq_of_cover 2 (Cert.Spec.mmOut (V c main_v121) (V c main_arg11)) (fun t _ => flushed4 V c t) cover4

end Cert.KRegion

end
-- ==== Proof.RegionValue.lean ====
/-
  The five matrix-product regions: after each region its output array is the whole product of its two input arrays as
  the region found them (`Cert.KRegion.value0` … `value4`).
-/
import proofs.«147250_j29549374997129_1_alg».proof.Proof.Region0
import proofs.«147250_j29549374997129_1_alg».proof.Proof.Region1
import proofs.«147250_j29549374997129_1_alg».proof.Proof.Region2
import proofs.«147250_j29549374997129_1_alg».proof.Proof.Region3
import proofs.«147250_j29549374997129_1_alg».proof.Proof.Region4
-- ==== Proof.KChain.lean ====
import proofs.«147250_j29549374997129_1_alg».proof.Proof.KWalk
import proofs.«147250_j29549374997129_1_alg».proof.Proof.RegionValue

noncomputable section
namespace Cert.KChain
open Idealize.ShloMosaic Idealize.ShloMosaic.TcCoe Cert.KernelIdeal Cert.KernelIdeal.Gen

/-! The three results of the program at its end, as functions of the launch memory: the walk of the boundaries, with each
    matrix-product region's output array at the product of its two operands. -/

variable (m : (ℓ : Loc nD τ sig) → Buf (Elt Ideal) ℓ) (ρ : Dev nD → PrngReg) (c : Dev nD)

/-- the graph embedding -/
theorem W14_embeds : W14 (F := Ideal) m ρ c (Proc.devRef .tc main_v116) = E m c :=
  embeds_end m ρ c Cert.KRegion.value0 Cert.KRegion.value1 Cert.KRegion.value2

/-- the logits: two dense layers on the embedding, a rectifier between them -/
theorem W14_logits : W14 (F := Ideal) m ρ c (Proc.devRef .tc main_v125)
    = Cert.Spec.logitsOf (E m c) (m ((c : Thread nD τ).loc main_arg9)) (m ((c : Thread nD τ).loc main_arg10))
        (m ((c : Thread nD τ).loc main_arg11)) (m ((c : Thread nD τ).loc main_arg12)) :=
  logits_end m ρ c Cert.KRegion.value0 Cert.KRegion.value1 Cert.KRegion.value2 Cert.KRegion.value3 Cert.KRegion.value4

/-- the probabilities: the softmax of the logits' rows -/
theorem W14_probs : W14 (F := Ideal) m ρ c (Proc.devRef .tc main_v136)
    = Cert.Spec.softmax (Cert.Spec.logitsOf (E m c) (m ((c : Thread nD τ).loc main_arg9)) (m ((c : Thread nD τ).loc main_arg10))
        (m ((c : Thread nD τ).loc main_arg11)) (m ((c : Thread nD τ).loc main_arg12))) :=
  probs_end m ρ c Cert.KRegion.value0 Cert.KRegion.value1 Cert.KRegion.value2 Cert.KRegion.value3 Cert.KRegion.value4

end Cert.KChain
end
-- ==== Proof.RefL1.lean ====
/-
  The first graph-convolution layer of the reference, as two stretches of its operations, each for ANY starting contents:
  the matrix product, the in-degree (1 + the number of edges arriving at a node) and its inverse square root, the edge
  weights deg(src e)^(-1/2) · deg(dst e)^(-1/2), the messages summed at the wrapped destination index, the self-loop term
  hw[n] / deg n and the bias; then the leaky rectifier.
-/
import proofs.«147250_j29549374997129_1_alg».proof.Proof.RefOps
import proofs.«147250_j29549374997129_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev sA1 : List (HloOp τ sig (Elt F)) :=
  [ binary main_arg0 main_arg3 main_v4 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    nullary main_cst (constant S_ .f32 0x00000000#32),
    unary main_cst main_v5 (broadcastInDim S40000 ![] bcast_S_S40000 : (⟨S_, .f32⟩ : BufTy).Contents (Elt F) → (⟨S40000, .f32⟩ : BufTy).Contents (Elt F)),
    nullary main_c (constantI S_ 32 0#32),
    unary main_c main_v6 (broadcastInDim S640000 ![] bcast_S_S640000 : (⟨S_, .i32⟩ : BufTy).Contents (Elt F) → (⟨S640000, .i32⟩ : BufTy).Contents (Elt F)),
    binary main_v3 main_v6 main_v7 (cmpi .slt : (⟨S640000, .i32⟩ : BufTy).Contents (Elt F) → (⟨S640000, .i32⟩ : BufTy).Contents (Elt F) → (⟨S640000, .i1⟩ : BufTy).Contents (Elt F)),
    nullary main_c_0 (constantI S_ 32 40000#32),
    unary main_c_0 main_v8 (broadcastInDim S640000 ![] bcast_S_S640000 : (⟨S_, .i32⟩ : BufTy).Contents (Elt F) → (⟨S640000, .i32⟩ : BufTy).Contents (Elt F)),
    binary main_v3 main_v8 main_v9 (addi : (⟨S640000, .i32⟩ : BufTy).Contents (Elt F) → (⟨S640000, .i32⟩ : BufTy).Contents (Elt F) → (⟨S640000, .i32⟩ : BufTy).Contents (Elt F)),
    ternary main_v7 main_v9 main_v3 main_v10 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v10 main_v11 (broadcastInDim S640000x1 ![0] bcast_S640000_S640000x1_0 : (⟨S640000, .i32⟩ : BufTy).Contents (Elt F) → (⟨S640000x1, .i32⟩ : BufTy).Contents (Elt F)),
    nullary main_cst_1 (constant S_ .f32 0x3F800000#32),
    unary main_cst_1 main_v12 (broadcastInDim S640000 ![] bcast_S_S640000 : (⟨S_, .f32⟩ : BufTy).Contents (Elt F) → (⟨S640000, .f32⟩ : BufTy).Contents (Elt F)),
    ternary main_v5 main_v11 main_v12 main_v13 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_2 (constant S_ .f32 0x3F800000#32),
    unary main_cst_2 main_v14 (broadcastInDim S40000 ![] bcast_S_S40000 : (⟨S_, .f32⟩ : BufTy).Contents (Elt F) → (⟨S40000, .f32⟩ : BufTy).Contents (Elt F)),
    binary main_v13 main_v14 main_v15 (addf : (⟨S40000, .f32⟩ : BufTy).Contents (Elt F) → (⟨S40000, .f32⟩ : BufTy).Contents (Elt F) → (⟨S40000, .f32⟩ : BufTy).Contents (Elt F)),
    unary main_v15 main_v16 (Host.rsqrt : (⟨S40000, .f32⟩ : BufTy).Contents (Elt F) → (⟨S40000, .f32⟩ : BufTy).Contents (Elt F)),
    nullary main_c_3 (constantI S_ 32 0#32),
    unary main_c_3 main_v17 (broadcastInDim S640000 ![] bcast_S_S640000 : (⟨S_, .i32⟩ : BufTy).Contents (Elt F) → (⟨S640000, .i32⟩ : BufTy).Contents (Elt F)),
    binary main_v1 main_v17 main_v18 (cmpi .slt : (⟨S640000, .i32⟩ : BufTy).Contents (Elt F) → (⟨S640000, .i32⟩ : BufTy).Contents (Elt F) → (⟨S640000, .i1⟩ : BufTy).Contents (Elt F)),
    nullary main_c_4 (constantI S_ 32 40000#32),
    unary main_c_4 main_v19 (broadcastInDim S640000 ![] bcast_S_S640000 : (⟨S_, .i32⟩ : BufTy).Contents (Elt F) → (⟨S640000, .i32⟩ : BufTy).Contents (Elt F)),
    binary main_v1 main_v19 main_v20 (addi : (⟨S640000, .i32⟩ : BufTy).Contents (Elt F) → (⟨S640000, .i32⟩ : BufTy).Contents (Elt F) → (⟨S640000, .i32⟩ : BufTy).Contents (Elt F)),
    ternary main_v18 main_v20 main_v1 main_v21 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v21 main_v22 (broadcastInDim S640000x1 ![0] bcast_S640000_S640000x1_0 : (⟨S640000, .i32⟩ : BufTy).Contents (Elt F) → (⟨S640000x1, .i32⟩ : BufTy).Contents (Elt F)),
    binary main_v16 main_v22 main_v23 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    nullary main_c_5 (constantI S_ 32 0#32),
    unary main_c_5 main_v24 (broadcastInDim S640000 ![] bcast_S_S640000 : (⟨S_, .i32⟩ : BufTy).Contents (Elt F) → (⟨S640000, .i32⟩ : BufTy).Contents (Elt F)),
    binary main_v3 main_v24 main_v25 (cmpi .slt : (⟨S640000, .i32⟩ : BufTy).Contents (Elt F) → (⟨S640000, .i32⟩ : BufTy).Contents (Elt F) → (⟨S640000, .i1⟩ : BufTy).Contents (Elt F)),
    nullary main_c_6 (constantI S_ 32 40000#32),
    unary main_c_6 main_v26 (broadcastInDim S640000 ![] bcast_S_S640000 : (⟨S_, .i32⟩ : BufTy).Contents (Elt F) → (⟨S640000, .i32⟩ : BufTy).Contents (Elt F)),
    binary main_v3 main_v26 main_v27 (addi : (⟨S640000, .i32⟩ : BufTy).Contents (Elt F) → (⟨S640000, .i32⟩ : BufTy).Contents (Elt F) → (⟨S640000, .i32⟩ : BufTy).Contents (Elt F)),
    ternary main_v25 main_v27 main_v3 main_v28 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v28 main_v29 (broadcastInDim S640000x1 ![0] bcast_S640000_S640000x1_0 : (⟨S640000, .i32⟩ : BufTy).Contents (Elt F) → (⟨S640000x1, .i32⟩ : BufTy).Contents (Elt F)),
    binary main_v16 main_v29 main_v30 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    binary main_v23 main_v30 main_v31 (mulf : (⟨S640000, .f32⟩ : BufTy).Contents (Elt F) → (⟨S640000, .f32⟩ : BufTy).Contents (Elt F) → (⟨S640000, .f32⟩ : BufTy).Contents (Elt F)),
    nullary main_cst_7 (constant S_ .f32 0x00000000#32),
    unary main_cst_7 main_v32 (broadcastInDim S40000x128 ![] bcast_S_S40000x128 : (⟨S_, .f32⟩ : BufTy).Contents (Elt F) → (⟨S40000x128, .f32⟩ : BufTy).Contents (Elt F)),
    nullary main_c_8 (constantI S_ 32 0#32),
    unary main_c_8 main_v33 (broadcastInDim S640000 ![] bcast_S_S640000 : (⟨S_, .i32⟩ : BufTy).Contents (Elt F) → (⟨S640000, .i32⟩ : BufTy).Contents (Elt F)),
    binary main_v1 main_v33 main_v34 (cmpi .slt : (⟨S640000, .i32⟩ : BufTy).Contents (Elt F) → (⟨S640000, .i32⟩ : BufTy).Contents (Elt F) → (⟨S640000, .i1⟩ : BufTy).Contents (Elt F)),
    nullary main_c_9 (constantI S_ 32 40000#32),
    unary main_c_9 main_v35 (broadcastInDim S640000 ![] bcast_S_S640000 : (⟨S_, .i32⟩ : BufTy).Contents (Elt F) → (⟨S640000, .i32⟩ : BufTy).Contents (Elt F)),
    binary main_v1 main_v35 main_v36 (addi : (⟨S640000, .i32⟩ : BufTy).Contents (Elt F) → (⟨S640000, .i32⟩ : BufTy).Contents (Elt F) → (⟨S640000, .i32⟩ : BufTy).Contents (Elt F)),
    ternary main_v34 main_v36 main_v1 main_v37 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v37 main_v38 (broadcastInDim S640000x1 ![0] bcast_S640000_S640000x1_0 : (⟨S640000, .i32⟩ : BufTy).Contents (Elt F) → (⟨S640000x1, .i32⟩ : BufTy).Contents (Elt F)),
    binary main_v4 main_v38 main_v39 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    unary main_v31 main_v40 (broadcastInDim S640000x1 ![0] bcast_S640000_S640000x1_0 : (⟨S640000, .f32⟩ : BufTy).Contents (Elt F) → (⟨S640000x1, .f32⟩ : BufTy).Contents (Elt F)),
    unary main_v40 main_v41 (broadcastInDim S640000x128 ![0, 1] bcast_S640000x1_S640000x128_0_1 : (⟨S640000x1, .f32⟩ : BufTy).Contents (Elt F) → (⟨S640000x128, .f32⟩ : BufTy).Contents (Elt F)),
    binary main_v39 main_v41 main_v42 (mulf : (⟨S640000x128, .f32⟩ : BufTy).Contents (Elt F) → (⟨S640000x128, .f32⟩ : BufTy).Contents (Elt F) → (⟨S640000x128, .f32⟩ : BufTy).Contents (Elt F)),
    nullary main_c_10 (constantI S_ 32 0#32),
    unary main_c_10 main_v43 (broadcastInDim S640000 ![] bcast_S_S640000 : (⟨S_, .i32⟩ : BufTy).Contents (Elt F) → (⟨S640000, .i32⟩ : BufTy).Contents (Elt F)),
    binary main_v3 main_v43 main_v44 (cmpi .slt : (⟨S640000, .i32⟩ : BufTy).Contents (Elt F) → (⟨S640000, .i32⟩ : BufTy).Contents (Elt F) → (⟨S640000, .i1⟩ : BufTy).Contents (Elt F)),
    nullary main_c_11 (constantI S_ 32 40000#32),
    unary main_c_11 main_v45 (broadcastInDim S640000 ![] bcast_S_S640000 : (⟨S_, .i32⟩ : BufTy).Contents (Elt F) → (⟨S640000, .i32⟩ : BufTy).Contents (Elt F)),
    binary main_v3 main_v45 main_v46 (addi : (⟨S640000, .i32⟩ : BufTy).Contents (Elt F) → (⟨S640000, .i32⟩ : BufTy).Contents (Elt F) → (⟨S640000, .i32⟩ : BufTy).Contents (Elt F)),
    ternary main_v44 main_v46 main_v3 main_v47 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v47 main_v48 (broadcastInDim S640000x1 ![0] bcast_S640000_S640000x1_0 : (⟨S640000, .i32⟩ : BufTy).Contents (Elt F) → (⟨S640000x1, .i32⟩ : BufTy).Contents (Elt F)),
    ternary main_v32 main_v48 main_v42 main_v49 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_12 (constant S_ .f32 0x3F800000#32),
    unary main_cst_12 main_v50 (broadcastInDim S40000 ![] bcast_S_S40000 : (⟨S_, .f32⟩ : BufTy).Contents (Elt F) → (⟨S40000, .f32⟩ : BufTy).Contents (Elt F)),
    binary main_v50 main_v15 main_v51 (Host.divf : (⟨S40000, .f32⟩ : BufTy).Contents (Elt F) → (⟨S40000, .f32⟩ : BufTy).Contents (Elt F) → (⟨S40000, .f32⟩ : BufTy).Contents (Elt F)),
    unary main_v51 main_v52 (broadcastInDim S40000x1 ![0] bcast_S40000_S40000x1_0 : (⟨S40000, .f32⟩ : BufTy).Contents (Elt F) → (⟨S40000x1, .f32⟩ : BufTy).Contents (Elt F)),
    unary main_v52 main_v53 (broadcastInDim S40000x128 ![0, 1] bcast_S40000x1_S40000x128_0_1 : (⟨S40000x1, .f32⟩ : BufTy).Contents (Elt F) → (⟨S40000x128, .f32⟩ : BufTy).Contents (Elt F)),
    binary main_v4 main_v53 main_v54 (mulf : (⟨S40000x128, .f32⟩ : BufTy).Contents (Elt F) → (⟨S40000x128, .f32⟩ : BufTy).Contents (Elt F) → (⟨S40000x128, .f32⟩ : BufTy).Contents (Elt F)),
    binary main_v49 main_v54 main_v55 (addf : (⟨S40000x128, .f32⟩ : BufTy).Contents (Elt F) → (⟨S40000x128, .f32⟩ : BufTy).Contents (Elt F) → (⟨S40000x128, .f32⟩ : BufTy).Contents (Elt F)),
    unary main_arg4 main_v56 (broadcastInDim S1x128 ![1] bcast_S128_S1x128_1 : (⟨S128, .f32⟩ : BufTy).Contents (Elt F) → (⟨S1x128, .f32⟩ : BufTy).Contents (Elt F)),
    unary main_v56 main_v57 (broadcastInDim S40000x128 ![0, 1] bcast_S1x128_S40000x128_0_1 : (⟨S1x128, .f32⟩ : BufTy).Contents (Elt F) → (⟨S40000x128, .f32⟩ : BufTy).Contents (Elt F)),
    binary main_v55 main_v57 main_v58 (addf : (⟨S40000x128, .f32⟩ : BufTy).Contents (Elt F) → (⟨S40000x128, .f32⟩ : BufTy).Contents (Elt F) → (⟨S40000x128, .f32⟩ : BufTy).Contents (Elt F)) ]

/-- The buffers the operations of `sA1` write. -/
abbrev sA1_W : List (Ref sig .tc) := [main_v4, main_cst, main_v5, main_c, main_v6, main_v7, main_c_0, main_v8, main_v9, main_v10, main_v11, main_cst_1, main_v12, main_v13, main_cst_2, main_v14, main_v15, main_v16, main_c_3, main_v17, main_v18, main_c_4, main_v19, main_v20, main_v21, main_v22, main_v23, main_c_5, main_v24, main_v25, main_c_6, main_v26, main_v27, main_v28, main_v29, main_v30, main_v31, main_cst_7, main_v32, main_c_8, main_v33, main_v34, main_c_9, main_v35, main_v36, main_v37, main_v38, main_v39, main_v40, main_v41, main_v42, main_c_10, main_v43, main_v44, main_c_11, main_v45, main_v46, main_v47, main_v48, main_v49, main_cst_12, main_v50, main_v51, main_v52, main_v53, main_v54, main_v55, main_v56, main_v57, main_v58]
theorem sA1_writes : (sA1 : List (HloOp τ sig (Elt F))).Forall fun op => op.writes ⊆ (sA1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sA1` does not write keeps its contents through it. -/
theorem sA1_keep (V : Valuation τ sig (Elt F)) (r : Ref sig .tc) (h : r ∉ sA1_W) :
    after sA1 V (Proc.devRef .tc r) = V (Proc.devRef .tc r) :=
  after_of_writes_sub sA1 V sA1_writes h

theorem sA1_main_v58 (V : Valuation τ sig (Elt Ideal)) :
    after (sA1 (F := Ideal)) V (Proc.devRef .tc main_v58) = Cert.Spec.layer (Cert.Spec.wrapIdx (V (Proc.devRef .tc main_v3))) (V (Proc.devRef .tc main_v1))
      (Cert.Spec.norm (V (Proc.devRef .tc main_v1)) (V (Proc.devRef .tc main_v3))) (Cert.Spec.selfCol (V (Proc.devRef .tc main_v3)))
      (Cert.Spec.mm128 (V (Proc.devRef .tc main_arg0)) (V (Proc.devRef .tc main_arg3))) (V (Proc.devRef .tc main_arg4)) := by
  after_results_simp
  rfl

abbrev sB1 : List (HloOp τ sig (Elt F)) :=
  [ nullary main_cst_13 (constant S_ .f32 0x00000000#32),
    unary main_cst_13 main_v59 (broadcastInDim S40000x128 ![] bcast_S_S40000x128 : (⟨S_, .f32⟩ : BufTy).Contents (Elt F) → (⟨S40000x128, .f32⟩ : BufTy).Contents (Elt F)),
    binary main_v58 main_v59 main_v60 (cmpf .oge : (⟨S40000x128, .f32⟩ : BufTy).Contents (Elt F) → (⟨S40000x128, .f32⟩ : BufTy).Contents (Elt F) → (⟨S40000x128, .i1⟩ : BufTy).Contents (Elt F)),
    nullary main_cst_14 (constant S_ .f32 0x3C23D70A#32),
    unary main_cst_14 main_v61 (broadcastInDim S40000x128 ![] bcast_S_S40000x128 : (⟨S_, .f32⟩ : BufTy).Contents (Elt F) → (⟨S40000x128, .f32⟩ : BufTy).Contents (Elt F)),
    binary main_v61 main_v58 main_v62 (mulf : (⟨S40000x128, .f32⟩ : BufTy).Contents (Elt F) → (⟨S40000x128, .f32⟩ : BufTy).Contents (Elt F) → (⟨S40000x128, .f32⟩ : BufTy).Contents (Elt F)),
    TRef.ternary (TRef.of (T := ⟨S40000x128, .i1⟩) main_v60) (TRef.of (T := ⟨S40000x128, .f32⟩) main_v58) (TRef.of (T := ⟨S40000x128, .f32⟩) main_v62) (TRef.of (T := ⟨S40000x128, .f32⟩) main_v63) select ]

/-- The buffers the operations of `sB1` write. -/
abbrev sB1_W : List (Ref sig .tc) := [main_cst_13, main_v59, main_v60, main_cst_14, main_v61, main_v62, main_v63]
theorem sB1_writes : (sB1 : List (HloOp τ sig (Elt F))).Forall fun op => op.writes ⊆ (sB1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sB1` does not write keeps its contents through it. -/
theorem sB1_keep (V : Valuation τ sig (Elt F)) (r : Ref sig .tc) (h : r ∉ sB1_W) :
    after sB1 V (Proc.devRef .tc r) = V (Proc.devRef .tc r) :=
  after_of_writes_sub sB1 V sB1_writes h

theorem sB1_main_v63 (V : Valuation τ sig (Elt Ideal)) :
    after (sB1 (F := Ideal)) V (Proc.devRef .tc main_v63) = Cert.Spec.leaky (V (Proc.devRef .tc main_v58)) := by
  after_results_simp
  simp only [cast_eq]
  rfl

end Cert.RefRun

end
-- ==== Proof.RefL2.lean ====
/-
  The second graph-convolution layer of the reference, as two stretches of its operations, each for ANY starting contents:
  the layer (matrix product, degree, edge weights, messages summed at the wrapped destination index, self-loop term,
  bias), then the leaky rectifier.  The degree and the edge weights are computed again, as the same functions of the
  edge list.
-/
import proofs.«147250_j29549374997129_1_alg».proof.Proof.RefOps
import proofs.«147250_j29549374997129_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev sA2 : List (HloOp τ sig (Elt F)) :=
  [ binary main_v63 main_arg5 main_v64 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    nullary main_cst_15 (constant S_ .f32 0x00000000#32),
    unary main_cst_15 main_v65 (broadcastInDim S40000 ![] bcast_S_S40000 : (⟨S_, .f32⟩ : BufTy).Contents (Elt F) → (⟨S40000, .f32⟩ : BufTy).Contents (Elt F)),
    nullary main_c_16 (constantI S_ 32 0#32),
    unary main_c_16 main_v66 (broadcastInDim S640000 ![] bcast_S_S640000 : (⟨S_, .i32⟩ : BufTy).Contents (Elt F) → (⟨S640000, .i32⟩ : BufTy).Contents (Elt F)),
    binary main_v3 main_v66 main_v67 (cmpi .slt : (⟨S640000, .i32⟩ : BufTy).Contents (Elt F) → (⟨S640000, .i32⟩ : BufTy).Contents (Elt F) → (⟨S640000, .i1⟩ : BufTy).Contents (Elt F)),
    nullary main_c_17 (constantI S_ 32 40000#32),
    unary main_c_17 main_v68 (broadcastInDim S640000 ![] bcast_S_S640000 : (⟨S_, .i32⟩ : BufTy).Contents (Elt F) → (⟨S640000, .i32⟩ : BufTy).Contents (Elt F)),
    binary main_v3 main_v68 main_v69 (addi : (⟨S640000, .i32⟩ : BufTy).Contents (Elt F) → (⟨S640000, .i32⟩ : BufTy).Contents (Elt F) → (⟨S640000, .i32⟩ : BufTy).Contents (Elt F)),
    ternary main_v67 main_v69 main_v3 main_v70 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v70 main_v71 (broadcastInDim S640000x1 ![0] bcast_S640000_S640000x1_0 : (⟨S640000, .i32⟩ : BufTy).Contents (Elt F) → (⟨S640000x1, .i32⟩ : BufTy).Contents (Elt F)),
    nullary main_cst_18 (constant S_ .f32 0x3F800000#32),
    unary main_cst_18 main_v72 (broadcastInDim S640000 ![] bcast_S_S640000 : (⟨S_, .f32⟩ : BufTy).Contents (Elt F) → (⟨S640000, .f32⟩ : BufTy).Contents (Elt F)),
    ternary main_v65 main_v71 main_v72 main_v73 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_19 (constant S_ .f32 0x3F800000#32),
    unary main_cst_19 main_v74 (broadcastInDim S40000 ![] bcast_S_S40000 : (⟨S_, .f32⟩ : BufTy).Contents (Elt F) → (⟨S40000, .f32⟩ : BufTy).Contents (Elt F)),
    binary main_v73 main_v74 main_v75 (addf : (⟨S40000, .f32⟩ : BufTy).Contents (Elt F) → (⟨S40000, .f32⟩ : BufTy).Contents (Elt F) → (⟨S40000, .f32⟩ : BufTy).Contents (Elt F)),
    unary main_v75 main_v76 (Host.rsqrt : (⟨S40000, .f32⟩ : BufTy).Contents (Elt F) → (⟨S40000, .f32⟩ : BufTy).Contents (Elt F)),
    nullary main_c_20 (constantI S_ 32 0#32),
    unary main_c_20 main_v77 (broadcastInDim S640000 ![] bcast_S_S640000 : (⟨S_, .i32⟩ : BufTy).Contents (Elt F) → (⟨S640000, .i32⟩ : BufTy).Contents (Elt F)),
    binary main_v1 main_v77 main_v78 (cmpi .slt : (⟨S640000, .i32⟩ : BufTy).Contents (Elt F) → (⟨S640000, .i32⟩ : BufTy).Contents (Elt F) → (⟨S640000, .i1⟩ : BufTy).Contents (Elt F)),
    nullary main_c_21 (constantI S_ 32 40000#32),
    unary main_c_21 main_v79 (broadcastInDim S640000 ![] bcast_S_S640000 : (⟨S_, .i32⟩ : BufTy).Contents (Elt F) → (⟨S640000, .i32⟩ : BufTy).Contents (Elt F)),
    binary main_v1 main_v79 main_v80 (addi : (⟨S640000, .i32⟩ : BufTy).Contents (Elt F) → (⟨S640000, .i32⟩ : BufTy).Contents (Elt F) → (⟨S640000, .i32⟩ : BufTy).Contents (Elt F)),
    ternary main_v78 main_v80 main_v1 main_v81 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v81 main_v82 (broadcastInDim S640000x1 ![0] bcast_S640000_S640000x1_0 : (⟨S640000, .i32⟩ : BufTy).Contents (Elt F) → (⟨S640000x1, .i32⟩ : BufTy).Contents (Elt F)),
    binary main_v76 main_v82 main_v83 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    nullary main_c_22 (constantI S_ 32 0#32),
    unary main_c_22 main_v84 (broadcastInDim S640000 ![] bcast_S_S640000 : (⟨S_, .i32⟩ : BufTy).Contents (Elt F) → (⟨S640000, .i32⟩ : BufTy).Contents (Elt F)),
    binary main_v3 main_v84 main_v85 (cmpi .slt : (⟨S640000, .i32⟩ : BufTy).Contents (Elt F) → (⟨S640000, .i32⟩ : BufTy).Contents (Elt F) → (⟨S640000, .i1⟩ : BufTy).Contents (Elt F)),
    nullary main_c_23 (constantI S_ 32 40000#32),
    unary main_c_23 main_v86 (broadcastInDim S640000 ![] bcast_S_S640000 : (⟨S_, .i32⟩ : BufTy).Contents (Elt F) → (⟨S640000, .i32⟩ : BufTy).Contents (Elt F)),
    binary main_v3 main_v86 main_v87 (addi : (⟨S640000, .i32⟩ : BufTy).Contents (Elt F) → (⟨S640000, .i32⟩ : BufTy).Contents (Elt F) → (⟨S640000, .i32⟩ : BufTy).Contents (Elt F)),
    ternary main_v85 main_v87 main_v3 main_v88 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v88 main_v89 (broadcastInDim S640000x1 ![0] bcast_S640000_S640000x1_0 : (⟨S640000, .i32⟩ : BufTy).Contents (Elt F) → (⟨S640000x1, .i32⟩ : BufTy).Contents (Elt F)),
    binary main_v76 main_v89 main_v90 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    binary main_v83 main_v90 main_v91 (mulf : (⟨S640000, .f32⟩ : BufTy).Contents (Elt F) → (⟨S640000, .f32⟩ : BufTy).Contents (Elt F) → (⟨S640000, .f32⟩ : BufTy).Contents (Elt F)),
    nullary main_cst_24 (constant S_ .f32 0x00000000#32),
    unary main_cst_24 main_v92 (broadcastInDim S40000x128 ![] bcast_S_S40000x128 : (⟨S_, .f32⟩ : BufTy).Contents (Elt F) → (⟨S40000x128, .f32⟩ : BufTy).Contents (Elt F)),
    nullary main_c_25 (constantI S_ 32 0#32),
    unary main_c_25 main_v93 (broadcastInDim S640000 ![] bcast_S_S640000 : (⟨S_, .i32⟩ : BufTy).Contents (Elt F) → (⟨S640000, .i32⟩ : BufTy).Contents (Elt F)),
    binary main_v1 main_v93 main_v94 (cmpi .slt : (⟨S640000, .i32⟩ : BufTy).Contents (Elt F) → (⟨S640000, .i32⟩ : BufTy).Contents (Elt F) → (⟨S640000, .i1⟩ : BufTy).Contents (Elt F)),
    nullary main_c_26 (constantI S_ 32 40000#32),
    unary main_c_26 main_v95 (broadcastInDim S640000 ![] bcast_S_S640000 : (⟨S_, .i32⟩ : BufTy).Contents (Elt F) → (⟨S640000, .i32⟩ : BufTy).Contents (Elt F)),
    binary main_v1 main_v95 main_v96 (addi : (⟨S640000, .i32⟩ : BufTy).Contents (Elt F) → (⟨S640000, .i32⟩ : BufTy).Contents (Elt F) → (⟨S640000, .i32⟩ : BufTy).Contents (Elt F)),
    ternary main_v94 main_v96 main_v1 main_v97 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v97 main_v98 (broadcastInDim S640000x1 ![0] bcast_S640000_S640000x1_0 : (⟨S640000, .i32⟩ : BufTy).Contents (Elt F) → (⟨S640000x1, .i32⟩ : BufTy).Contents (Elt F)),
    binary main_v64 main_v98 main_v99 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    unary main_v91 main_v100 (broadcastInDim S640000x1 ![0] bcast_S640000_S640000x1_0 : (⟨S640000, .f32⟩ : BufTy).Contents (Elt F) → (⟨S640000x1, .f32⟩ : BufTy).Contents (Elt F)),
    unary main_v100 main_v101 (broadcastInDim S640000x128 ![0, 1] bcast_S640000x1_S640000x128_0_1 : (⟨S640000x1, .f32⟩ : BufTy).Contents (Elt F) → (⟨S640000x128, .f32⟩ : BufTy).Contents (Elt F)),
    binary main_v99 main_v101 main_v102 (mulf : (⟨S640000x128, .f32⟩ : BufTy).Contents (Elt F) → (⟨S640000x128, .f32⟩ : BufTy).Contents (Elt F) → (⟨S640000x128, .f32⟩ : BufTy).Contents (Elt F)),
    nullary main_c_27 (constantI S_ 32 0#32),
    unary main_c_27 main_v103 (broadcastInDim S640000 ![] bcast_S_S640000 : (⟨S_, .i32⟩ : BufTy).Contents (Elt F) → (⟨S640000, .i32⟩ : BufTy).Contents (Elt F)),
    binary main_v3 main_v103 main_v104 (cmpi .slt : (⟨S640000, .i32⟩ : BufTy).Contents (Elt F) → (⟨S640000, .i32⟩ : BufTy).Contents (Elt F) → (⟨S640000, .i1⟩ : BufTy).Contents (Elt F)),
    nullary main_c_28 (constantI S_ 32 40000#32),
    unary main_c_28 main_v105 (broadcastInDim S640000 ![] bcast_S_S640000 : (⟨S_, .i32⟩ : BufTy).Contents (Elt F) → (⟨S640000, .i32⟩ : BufTy).Contents (Elt F)),
    binary main_v3 main_v105 main_v106 (addi : (⟨S640000, .i32⟩ : BufTy).Contents (Elt F) → (⟨S640000, .i32⟩ : BufTy).Contents (Elt F) → (⟨S640000, .i32⟩ : BufTy).Contents (Elt F)),
    ternary main_v104 main_v106 main_v3 main_v107 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v107 main_v108 (broadcastInDim S640000x1 ![0] bcast_S640000_S640000x1_0 : (⟨S640000, .i32⟩ : BufTy).Contents (Elt F) → (⟨S640000x1, .i32⟩ : BufTy).Contents (Elt F)),
    ternary main_v92 main_v108 main_v102 main_v109 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_29 (constant S_ .f32 0x3F800000#32),
    unary main_cst_29 main_v110 (broadcastInDim S40000 ![] bcast_S_S40000 : (⟨S_, .f32⟩ : BufTy).Contents (Elt F) → (⟨S40000, .f32⟩ : BufTy).Contents (Elt F)),
    binary main_v110 main_v75 main_v111 (Host.divf : (⟨S40000, .f32⟩ : BufTy).Contents (Elt F) → (⟨S40000, .f32⟩ : BufTy).Contents (Elt F) → (⟨S40000, .f32⟩ : BufTy).Contents (Elt F)),
    unary main_v111 main_v112 (broadcastInDim S40000x1 ![0] bcast_S40000_S40000x1_0 : (⟨S40000, .f32⟩ : BufTy).Contents (Elt F) → (⟨S40000x1, .f32⟩ : BufTy).Contents (Elt F)),
    unary main_v112 main_v113 (broadcastInDim S40000x128 ![0, 1] bcast_S40000x1_S40000x128_0_1 : (⟨S40000x1, .f32⟩ : BufTy).Contents (Elt F) → (⟨S40000x128, .f32⟩ : BufTy).Contents (Elt F)),
    binary main_v64 main_v113 main_v114 (mulf : (⟨S40000x128, .f32⟩ : BufTy).Contents (Elt F) → (⟨S40000x128, .f32⟩ : BufTy).Contents (Elt F) → (⟨S40000x128, .f32⟩ : BufTy).Contents (Elt F)),
    binary main_v109 main_v114 main_v115 (addf : (⟨S40000x128, .f32⟩ : BufTy).Contents (Elt F) → (⟨S40000x128, .f32⟩ : BufTy).Contents (Elt F) → (⟨S40000x128, .f32⟩ : BufTy).Contents (Elt F)),
    unary main_arg6 main_v116 (broadcastInDim S1x128 ![1] bcast_S128_S1x128_1 : (⟨S128, .f32⟩ : BufTy).Contents (Elt F) → (⟨S1x128, .f32⟩ : BufTy).Contents (Elt F)),
    unary main_v116 main_v117 (broadcastInDim S40000x128 ![0, 1] bcast_S1x128_S40000x128_0_1 : (⟨S1x128, .f32⟩ : BufTy).Contents (Elt F) → (⟨S40000x128, .f32⟩ : BufTy).Contents (Elt F)),
    binary main_v115 main_v117 main_v118 (addf : (⟨S40000x128, .f32⟩ : BufTy).Contents (Elt F) → (⟨S40000x128, .f32⟩ : BufTy).Contents (Elt F) → (⟨S40000x128, .f32⟩ : BufTy).Contents (Elt F)) ]

/-- The buffers the operations of `sA2` write. -/
abbrev sA2_W : List (Ref sig .tc) := [main_v64, main_cst_15, main_v65, main_c_16, main_v66, main_v67, main_c_17, main_v68, main_v69, main_v70, main_v71, main_cst_18, main_v72, main_v73, main_cst_19, main_v74, main_v75, main_v76, main_c_20, main_v77, main_v78, main_c_21, main_v79, main_v80, main_v81, main_v82, main_v83, main_c_22, main_v84, main_v85, main_c_23, main_v86, main_v87, main_v88, main_v89, main_v90, main_v91, main_cst_24, main_v92, main_c_25, main_v93, main_v94, main_c_26, main_v95, main_v96, main_v97, main_v98, main_v99, main_v100, main_v101, main_v102, main_c_27, main_v103, main_v104, main_c_28, main_v105, main_v106, main_v107, main_v108, main_v109, main_cst_29, main_v110, main_v111, main_v112, main_v113, main_v114, main_v115, main_v116, main_v117, main_v118]
theorem sA2_writes : (sA2 : List (HloOp τ sig (Elt F))).Forall fun op => op.writes ⊆ (sA2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sA2` does not write keeps its contents through it. -/
theorem sA2_keep (V : Valuation τ sig (Elt F)) (r : Ref sig .tc) (h : r ∉ sA2_W) :
    after sA2 V (Proc.devRef .tc r) = V (Proc.devRef .tc r) :=
  after_of_writes_sub sA2 V sA2_writes h

theorem sA2_main_v118 (V : Valuation τ sig (Elt Ideal)) :
    after (sA2 (F := Ideal)) V (Proc.devRef .tc main_v118) = Cert.Spec.layer (Cert.Spec.wrapIdx (V (Proc.devRef .tc main_v3))) (V (Proc.devRef .tc main_v1))
      (Cert.Spec.norm (V (Proc.devRef .tc main_v1)) (V (Proc.devRef .tc main_v3))) (Cert.Spec.selfCol (V (Proc.devRef .tc main_v3)))
      (Cert.Spec.mm128 (V (Proc.devRef .tc main_v63)) (V (Proc.devRef .tc main_arg5))) (V (Proc.devRef .tc main_arg6)) := by
  after_results_simp
  rfl

abbrev sB2 : List (HloOp τ sig (Elt F)) :=
  [ nullary main_cst_30 (constant S_ .f32 0x00000000#32),
    unary main_cst_30 main_v119 (broadcastInDim S40000x128 ![] bcast_S_S40000x128 : (⟨S_, .f32⟩ : BufTy).Contents (Elt F) → (⟨S40000x128, .f32⟩ : BufTy).Contents (Elt F)),
    binary main_v118 main_v119 main_v120 (cmpf .oge : (⟨S40000x128, .f32⟩ : BufTy).Contents (Elt F) → (⟨S40000x128, .f32⟩ : BufTy).Contents (Elt F) → (⟨S40000x128, .i1⟩ : BufTy).Contents (Elt F)),
    nullary main_cst_31 (constant S_ .f32 0x3C23D70A#32),
    unary main_cst_31 main_v121 (broadcastInDim S40000x128 ![] bcast_S_S40000x128 : (⟨S_, .f32⟩ : BufTy).Contents (Elt F) → (⟨S40000x128, .f32⟩ : BufTy).Contents (Elt F)),
    binary main_v121 main_v118 main_v122 (mulf : (⟨S40000x128, .f32⟩ : BufTy).Contents (Elt F) → (⟨S40000x128, .f32⟩ : BufTy).Contents (Elt F) → (⟨S40000x128, .f32⟩ : BufTy).Contents (Elt F)),
    TRef.ternary (TRef.of (T := ⟨S40000x128, .i1⟩) main_v120) (TRef.of (T := ⟨S40000x128, .f32⟩) main_v118) (TRef.of (T := ⟨S40000x128, .f32⟩) main_v122) (TRef.of (T := ⟨S40000x128, .f32⟩) main_v123) select ]

/-- The buffers the operations of `sB2` write. -/
abbrev sB2_W : List (Ref sig .tc) := [main_cst_30, main_v119, main_v120, main_cst_31, main_v121, main_v122, main_v123]
theorem sB2_writes : (sB2 : List (HloOp τ sig (Elt F))).Forall fun op => op.writes ⊆ (sB2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sB2` does not write keeps its contents through it. -/
theorem sB2_keep (V : Valuation τ sig (Elt F)) (r : Ref sig .tc) (h : r ∉ sB2_W) :
    after sB2 V (Proc.devRef .tc r) = V (Proc.devRef .tc r) :=
  after_of_writes_sub sB2 V sB2_writes h

theorem sB2_main_v123 (V : Valuation τ sig (Elt Ideal)) :
    after (sB2 (F := Ideal)) V (Proc.devRef .tc main_v123) = Cert.Spec.leaky (V (Proc.devRef .tc main_v118)) := by
  after_results_simp
  simp only [cast_eq]
  rfl

end Cert.RefRun

end
-- ==== Proof.RefL3.lean ====
/-
  The third graph-convolution layer of the reference, one stretch of its operations for ANY starting contents: matrix
  product, degree, edge weights, messages summed at the wrapped destination index, self-loop term, bias (no rectifier).
-/
import proofs.«147250_j29549374997129_1_alg».proof.Proof.RefOps
import proofs.«147250_j29549374997129_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev sA3 : List (HloOp τ sig (Elt F)) :=
  [ binary main_v123 main_arg7 main_v124 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    nullary main_cst_32 (constant S_ .f32 0x00000000#32),
    unary main_cst_32 main_v125 (broadcastInDim S40000 ![] bcast_S_S40000 : (⟨S_, .f32⟩ : BufTy).Contents (Elt F) → (⟨S40000, .f32⟩ : BufTy).Contents (Elt F)),
    nullary main_c_33 (constantI S_ 32 0#32),
    unary main_c_33 main_v126 (broadcastInDim S640000 ![] bcast_S_S640000 : (⟨S_, .i32⟩ : BufTy).Contents (Elt F) → (⟨S640000, .i32⟩ : BufTy).Contents (Elt F)),
    binary main_v3 main_v126 main_v127 (cmpi .slt : (⟨S640000, .i32⟩ : BufTy).Contents (Elt F) → (⟨S640000, .i32⟩ : BufTy).Contents (Elt F) → (⟨S640000, .i1⟩ : BufTy).Contents (Elt F)),
    nullary main_c_34 (constantI S_ 32 40000#32),
    unary main_c_34 main_v128 (broadcastInDim S640000 ![] bcast_S_S640000 : (⟨S_, .i32⟩ : BufTy).Contents (Elt F) → (⟨S640000, .i32⟩ : BufTy).Contents (Elt F)),
    binary main_v3 main_v128 main_v129 (addi : (⟨S640000, .i32⟩ : BufTy).Contents (Elt F) → (⟨S640000, .i32⟩ : BufTy).Contents (Elt F) → (⟨S640000, .i32⟩ : BufTy).Contents (Elt F)),
    ternary main_v127 main_v129 main_v3 main_v130 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v130 main_v131 (broadcastInDim S640000x1 ![0] bcast_S640000_S640000x1_0 : (⟨S640000, .i32⟩ : BufTy).Contents (Elt F) → (⟨S640000x1, .i32⟩ : BufTy).Contents (Elt F)),
    nullary main_cst_35 (constant S_ .f32 0x3F800000#32),
    unary main_cst_35 main_v132 (broadcastInDim S640000 ![] bcast_S_S640000 : (⟨S_, .f32⟩ : BufTy).Contents (Elt F) → (⟨S640000, .f32⟩ : BufTy).Contents (Elt F)),
    ternary main_v125 main_v131 main_v132 main_v133 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    nullary main_cst_36 (constant S_ .f32 0x3F800000#32),
    unary main_cst_36 main_v134 (broadcastInDim S40000 ![] bcast_S_S40000 : (⟨S_, .f32⟩ : BufTy).Contents (Elt F) → (⟨S40000, .f32⟩ : BufTy).Contents (Elt F)),
    binary main_v133 main_v134 main_v135 (addf : (⟨S40000, .f32⟩ : BufTy).Contents (Elt F) → (⟨S40000, .f32⟩ : BufTy).Contents (Elt F) → (⟨S40000, .f32⟩ : BufTy).Contents (Elt F)),
    unary main_v135 main_v136 (Host.rsqrt : (⟨S40000, .f32⟩ : BufTy).Contents (Elt F) → (⟨S40000, .f32⟩ : BufTy).Contents (Elt F)),
    nullary main_c_37 (constantI S_ 32 0#32),
    unary main_c_37 main_v137 (broadcastInDim S640000 ![] bcast_S_S640000 : (⟨S_, .i32⟩ : BufTy).Contents (Elt F) → (⟨S640000, .i32⟩ : BufTy).Contents (Elt F)),
    binary main_v1 main_v137 main_v138 (cmpi .slt : (⟨S640000, .i32⟩ : BufTy).Contents (Elt F) → (⟨S640000, .i32⟩ : BufTy).Contents (Elt F) → (⟨S640000, .i1⟩ : BufTy).Contents (Elt F)),
    nullary main_c_38 (constantI S_ 32 40000#32),
    unary main_c_38 main_v139 (broadcastInDim S640000 ![] bcast_S_S640000 : (⟨S_, .i32⟩ : BufTy).Contents (Elt F) → (⟨S640000, .i32⟩ : BufTy).Contents (Elt F)),
    binary main_v1 main_v139 main_v140 (addi : (⟨S640000, .i32⟩ : BufTy).Contents (Elt F) → (⟨S640000, .i32⟩ : BufTy).Contents (Elt F) → (⟨S640000, .i32⟩ : BufTy).Contents (Elt F)),
    ternary main_v138 main_v140 main_v1 main_v141 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v141 main_v142 (broadcastInDim S640000x1 ![0] bcast_S640000_S640000x1_0 : (⟨S640000, .i32⟩ : BufTy).Contents (Elt F) → (⟨S640000x1, .i32⟩ : BufTy).Contents (Elt F)),
    binary main_v136 main_v142 main_v143 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    nullary main_c_39 (constantI S_ 32 0#32),
    unary main_c_39 main_v144 (broadcastInDim S640000 ![] bcast_S_S640000 : (⟨S_, .i32⟩ : BufTy).Contents (Elt F) → (⟨S640000, .i32⟩ : BufTy).Contents (Elt F)),
    binary main_v3 main_v144 main_v145 (cmpi .slt : (⟨S640000, .i32⟩ : BufTy).Contents (Elt F) → (⟨S640000, .i32⟩ : BufTy).Contents (Elt F) → (⟨S640000, .i1⟩ : BufTy).Contents (Elt F)),
    nullary main_c_40 (constantI S_ 32 40000#32),
    unary main_c_40 main_v146 (broadcastInDim S640000 ![] bcast_S_S640000 : (⟨S_, .i32⟩ : BufTy).Contents (Elt F) → (⟨S640000, .i32⟩ : BufTy).Contents (Elt F)),
    binary main_v3 main_v146 main_v147 (addi : (⟨S640000, .i32⟩ : BufTy).Contents (Elt F) → (⟨S640000, .i32⟩ : BufTy).Contents (Elt F) → (⟨S640000, .i32⟩ : BufTy).Contents (Elt F)),
    ternary main_v145 main_v147 main_v3 main_v148 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v148 main_v149 (broadcastInDim S640000x1 ![0] bcast_S640000_S640000x1_0 : (⟨S640000, .i32⟩ : BufTy).Contents (Elt F) → (⟨S640000x1, .i32⟩ : BufTy).Contents (Elt F)),
    binary main_v136 main_v149 main_v150 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    binary main_v143 main_v150 main_v151 (mulf : (⟨S640000, .f32⟩ : BufTy).Contents (Elt F) → (⟨S640000, .f32⟩ : BufTy).Contents (Elt F) → (⟨S640000, .f32⟩ : BufTy).Contents (Elt F)),
    nullary main_cst_41 (constant S_ .f32 0x00000000#32),
    unary main_cst_41 main_v152 (broadcastInDim S40000x128 ![] bcast_S_S40000x128 : (⟨S_, .f32⟩ : BufTy).Contents (Elt F) → (⟨S40000x128, .f32⟩ : BufTy).Contents (Elt F)),
    nullary main_c_42 (constantI S_ 32 0#32),
    unary main_c_42 main_v153 (broadcastInDim S640000 ![] bcast_S_S640000 : (⟨S_, .i32⟩ : BufTy).Contents (Elt F) → (⟨S640000, .i32⟩ : BufTy).Contents (Elt F)),
    binary main_v1 main_v153 main_v154 (cmpi .slt : (⟨S640000, .i32⟩ : BufTy).Contents (Elt F) → (⟨S640000, .i32⟩ : BufTy).Contents (Elt F) → (⟨S640000, .i1⟩ : BufTy).Contents (Elt F)),
    nullary main_c_43 (constantI S_ 32 40000#32),
    unary main_c_43 main_v155 (broadcastInDim S640000 ![] bcast_S_S640000 : (⟨S_, .i32⟩ : BufTy).Contents (Elt F) → (⟨S640000, .i32⟩ : BufTy).Contents (Elt F)),
    binary main_v1 main_v155 main_v156 (addi : (⟨S640000, .i32⟩ : BufTy).Contents (Elt F) → (⟨S640000, .i32⟩ : BufTy).Contents (Elt F) → (⟨S640000, .i32⟩ : BufTy).Contents (Elt F)),
    ternary main_v154 main_v156 main_v1 main_v157 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v157 main_v158 (broadcastInDim S640000x1 ![0] bcast_S640000_S640000x1_0 : (⟨S640000, .i32⟩ : BufTy).Contents (Elt F) → (⟨S640000x1, .i32⟩ : BufTy).Contents (Elt F)),
    binary main_v124 main_v158 main_v159 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    unary main_v151 main_v160 (broadcastInDim S640000x1 ![0] bcast_S640000_S640000x1_0 : (⟨S640000, .f32⟩ : BufTy).Contents (Elt F) → (⟨S640000x1, .f32⟩ : BufTy).Contents (Elt F)),
    unary main_v160 main_v161 (broadcastInDim S640000x128 ![0, 1] bcast_S640000x1_S640000x128_0_1 : (⟨S640000x1, .f32⟩ : BufTy).Contents (Elt F) → (⟨S640000x128, .f32⟩ : BufTy).Contents (Elt F)),
    binary main_v159 main_v161 main_v162 (mulf : (⟨S640000x128, .f32⟩ : BufTy).Contents (Elt F) → (⟨S640000x128, .f32⟩ : BufTy).Contents (Elt F) → (⟨S640000x128, .f32⟩ : BufTy).Contents (Elt F)),
    nullary main_c_44 (constantI S_ 32 0#32),
    unary main_c_44 main_v163 (broadcastInDim S640000 ![] bcast_S_S640000 : (⟨S_, .i32⟩ : BufTy).Contents (Elt F) → (⟨S640000, .i32⟩ : BufTy).Contents (Elt F)),
    binary main_v3 main_v163 main_v164 (cmpi .slt : (⟨S640000, .i32⟩ : BufTy).Contents (Elt F) → (⟨S640000, .i32⟩ : BufTy).Contents (Elt F) → (⟨S640000, .i1⟩ : BufTy).Contents (Elt F)),
    nullary main_c_45 (constantI S_ 32 40000#32),
    unary main_c_45 main_v165 (broadcastInDim S640000 ![] bcast_S_S640000 : (⟨S_, .i32⟩ : BufTy).Contents (Elt F) → (⟨S640000, .i32⟩ : BufTy).Contents (Elt F)),
    binary main_v3 main_v165 main_v166 (addi : (⟨S640000, .i32⟩ : BufTy).Contents (Elt F) → (⟨S640000, .i32⟩ : BufTy).Contents (Elt F) → (⟨S640000, .i32⟩ : BufTy).Contents (Elt F)),
    ternary main_v164 main_v166 main_v3 main_v167 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v167 main_v168 (broadcastInDim S640000x1 ![0] bcast_S640000_S640000x1_0 : (⟨S640000, .i32⟩ : BufTy).Contents (Elt F) → (⟨S640000x1, .i32⟩ : BufTy).Contents (Elt F)),
    ternary main_v152 main_v168 main_v162 main_v169 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    nullary main_cst_46 (constant S_ .f32 0x3F800000#32),
    unary main_cst_46 main_v170 (broadcastInDim S40000 ![] bcast_S_S40000 : (⟨S_, .f32⟩ : BufTy).Contents (Elt F) → (⟨S40000, .f32⟩ : BufTy).Contents (Elt F)),
    binary main_v170 main_v135 main_v171 (Host.divf : (⟨S40000, .f32⟩ : BufTy).Contents (Elt F) → (⟨S40000, .f32⟩ : BufTy).Contents (Elt F) → (⟨S40000, .f32⟩ : BufTy).Contents (Elt F)),
    unary main_v171 main_v172 (broadcastInDim S40000x1 ![0] bcast_S40000_S40000x1_0 : (⟨S40000, .f32⟩ : BufTy).Contents (Elt F) → (⟨S40000x1, .f32⟩ : BufTy).Contents (Elt F)),
    unary main_v172 main_v173 (broadcastInDim S40000x128 ![0, 1] bcast_S40000x1_S40000x128_0_1 : (⟨S40000x1, .f32⟩ : BufTy).Contents (Elt F) → (⟨S40000x128, .f32⟩ : BufTy).Contents (Elt F)),
    binary main_v124 main_v173 main_v174 (mulf : (⟨S40000x128, .f32⟩ : BufTy).Contents (Elt F) → (⟨S40000x128, .f32⟩ : BufTy).Contents (Elt F) → (⟨S40000x128, .f32⟩ : BufTy).Contents (Elt F)),
    binary main_v169 main_v174 main_v175 (addf : (⟨S40000x128, .f32⟩ : BufTy).Contents (Elt F) → (⟨S40000x128, .f32⟩ : BufTy).Contents (Elt F) → (⟨S40000x128, .f32⟩ : BufTy).Contents (Elt F)),
    unary main_arg8 main_v176 (broadcastInDim S1x128 ![1] bcast_S128_S1x128_1 : (⟨S128, .f32⟩ : BufTy).Contents (Elt F) → (⟨S1x128, .f32⟩ : BufTy).Contents (Elt F)),
    unary main_v176 main_v177 (broadcastInDim S40000x128 ![0, 1] bcast_S1x128_S40000x128_0_1 : (⟨S1x128, .f32⟩ : BufTy).Contents (Elt F) → (⟨S40000x128, .f32⟩ : BufTy).Contents (Elt F)),
    binary main_v175 main_v177 main_v178 (addf : (⟨S40000x128, .f32⟩ : BufTy).Contents (Elt F) → (⟨S40000x128, .f32⟩ : BufTy).Contents (Elt F) → (⟨S40000x128, .f32⟩ : BufTy).Contents (Elt F)) ]

/-- The buffers the operations of `sA3` write. -/
abbrev sA3_W : List (Ref sig .tc) := [main_v124, main_cst_32, main_v125, main_c_33, main_v126, main_v127, main_c_34, main_v128, main_v129, main_v130, main_v131, main_cst_35, main_v132, main_v133, main_cst_36, main_v134, main_v135, main_v136, main_c_37, main_v137, main_v138, main_c_38, main_v139, main_v140, main_v141, main_v142, main_v143, main_c_39, main_v144, main_v145, main_c_40, main_v146, main_v147, main_v148, main_v149, main_v150, main_v151, main_cst_41, main_v152, main_c_42, main_v153, main_v154, main_c_43, main_v155, main_v156, main_v157, main_v158, main_v159, main_v160, main_v161, main_v162, main_c_44, main_v163, main_v164, main_c_45, main_v165, main_v166, main_v167, main_v168, main_v169, main_cst_46, main_v170, main_v171, main_v172, main_v173, main_v174, main_v175, main_v176, main_v177, main_v178]
theorem sA3_writes : (sA3 : List (HloOp τ sig (Elt F))).Forall fun op => op.writes ⊆ (sA3_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sA3` does not write keeps its contents through it. -/
theorem sA3_keep (V : Valuation τ sig (Elt F)) (r : Ref sig .tc) (h : r ∉ sA3_W) :
    after sA3 V (Proc.devRef .tc r) = V (Proc.devRef .tc r) :=
  after_of_writes_sub sA3 V sA3_writes h

theorem sA3_main_v178 (V : Valuation τ sig (Elt Ideal)) :
    after (sA3 (F := Ideal)) V (Proc.devRef .tc main_v178) = Cert.Spec.layer (Cert.Spec.wrapIdx (V (Proc.devRef .tc main_v3))) (V (Proc.devRef .tc main_v1))
      (Cert.Spec.norm (V (Proc.devRef .tc main_v1)) (V (Proc.devRef .tc main_v3))) (Cert.Spec.selfCol (V (Proc.devRef .tc main_v3)))
      (Cert.Spec.mm128 (V (Proc.devRef .tc main_v123)) (V (Proc.devRef .tc main_arg7))) (V (Proc.devRef .tc main_arg8)) := by
  after_results_simp
  rfl

end Cert.RefRun

end
-- ==== Proof.RefTail.lean ====
/-
  The reference's first four operations (the two rows of the edge list) and its last three stretches, each for ANY
  starting contents: the pooling of the nodes into graphs (sums beside means), the two-layer head, the softmax.
-/
import proofs.«147250_j29549374997129_1_alg».proof.Proof.RefOps
import proofs.«147250_j29549374997129_1_alg».proof.Proof.Spec

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev s0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]

/-- The buffers the operations of `s0` write. -/
abbrev s0_W : List (Ref sig .tc) := [main_v0, main_v1, main_v2, main_v3]
theorem s0_writes : (s0 : List (HloOp τ sig (Elt F))).Forall fun op => op.writes ⊆ (s0_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `s0` does not write keeps its contents through it. -/
theorem s0_keep (V : Valuation τ sig (Elt F)) (r : Ref sig .tc) (h : r ∉ s0_W) :
    after s0 V (Proc.devRef .tc r) = V (Proc.devRef .tc r) :=
  after_of_writes_sub s0 V s0_writes h

theorem s0_main_v1 (V : Valuation τ sig (Elt Ideal)) :
    after (s0 (F := Ideal)) V (Proc.devRef .tc main_v1) = Cert.Spec.srcOf (V (Proc.devRef .tc main_arg1)) := by
  after_results_simp
  rfl

theorem s0_main_v3 (V : Valuation τ sig (Elt Ideal)) :
    after (s0 (F := Ideal)) V (Proc.devRef .tc main_v3) = Cert.Spec.dstOf (V (Proc.devRef .tc main_arg1)) := by
  after_results_simp
  rfl

abbrev sEm : List (HloOp τ sig (Elt F)) :=
  [ nullary main_cst_47 (constant S_ .f32 0x00000000#32),
    unary main_cst_47 main_v179 (broadcastInDim S256x128 ![] bcast_S_S256x128 : (⟨S_, .f32⟩ : BufTy).Contents (Elt F) → (⟨S256x128, .f32⟩ : BufTy).Contents (Elt F)),
    unary main_arg2 main_v180 (broadcastInDim S40000x1 ![0] bcast_S40000_S40000x1_0 : (⟨S40000, .i32⟩ : BufTy).Contents (Elt F) → (⟨S40000x1, .i32⟩ : BufTy).Contents (Elt F)),
    ternary main_v179 main_v180 main_v178 main_v181 ((fun x i u => Host.scatterAdd scatter_S256x128_S40000x1_S40000x128_1_0_0_1 x i u) : (⟨S256x128, .f32⟩ : BufTy).Contents (Elt F) → (⟨S40000x1, .i32⟩ : BufTy).Contents (Elt F) → (⟨S40000x128, .f32⟩ : BufTy).Contents (Elt F) → (⟨S256x128, .f32⟩ : BufTy).Contents (Elt F)),
    nullary main_cst_48 (constant S_ .f32 0x3F800000#32),
    unary main_cst_48 main_v182 (broadcastInDim S40000 ![] bcast_S_S40000 : (⟨S_, .f32⟩ : BufTy).Contents (Elt F) → (⟨S40000, .f32⟩ : BufTy).Contents (Elt F)),
    nullary main_cst_49 (constant S_ .f32 0x00000000#32),
    unary main_cst_49 main_v183 (broadcastInDim S256 ![] bcast_S_S256 : (⟨S_, .f32⟩ : BufTy).Contents (Elt F) → (⟨S256, .f32⟩ : BufTy).Contents (Elt F)),
    unary main_arg2 main_v184 (broadcastInDim S40000x1 ![0] bcast_S40000_S40000x1_0 : (⟨S40000, .i32⟩ : BufTy).Contents (Elt F) → (⟨S40000x1, .i32⟩ : BufTy).Contents (Elt F)),
    ternary main_v183 main_v184 main_v182 main_v185 ((fun x i u => Host.scatterAdd scatter_S256_S40000x1_S40000_n_0_0_1 x i u) : (⟨S256, .f32⟩ : BufTy).Contents (Elt F) → (⟨S40000x1, .i32⟩ : BufTy).Contents (Elt F) → (⟨S40000, .f32⟩ : BufTy).Contents (Elt F) → (⟨S256, .f32⟩ : BufTy).Contents (Elt F)),
    nullary main_cst_50 (constant S_ .f32 0x3F800000#32),
    unary main_cst_50 main_v186 (broadcastInDim S256 ![] bcast_S_S256 : (⟨S_, .f32⟩ : BufTy).Contents (Elt F) → (⟨S256, .f32⟩ : BufTy).Contents (Elt F)),
    binary main_v185 main_v186 main_v187 (maximumf : (⟨S256, .f32⟩ : BufTy).Contents (Elt F) → (⟨S256, .f32⟩ : BufTy).Contents (Elt F) → (⟨S256, .f32⟩ : BufTy).Contents (Elt F)),
    unary main_v187 main_v188 (broadcastInDim S256x1 ![0] bcast_S256_S256x1_0 : (⟨S256, .f32⟩ : BufTy).Contents (Elt F) → (⟨S256x1, .f32⟩ : BufTy).Contents (Elt F)),
    unary main_v188 main_v189 (broadcastInDim S256x128 ![0, 1] bcast_S256x1_S256x128_0_1 : (⟨S256x1, .f32⟩ : BufTy).Contents (Elt F) → (⟨S256x128, .f32⟩ : BufTy).Contents (Elt F)),
    binary main_v181 main_v189 main_v190 (Host.divf : (⟨S256x128, .f32⟩ : BufTy).Contents (Elt F) → (⟨S256x128, .f32⟩ : BufTy).Contents (Elt F) → (⟨S256x128, .f32⟩ : BufTy).Contents (Elt F)),
    binary main_v181 main_v190 main_v191 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)) ]

/-- The buffers the operations of `sEm` write. -/
abbrev sEm_W : List (Ref sig .tc) := [main_cst_47, main_v179, main_v180, main_v181, main_cst_48, main_v182, main_cst_49, main_v183, main_v184, main_v185, main_cst_50, main_v186, main_v187, main_v188, main_v189, main_v190, main_v191]
theorem sEm_writes : (sEm : List (HloOp τ sig (Elt F))).Forall fun op => op.writes ⊆ (sEm_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sEm` does not write keeps its contents through it. -/
theorem sEm_keep (V : Valuation τ sig (Elt F)) (r : Ref sig .tc) (h : r ∉ sEm_W) :
    after sEm V (Proc.devRef .tc r) = V (Proc.devRef .tc r) :=
  after_of_writes_sub sEm V sEm_writes h

theorem sEm_main_v191 (V : Valuation τ sig (Elt Ideal)) :
    after (sEm (F := Ideal)) V (Proc.devRef .tc main_v191) = Cert.Spec.embeds (V (Proc.devRef .tc main_arg2)) (V (Proc.devRef .tc main_v178)) := by
  after_results_simp
  rfl

abbrev sHd : List (HloOp τ sig (Elt F)) :=
  [ binary main_v191 main_arg9 main_v192 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg10 main_v193 (broadcastInDim S1x128 ![1] bcast_S128_S1x128_1 : (⟨S128, .f32⟩ : BufTy).Contents (Elt F) → (⟨S1x128, .f32⟩ : BufTy).Contents (Elt F)),
    unary main_v193 main_v194 (broadcastInDim S256x128 ![0, 1] bcast_S1x128_S256x128_0_1 : (⟨S1x128, .f32⟩ : BufTy).Contents (Elt F) → (⟨S256x128, .f32⟩ : BufTy).Contents (Elt F)),
    binary main_v192 main_v194 main_v195 (addf : (⟨S256x128, .f32⟩ : BufTy).Contents (Elt F) → (⟨S256x128, .f32⟩ : BufTy).Contents (Elt F) → (⟨S256x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S256x128, .f32⟩) main_call2_v0) (broadcastInDim S256x128 ![] bcast_S_S256x128),
    TRef.binary (TRef.of (T := ⟨S256x128, .f32⟩) main_v195) (TRef.of (T := ⟨S256x128, .f32⟩) main_call2_v0) (TRef.of (T := ⟨S256x128, .f32⟩) main_v196) maximumf,
    binary main_v196 main_arg11 main_v197 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    unary main_arg12 main_v198 (broadcastInDim S1x10 ![1] bcast_S10_S1x10_1 : (⟨S10, .f32⟩ : BufTy).Contents (Elt F) → (⟨S1x10, .f32⟩ : BufTy).Contents (Elt F)),
    unary main_v198 main_v199 (broadcastInDim S256x10 ![0, 1] bcast_S1x10_S256x10_0_1 : (⟨S1x10, .f32⟩ : BufTy).Contents (Elt F) → (⟨S256x10, .f32⟩ : BufTy).Contents (Elt F)),
    binary main_v197 main_v199 main_v200 (addf : (⟨S256x10, .f32⟩ : BufTy).Contents (Elt F) → (⟨S256x10, .f32⟩ : BufTy).Contents (Elt F) → (⟨S256x10, .f32⟩ : BufTy).Contents (Elt F)) ]

/-- The buffers the operations of `sHd` write. -/
abbrev sHd_W : List (Ref sig .tc) := [main_v192, main_v193, main_v194, main_v195, main_call2_cst, main_call2_v0, main_v196, main_v197, main_v198, main_v199, main_v200]
theorem sHd_writes : (sHd : List (HloOp τ sig (Elt F))).Forall fun op => op.writes ⊆ (sHd_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sHd` does not write keeps its contents through it. -/
theorem sHd_keep (V : Valuation τ sig (Elt F)) (r : Ref sig .tc) (h : r ∉ sHd_W) :
    after sHd V (Proc.devRef .tc r) = V (Proc.devRef .tc r) :=
  after_of_writes_sub sHd V sHd_writes h

theorem sHd_main_v200 (V : Valuation τ sig (Elt Ideal)) :
    after (sHd (F := Ideal)) V (Proc.devRef .tc main_v200) = Cert.Spec.logitsOf (V (Proc.devRef .tc main_v191)) (V (Proc.devRef .tc main_arg9)) (V (Proc.devRef .tc main_arg10)) (V (Proc.devRef .tc main_arg11)) (V (Proc.devRef .tc main_arg12)) := by
  after_results_simp
  simp only [cast_eq]
  rfl

abbrev sSm : List (HloOp τ sig (Elt F)) :=
  [ nullary main_cst_51 (constant S_ .f32 0xFF800000#32),
    binary main_v200 main_cst_51 main_v201 ((fun x v => Host.reduce FloatOps.maximumf x v reducesTo_S256x10_S256_d1 h_S_) : (⟨S256x10, .f32⟩ : BufTy).Contents (Elt F) → (⟨S_, .f32⟩ : BufTy).Contents (Elt F) → (⟨S256, .f32⟩ : BufTy).Contents (Elt F)),
    nullary main_cst_52 (constant S_ .f32 0xFF800000#32),
    unary main_cst_52 main_v202 (broadcastInDim S256 ![] bcast_S_S256 : (⟨S_, .f32⟩ : BufTy).Contents (Elt F) → (⟨S256, .f32⟩ : BufTy).Contents (Elt F)),
    binary main_v202 main_v201 main_v203 (maximumf : (⟨S256, .f32⟩ : BufTy).Contents (Elt F) → (⟨S256, .f32⟩ : BufTy).Contents (Elt F) → (⟨S256, .f32⟩ : BufTy).Contents (Elt F)),
    unary main_v203 main_v204 (broadcastInDim S256x1 ![0] bcast_S256_S256x1_0 : (⟨S256, .f32⟩ : BufTy).Contents (Elt F) → (⟨S256x1, .f32⟩ : BufTy).Contents (Elt F)),
    unary main_v204 main_v205 (broadcastInDim S256x10 ![0, 1] bcast_S256x1_S256x10_0_1 : (⟨S256x1, .f32⟩ : BufTy).Contents (Elt F) → (⟨S256x10, .f32⟩ : BufTy).Contents (Elt F)),
    binary main_v200 main_v205 main_v206 (subf : (⟨S256x10, .f32⟩ : BufTy).Contents (Elt F) → (⟨S256x10, .f32⟩ : BufTy).Contents (Elt F) → (⟨S256x10, .f32⟩ : BufTy).Contents (Elt F)),
    unary main_v206 main_v207 (Host.exp : (⟨S256x10, .f32⟩ : BufTy).Contents (Elt F) → (⟨S256x10, .f32⟩ : BufTy).Contents (Elt F)),
    nullary main_cst_53 (constant S_ .f32 0x00000000#32),
    binary main_v207 main_cst_53 main_v208 ((fun x v => Host.reduceAdd x v reducesTo_S256x10_S256_d1 h_S_) : (⟨S256x10, .f32⟩ : BufTy).Contents (Elt F) → (⟨S_, .f32⟩ : BufTy).Contents (Elt F) → (⟨S256, .f32⟩ : BufTy).Contents (Elt F)),
    unary main_v208 main_v209 (broadcastInDim S256x1 ![0] bcast_S256_S256x1_0 : (⟨S256, .f32⟩ : BufTy).Contents (Elt F) → (⟨S256x1, .f32⟩ : BufTy).Contents (Elt F)),
    unary main_v209 main_v210 (broadcastInDim S256x10 ![0, 1] bcast_S256x1_S256x10_0_1 : (⟨S256x1, .f32⟩ : BufTy).Contents (Elt F) → (⟨S256x10, .f32⟩ : BufTy).Contents (Elt F)),
    binary main_v207 main_v210 main_v211 (Host.divf : (⟨S256x10, .f32⟩ : BufTy).Contents (Elt F) → (⟨S256x10, .f32⟩ : BufTy).Contents (Elt F) → (⟨S256x10, .f32⟩ : BufTy).Contents (Elt F)) ]

/-- The buffers the operations of `sSm` write. -/
abbrev sSm_W : List (Ref sig .tc) := [main_cst_51, main_v201, main_cst_52, main_v202, main_v203, main_v204, main_v205, main_v206, main_v207, main_cst_53, main_v208, main_v209, main_v210, main_v211]
theorem sSm_writes : (sSm : List (HloOp τ sig (Elt F))).Forall fun op => op.writes ⊆ (sSm_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide)),
    (by simp only [nullary_writes, unary_writes, binary_writes, ternary_writes, reshape_writes, Finset.singleton_subset_iff, List.mem_toFinset]; exact List.mem_map_of_mem (by decide))⟩
/-- A buffer that `sSm` does not write keeps its contents through it. -/
theorem sSm_keep (V : Valuation τ sig (Elt F)) (r : Ref sig .tc) (h : r ∉ sSm_W) :
    after sSm V (Proc.devRef .tc r) = V (Proc.devRef .tc r) :=
  after_of_writes_sub sSm V sSm_writes h

theorem sSm_main_v211 (V : Valuation τ sig (Elt Ideal)) :
    after (sSm (F := Ideal)) V (Proc.devRef .tc main_v211) = Cert.Spec.softmax (V (Proc.devRef .tc main_v200)) := by
  after_results_simp
  rfl

end Cert.RefRun

end
-- ==== Proof.RefRun.lean ====
/-
  The reference's run.  Its 270 operations are cut into nine stretches in program order (the two rows of the edge list;
  the three graph-convolution layers, the first two each followed by its leaky rectifier; the pooling into graphs; the
  head; the softmax).  Each stretch is known, for any starting contents, as a named function of the buffers it reads
  (the modules imported here), and the buffers it does not write keep their contents.  The contents after the first k
  stretches are then followed buffer by buffer, each fact rewritten with the one before it, never unfolding a term:
  the three results come out as the named functions of the arguments, and no operation writes an argument.
-/
import proofs.«147250_j29549374997129_1_alg».proof.Proof.RefL1
import proofs.«147250_j29549374997129_1_alg».proof.Proof.RefL2
import proofs.«147250_j29549374997129_1_alg».proof.Proof.RefL3
import proofs.«147250_j29549374997129_1_alg».proof.Proof.RefTail

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines of operations run one after the other: the second runs from what the first leaves. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The program's operations are the nine stretches, in order. -/
theorem ops_split : (ValueP.ops : List (HloOp τ sig (Elt F))) = s0 ++ (sA1 ++ (sB1 ++ (sA2 ++ (sB2 ++ (sA3 ++ (sEm ++ (sHd ++ (sSm)))))))) := rfl

/-- The buffer contents before the first stretch: any contents. -/
def V0 (V : Valuation τ sig (Elt Ideal)) : Valuation τ sig (Elt Ideal) := V

/-- The buffer contents after the first 1 stretch. -/
def V1 (V : Valuation τ sig (Elt Ideal)) : Valuation τ sig (Elt Ideal) := after (s0 (F := Ideal)) (V0 V)
theorem V1_main_arg2 (V : Valuation τ sig (Elt Ideal)) : V1 V (Proc.devRef .tc main_arg2) = (V (Proc.devRef .tc main_arg2)) := by
  unfold V1 V0
  exact s0_keep V main_arg2 (by decide)
theorem V1_main_v3 (V : Valuation τ sig (Elt Ideal)) : V1 V (Proc.devRef .tc main_v3) = (Cert.Spec.dstOf (V (Proc.devRef .tc main_arg1))) := by
  unfold V1 V0
  rw [s0_main_v3]
theorem V1_main_v1 (V : Valuation τ sig (Elt Ideal)) : V1 V (Proc.devRef .tc main_v1) = (Cert.Spec.srcOf (V (Proc.devRef .tc main_arg1))) := by
  unfold V1 V0
  rw [s0_main_v1]
theorem V1_main_arg0 (V : Valuation τ sig (Elt Ideal)) : V1 V (Proc.devRef .tc main_arg0) = (V (Proc.devRef .tc main_arg0)) := by
  unfold V1 V0
  exact s0_keep V main_arg0 (by decide)
theorem V1_main_arg3 (V : Valuation τ sig (Elt Ideal)) : V1 V (Proc.devRef .tc main_arg3) = (V (Proc.devRef .tc main_arg3)) := by
  unfold V1 V0
  exact s0_keep V main_arg3 (by decide)
theorem V1_main_arg4 (V : Valuation τ sig (Elt Ideal)) : V1 V (Proc.devRef .tc main_arg4) = (V (Proc.devRef .tc main_arg4)) := by
  unfold V1 V0
  exact s0_keep V main_arg4 (by decide)
theorem V1_main_arg5 (V : Valuation τ sig (Elt Ideal)) : V1 V (Proc.devRef .tc main_arg5) = (V (Proc.devRef .tc main_arg5)) := by
  unfold V1 V0
  exact s0_keep V main_arg5 (by decide)
theorem V1_main_arg6 (V : Valuation τ sig (Elt Ideal)) : V1 V (Proc.devRef .tc main_arg6) = (V (Proc.devRef .tc main_arg6)) := by
  unfold V1 V0
  exact s0_keep V main_arg6 (by decide)
theorem V1_main_arg7 (V : Valuation τ sig (Elt Ideal)) : V1 V (Proc.devRef .tc main_arg7) = (V (Proc.devRef .tc main_arg7)) := by
  unfold V1 V0
  exact s0_keep V main_arg7 (by decide)
theorem V1_main_arg8 (V : Valuation τ sig (Elt Ideal)) : V1 V (Proc.devRef .tc main_arg8) = (V (Proc.devRef .tc main_arg8)) := by
  unfold V1 V0
  exact s0_keep V main_arg8 (by decide)
theorem V1_main_arg9 (V : Valuation τ sig (Elt Ideal)) : V1 V (Proc.devRef .tc main_arg9) = (V (Proc.devRef .tc main_arg9)) := by
  unfold V1 V0
  exact s0_keep V main_arg9 (by decide)
theorem V1_main_arg10 (V : Valuation τ sig (Elt Ideal)) : V1 V (Proc.devRef .tc main_arg10) = (V (Proc.devRef .tc main_arg10)) := by
  unfold V1 V0
  exact s0_keep V main_arg10 (by decide)
theorem V1_main_arg11 (V : Valuation τ sig (Elt Ideal)) : V1 V (Proc.devRef .tc main_arg11) = (V (Proc.devRef .tc main_arg11)) := by
  unfold V1 V0
  exact s0_keep V main_arg11 (by decide)
theorem V1_main_arg12 (V : Valuation τ sig (Elt Ideal)) : V1 V (Proc.devRef .tc main_arg12) = (V (Proc.devRef .tc main_arg12)) := by
  unfold V1 V0
  exact s0_keep V main_arg12 (by decide)

/-- The buffer contents after the first 2 stretches. -/
def V2 (V : Valuation τ sig (Elt Ideal)) : Valuation τ sig (Elt Ideal) := after (sA1 (F := Ideal)) (V1 V)
theorem V2_main_arg2 (V : Valuation τ sig (Elt Ideal)) : V2 V (Proc.devRef .tc main_arg2) = (V (Proc.devRef .tc main_arg2)) := by
  unfold V2
  exact (sA1_keep _ main_arg2 (by decide)).trans (V1_main_arg2 V)
theorem V2_main_v3 (V : Valuation τ sig (Elt Ideal)) : V2 V (Proc.devRef .tc main_v3) = (Cert.Spec.dstOf (V (Proc.devRef .tc main_arg1))) := by
  unfold V2
  exact (sA1_keep _ main_v3 (by decide)).trans (V1_main_v3 V)
theorem V2_main_v1 (V : Valuation τ sig (Elt Ideal)) : V2 V (Proc.devRef .tc main_v1) = (Cert.Spec.srcOf (V (Proc.devRef .tc main_arg1))) := by
  unfold V2
  exact (sA1_keep _ main_v1 (by decide)).trans (V1_main_v1 V)
theorem V2_main_v58 (V : Valuation τ sig (Elt Ideal)) : V2 V (Proc.devRef .tc main_v58) = (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4))) := by
  unfold V2
  rw [sA1_main_v58, V1_main_v3, V1_main_v1, V1_main_arg0, V1_main_arg3, V1_main_arg4]
theorem V2_main_arg5 (V : Valuation τ sig (Elt Ideal)) : V2 V (Proc.devRef .tc main_arg5) = (V (Proc.devRef .tc main_arg5)) := by
  unfold V2
  exact (sA1_keep _ main_arg5 (by decide)).trans (V1_main_arg5 V)
theorem V2_main_arg6 (V : Valuation τ sig (Elt Ideal)) : V2 V (Proc.devRef .tc main_arg6) = (V (Proc.devRef .tc main_arg6)) := by
  unfold V2
  exact (sA1_keep _ main_arg6 (by decide)).trans (V1_main_arg6 V)
theorem V2_main_arg7 (V : Valuation τ sig (Elt Ideal)) : V2 V (Proc.devRef .tc main_arg7) = (V (Proc.devRef .tc main_arg7)) := by
  unfold V2
  exact (sA1_keep _ main_arg7 (by decide)).trans (V1_main_arg7 V)
theorem V2_main_arg8 (V : Valuation τ sig (Elt Ideal)) : V2 V (Proc.devRef .tc main_arg8) = (V (Proc.devRef .tc main_arg8)) := by
  unfold V2
  exact (sA1_keep _ main_arg8 (by decide)).trans (V1_main_arg8 V)
theorem V2_main_arg9 (V : Valuation τ sig (Elt Ideal)) : V2 V (Proc.devRef .tc main_arg9) = (V (Proc.devRef .tc main_arg9)) := by
  unfold V2
  exact (sA1_keep _ main_arg9 (by decide)).trans (V1_main_arg9 V)
theorem V2_main_arg10 (V : Valuation τ sig (Elt Ideal)) : V2 V (Proc.devRef .tc main_arg10) = (V (Proc.devRef .tc main_arg10)) := by
  unfold V2
  exact (sA1_keep _ main_arg10 (by decide)).trans (V1_main_arg10 V)
theorem V2_main_arg11 (V : Valuation τ sig (Elt Ideal)) : V2 V (Proc.devRef .tc main_arg11) = (V (Proc.devRef .tc main_arg11)) := by
  unfold V2
  exact (sA1_keep _ main_arg11 (by decide)).trans (V1_main_arg11 V)
theorem V2_main_arg12 (V : Valuation τ sig (Elt Ideal)) : V2 V (Proc.devRef .tc main_arg12) = (V (Proc.devRef .tc main_arg12)) := by
  unfold V2
  exact (sA1_keep _ main_arg12 (by decide)).trans (V1_main_arg12 V)

/-- The buffer contents after the first 3 stretches. -/
def V3 (V : Valuation τ sig (Elt Ideal)) : Valuation τ sig (Elt Ideal) := after (sB1 (F := Ideal)) (V2 V)
theorem V3_main_arg2 (V : Valuation τ sig (Elt Ideal)) : V3 V (Proc.devRef .tc main_arg2) = (V (Proc.devRef .tc main_arg2)) := by
  unfold V3
  exact (sB1_keep _ main_arg2 (by decide)).trans (V2_main_arg2 V)
theorem V3_main_v3 (V : Valuation τ sig (Elt Ideal)) : V3 V (Proc.devRef .tc main_v3) = (Cert.Spec.dstOf (V (Proc.devRef .tc main_arg1))) := by
  unfold V3
  exact (sB1_keep _ main_v3 (by decide)).trans (V2_main_v3 V)
theorem V3_main_v1 (V : Valuation τ sig (Elt Ideal)) : V3 V (Proc.devRef .tc main_v1) = (Cert.Spec.srcOf (V (Proc.devRef .tc main_arg1))) := by
  unfold V3
  exact (sB1_keep _ main_v1 (by decide)).trans (V2_main_v1 V)
theorem V3_main_v63 (V : Valuation τ sig (Elt Ideal)) : V3 V (Proc.devRef .tc main_v63) = (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) := by
  unfold V3
  rw [sB1_main_v63, V2_main_v58]
theorem V3_main_arg5 (V : Valuation τ sig (Elt Ideal)) : V3 V (Proc.devRef .tc main_arg5) = (V (Proc.devRef .tc main_arg5)) := by
  unfold V3
  exact (sB1_keep _ main_arg5 (by decide)).trans (V2_main_arg5 V)
theorem V3_main_arg6 (V : Valuation τ sig (Elt Ideal)) : V3 V (Proc.devRef .tc main_arg6) = (V (Proc.devRef .tc main_arg6)) := by
  unfold V3
  exact (sB1_keep _ main_arg6 (by decide)).trans (V2_main_arg6 V)
theorem V3_main_arg7 (V : Valuation τ sig (Elt Ideal)) : V3 V (Proc.devRef .tc main_arg7) = (V (Proc.devRef .tc main_arg7)) := by
  unfold V3
  exact (sB1_keep _ main_arg7 (by decide)).trans (V2_main_arg7 V)
theorem V3_main_arg8 (V : Valuation τ sig (Elt Ideal)) : V3 V (Proc.devRef .tc main_arg8) = (V (Proc.devRef .tc main_arg8)) := by
  unfold V3
  exact (sB1_keep _ main_arg8 (by decide)).trans (V2_main_arg8 V)
theorem V3_main_arg9 (V : Valuation τ sig (Elt Ideal)) : V3 V (Proc.devRef .tc main_arg9) = (V (Proc.devRef .tc main_arg9)) := by
  unfold V3
  exact (sB1_keep _ main_arg9 (by decide)).trans (V2_main_arg9 V)
theorem V3_main_arg10 (V : Valuation τ sig (Elt Ideal)) : V3 V (Proc.devRef .tc main_arg10) = (V (Proc.devRef .tc main_arg10)) := by
  unfold V3
  exact (sB1_keep _ main_arg10 (by decide)).trans (V2_main_arg10 V)
theorem V3_main_arg11 (V : Valuation τ sig (Elt Ideal)) : V3 V (Proc.devRef .tc main_arg11) = (V (Proc.devRef .tc main_arg11)) := by
  unfold V3
  exact (sB1_keep _ main_arg11 (by decide)).trans (V2_main_arg11 V)
theorem V3_main_arg12 (V : Valuation τ sig (Elt Ideal)) : V3 V (Proc.devRef .tc main_arg12) = (V (Proc.devRef .tc main_arg12)) := by
  unfold V3
  exact (sB1_keep _ main_arg12 (by decide)).trans (V2_main_arg12 V)

/-- The buffer contents after the first 4 stretches. -/
def V4 (V : Valuation τ sig (Elt Ideal)) : Valuation τ sig (Elt Ideal) := after (sA2 (F := Ideal)) (V3 V)
theorem V4_main_arg2 (V : Valuation τ sig (Elt Ideal)) : V4 V (Proc.devRef .tc main_arg2) = (V (Proc.devRef .tc main_arg2)) := by
  unfold V4
  exact (sA2_keep _ main_arg2 (by decide)).trans (V3_main_arg2 V)
theorem V4_main_v3 (V : Valuation τ sig (Elt Ideal)) : V4 V (Proc.devRef .tc main_v3) = (Cert.Spec.dstOf (V (Proc.devRef .tc main_arg1))) := by
  unfold V4
  exact (sA2_keep _ main_v3 (by decide)).trans (V3_main_v3 V)
theorem V4_main_v1 (V : Valuation τ sig (Elt Ideal)) : V4 V (Proc.devRef .tc main_v1) = (Cert.Spec.srcOf (V (Proc.devRef .tc main_arg1))) := by
  unfold V4
  exact (sA2_keep _ main_v1 (by decide)).trans (V3_main_v1 V)
theorem V4_main_v118 (V : Valuation τ sig (Elt Ideal)) : V4 V (Proc.devRef .tc main_v118) = (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6))) := by
  unfold V4
  rw [sA2_main_v118, V3_main_v3, V3_main_v1, V3_main_v63, V3_main_arg5, V3_main_arg6]
theorem V4_main_arg7 (V : Valuation τ sig (Elt Ideal)) : V4 V (Proc.devRef .tc main_arg7) = (V (Proc.devRef .tc main_arg7)) := by
  unfold V4
  exact (sA2_keep _ main_arg7 (by decide)).trans (V3_main_arg7 V)
theorem V4_main_arg8 (V : Valuation τ sig (Elt Ideal)) : V4 V (Proc.devRef .tc main_arg8) = (V (Proc.devRef .tc main_arg8)) := by
  unfold V4
  exact (sA2_keep _ main_arg8 (by decide)).trans (V3_main_arg8 V)
theorem V4_main_arg9 (V : Valuation τ sig (Elt Ideal)) : V4 V (Proc.devRef .tc main_arg9) = (V (Proc.devRef .tc main_arg9)) := by
  unfold V4
  exact (sA2_keep _ main_arg9 (by decide)).trans (V3_main_arg9 V)
theorem V4_main_arg10 (V : Valuation τ sig (Elt Ideal)) : V4 V (Proc.devRef .tc main_arg10) = (V (Proc.devRef .tc main_arg10)) := by
  unfold V4
  exact (sA2_keep _ main_arg10 (by decide)).trans (V3_main_arg10 V)
theorem V4_main_arg11 (V : Valuation τ sig (Elt Ideal)) : V4 V (Proc.devRef .tc main_arg11) = (V (Proc.devRef .tc main_arg11)) := by
  unfold V4
  exact (sA2_keep _ main_arg11 (by decide)).trans (V3_main_arg11 V)
theorem V4_main_arg12 (V : Valuation τ sig (Elt Ideal)) : V4 V (Proc.devRef .tc main_arg12) = (V (Proc.devRef .tc main_arg12)) := by
  unfold V4
  exact (sA2_keep _ main_arg12 (by decide)).trans (V3_main_arg12 V)

/-- The buffer contents after the first 5 stretches. -/
def V5 (V : Valuation τ sig (Elt Ideal)) : Valuation τ sig (Elt Ideal) := after (sB2 (F := Ideal)) (V4 V)
theorem V5_main_arg2 (V : Valuation τ sig (Elt Ideal)) : V5 V (Proc.devRef .tc main_arg2) = (V (Proc.devRef .tc main_arg2)) := by
  unfold V5
  exact (sB2_keep _ main_arg2 (by decide)).trans (V4_main_arg2 V)
theorem V5_main_v3 (V : Valuation τ sig (Elt Ideal)) : V5 V (Proc.devRef .tc main_v3) = (Cert.Spec.dstOf (V (Proc.devRef .tc main_arg1))) := by
  unfold V5
  exact (sB2_keep _ main_v3 (by decide)).trans (V4_main_v3 V)
theorem V5_main_v1 (V : Valuation τ sig (Elt Ideal)) : V5 V (Proc.devRef .tc main_v1) = (Cert.Spec.srcOf (V (Proc.devRef .tc main_arg1))) := by
  unfold V5
  exact (sB2_keep _ main_v1 (by decide)).trans (V4_main_v1 V)
theorem V5_main_v123 (V : Valuation τ sig (Elt Ideal)) : V5 V (Proc.devRef .tc main_v123) = (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) := by
  unfold V5
  rw [sB2_main_v123, V4_main_v118]
theorem V5_main_arg7 (V : Valuation τ sig (Elt Ideal)) : V5 V (Proc.devRef .tc main_arg7) = (V (Proc.devRef .tc main_arg7)) := by
  unfold V5
  exact (sB2_keep _ main_arg7 (by decide)).trans (V4_main_arg7 V)
theorem V5_main_arg8 (V : Valuation τ sig (Elt Ideal)) : V5 V (Proc.devRef .tc main_arg8) = (V (Proc.devRef .tc main_arg8)) := by
  unfold V5
  exact (sB2_keep _ main_arg8 (by decide)).trans (V4_main_arg8 V)
theorem V5_main_arg9 (V : Valuation τ sig (Elt Ideal)) : V5 V (Proc.devRef .tc main_arg9) = (V (Proc.devRef .tc main_arg9)) := by
  unfold V5
  exact (sB2_keep _ main_arg9 (by decide)).trans (V4_main_arg9 V)
theorem V5_main_arg10 (V : Valuation τ sig (Elt Ideal)) : V5 V (Proc.devRef .tc main_arg10) = (V (Proc.devRef .tc main_arg10)) := by
  unfold V5
  exact (sB2_keep _ main_arg10 (by decide)).trans (V4_main_arg10 V)
theorem V5_main_arg11 (V : Valuation τ sig (Elt Ideal)) : V5 V (Proc.devRef .tc main_arg11) = (V (Proc.devRef .tc main_arg11)) := by
  unfold V5
  exact (sB2_keep _ main_arg11 (by decide)).trans (V4_main_arg11 V)
theorem V5_main_arg12 (V : Valuation τ sig (Elt Ideal)) : V5 V (Proc.devRef .tc main_arg12) = (V (Proc.devRef .tc main_arg12)) := by
  unfold V5
  exact (sB2_keep _ main_arg12 (by decide)).trans (V4_main_arg12 V)

/-- The buffer contents after the first 6 stretches. -/
def V6 (V : Valuation τ sig (Elt Ideal)) : Valuation τ sig (Elt Ideal) := after (sA3 (F := Ideal)) (V5 V)
theorem V6_main_arg2 (V : Valuation τ sig (Elt Ideal)) : V6 V (Proc.devRef .tc main_arg2) = (V (Proc.devRef .tc main_arg2)) := by
  unfold V6
  exact (sA3_keep _ main_arg2 (by decide)).trans (V5_main_arg2 V)
theorem V6_main_v178 (V : Valuation τ sig (Elt Ideal)) : V6 V (Proc.devRef .tc main_v178) = (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8))) := by
  unfold V6
  rw [sA3_main_v178, V5_main_v3, V5_main_v1, V5_main_v123, V5_main_arg7, V5_main_arg8]
theorem V6_main_arg9 (V : Valuation τ sig (Elt Ideal)) : V6 V (Proc.devRef .tc main_arg9) = (V (Proc.devRef .tc main_arg9)) := by
  unfold V6
  exact (sA3_keep _ main_arg9 (by decide)).trans (V5_main_arg9 V)
theorem V6_main_arg10 (V : Valuation τ sig (Elt Ideal)) : V6 V (Proc.devRef .tc main_arg10) = (V (Proc.devRef .tc main_arg10)) := by
  unfold V6
  exact (sA3_keep _ main_arg10 (by decide)).trans (V5_main_arg10 V)
theorem V6_main_arg11 (V : Valuation τ sig (Elt Ideal)) : V6 V (Proc.devRef .tc main_arg11) = (V (Proc.devRef .tc main_arg11)) := by
  unfold V6
  exact (sA3_keep _ main_arg11 (by decide)).trans (V5_main_arg11 V)
theorem V6_main_arg12 (V : Valuation τ sig (Elt Ideal)) : V6 V (Proc.devRef .tc main_arg12) = (V (Proc.devRef .tc main_arg12)) := by
  unfold V6
  exact (sA3_keep _ main_arg12 (by decide)).trans (V5_main_arg12 V)

/-- The buffer contents after the first 7 stretches. -/
def V7 (V : Valuation τ sig (Elt Ideal)) : Valuation τ sig (Elt Ideal) := after (sEm (F := Ideal)) (V6 V)
theorem V7_main_v191 (V : Valuation τ sig (Elt Ideal)) : V7 V (Proc.devRef .tc main_v191) = (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) := by
  unfold V7
  rw [sEm_main_v191, V6_main_arg2, V6_main_v178]
theorem V7_main_arg9 (V : Valuation τ sig (Elt Ideal)) : V7 V (Proc.devRef .tc main_arg9) = (V (Proc.devRef .tc main_arg9)) := by
  unfold V7
  exact (sEm_keep _ main_arg9 (by decide)).trans (V6_main_arg9 V)
theorem V7_main_arg10 (V : Valuation τ sig (Elt Ideal)) : V7 V (Proc.devRef .tc main_arg10) = (V (Proc.devRef .tc main_arg10)) := by
  unfold V7
  exact (sEm_keep _ main_arg10 (by decide)).trans (V6_main_arg10 V)
theorem V7_main_arg11 (V : Valuation τ sig (Elt Ideal)) : V7 V (Proc.devRef .tc main_arg11) = (V (Proc.devRef .tc main_arg11)) := by
  unfold V7
  exact (sEm_keep _ main_arg11 (by decide)).trans (V6_main_arg11 V)
theorem V7_main_arg12 (V : Valuation τ sig (Elt Ideal)) : V7 V (Proc.devRef .tc main_arg12) = (V (Proc.devRef .tc main_arg12)) := by
  unfold V7
  exact (sEm_keep _ main_arg12 (by decide)).trans (V6_main_arg12 V)

/-- The buffer contents after the first 8 stretches. -/
def V8 (V : Valuation τ sig (Elt Ideal)) : Valuation τ sig (Elt Ideal) := after (sHd (F := Ideal)) (V7 V)
theorem V8_main_v200 (V : Valuation τ sig (Elt Ideal)) : V8 V (Proc.devRef .tc main_v200) = (Cert.Spec.logitsOf (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) (V (Proc.devRef .tc main_arg9)) (V (Proc.devRef .tc main_arg10)) (V (Proc.devRef .tc main_arg11)) (V (Proc.devRef .tc main_arg12))) := by
  unfold V8
  rw [sHd_main_v200, V7_main_v191, V7_main_arg9, V7_main_arg10, V7_main_arg11, V7_main_arg12]
theorem V8_main_v191 (V : Valuation τ sig (Elt Ideal)) : V8 V (Proc.devRef .tc main_v191) = (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) := by
  unfold V8
  exact (sHd_keep _ main_v191 (by decide)).trans (V7_main_v191 V)

/-- The buffer contents after the first 9 stretches. -/
def V9 (V : Valuation τ sig (Elt Ideal)) : Valuation τ sig (Elt Ideal) := after (sSm (F := Ideal)) (V8 V)
theorem V9_main_v200 (V : Valuation τ sig (Elt Ideal)) : V9 V (Proc.devRef .tc main_v200) = (Cert.Spec.logitsOf (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) (V (Proc.devRef .tc main_arg9)) (V (Proc.devRef .tc main_arg10)) (V (Proc.devRef .tc main_arg11)) (V (Proc.devRef .tc main_arg12))) := by
  unfold V9
  exact (sSm_keep _ main_v200 (by decide)).trans (V8_main_v200 V)
theorem V9_main_v211 (V : Valuation τ sig (Elt Ideal)) : V9 V (Proc.devRef .tc main_v211) = (Cert.Spec.softmax (Cert.Spec.logitsOf (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) (V (Proc.devRef .tc main_arg9)) (V (Proc.devRef .tc main_arg10)) (V (Proc.devRef .tc main_arg11)) (V (Proc.devRef .tc main_arg12)))) := by
  unfold V9
  rw [sSm_main_v211, V8_main_v200]
theorem V9_main_v191 (V : Valuation τ sig (Elt Ideal)) : V9 V (Proc.devRef .tc main_v191) = (Cert.Spec.embeds (V (Proc.devRef .tc main_arg2)) (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (Cert.Spec.leaky (Cert.Spec.layer (Cert.Spec.wrapIdx (Cert.Spec.dstOf (V (Proc.devRef .tc main_arg1)))) (Cert.Spec.srcOf (V (Proc.devRef .tc main_arg1))) (Cert.Spec.norm (Cert.Spec.srcOf (V (Proc.devRef .tc main_arg1))) (Cert.Spec.dstOf (V (Proc.devRef .tc main_arg1)))) (Cert.Spec.selfCol (Cert.Spec.dstOf (V (Proc.devRef .tc main_arg1)))) (Cert.Spec.mm128 (V (Proc.devRef .tc main_arg0)) (V (Proc.devRef .tc main_arg3))) (V (Proc.devRef .tc main_arg4)))) (V (Proc.devRef .tc main_arg5))) (V (Proc.devRef .tc main_arg6)))) (V (Proc.devRef .tc main_arg7))) (V (Proc.devRef .tc main_arg8)))) := by
  unfold V9
  exact (sSm_keep _ main_v191 (by decide)).trans (V8_main_v191 V)

/-- The contents after the whole program are the contents after the nine stretches. -/
theorem after_ops (V : Valuation τ sig (Elt Ideal)) : after (ValueP.ops (F := Ideal)) V = V9 V := by
  rw [ops_split]
  simp only [after_app]
  rfl

/-- The graph embedding after the program: the pooled third-layer features, the layers' sums taken at the wrapped
    destination index. -/
theorem res_embeds (V : Valuation τ sig (Elt Ideal)) :
    after (ValueP.ops (F := Ideal)) V (Proc.devRef .tc main_v191) = (Cert.Spec.embeds (V (Proc.devRef .tc main_arg2)) (Cert.Spec.feats (Cert.Spec.wrapIdx (Cert.Spec.dstOf (V (Proc.devRef .tc main_arg1)))) (Cert.Spec.srcOf (V (Proc.devRef .tc main_arg1))) (Cert.Spec.dstOf (V (Proc.devRef .tc main_arg1))) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)))) := by
  rw [after_ops, V9_main_v191]
  rfl

/-- The logits after the program. -/
theorem res_logits (V : Valuation τ sig (Elt Ideal)) :
    after (ValueP.ops (F := Ideal)) V (Proc.devRef .tc main_v200) = (Cert.Spec.logitsOf (Cert.Spec.embeds (V (Proc.devRef .tc main_arg2)) (Cert.Spec.feats (Cert.Spec.wrapIdx (Cert.Spec.dstOf (V (Proc.devRef .tc main_arg1)))) (Cert.Spec.srcOf (V (Proc.devRef .tc main_arg1))) (Cert.Spec.dstOf (V (Proc.devRef .tc main_arg1))) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))) := by
  rw [after_ops, V9_main_v200]
  rfl

/-- The class probabilities after the program: the softmax of the logits. -/
theorem res_probs (V : Valuation τ sig (Elt Ideal)) :
    after (ValueP.ops (F := Ideal)) V (Proc.devRef .tc main_v211) = (Cert.Spec.softmax (Cert.Spec.logitsOf (Cert.Spec.embeds (V (Proc.devRef .tc main_arg2)) (Cert.Spec.feats (Cert.Spec.wrapIdx (Cert.Spec.dstOf (V (Proc.devRef .tc main_arg1)))) (Cert.Spec.srcOf (V (Proc.devRef .tc main_arg1))) (Cert.Spec.dstOf (V (Proc.devRef .tc main_arg1))) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12)))) := by
  rw [after_ops, V9_main_v211]
  rfl

/-- A buffer none of the nine stretches writes holds after the program what it held before. -/
theorem keep_all (V : Valuation τ sig (Elt F)) (r : Ref sig .tc)
    (h0 : r ∉ s0_W) (h1 : r ∉ sA1_W) (h2 : r ∉ sB1_W) (h3 : r ∉ sA2_W) (h4 : r ∉ sB2_W) (h5 : r ∉ sA3_W) (h6 : r ∉ sEm_W) (h7 : r ∉ sHd_W) (h8 : r ∉ sSm_W) :
    after ValueP.ops V (Proc.devRef .tc r) = V (Proc.devRef .tc r) := by
  rw [ops_split]
  simp only [after_app]
  rw [sSm_keep _ r h8, sHd_keep _ r h7, sEm_keep _ r h6, sA3_keep _ r h5, sB2_keep _ r h4, sA2_keep _ r h3, sB1_keep _ r h2, sA1_keep _ r h1, s0_keep _ r h0]

/-- The graph embedding as the reference computes it: the layers sum at the WRAPPED destination index. -/
def E (m : (ℓ : Loc nD τ sig) → Buf (Elt Ideal) ℓ) (c : Dev nD) :=
  Cert.Spec.embeds (m ((c.tc : Thread nD τ).loc main_arg2)) (Cert.Spec.feats (Cert.Spec.wrapIdx (Cert.Spec.dstOf (m ((c.tc : Thread nD τ).loc main_arg1)))) (Cert.Spec.srcOf (m ((c.tc : Thread nD τ).loc main_arg1))) (Cert.Spec.dstOf (m ((c.tc : Thread nD τ).loc main_arg1))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))

/-- On every device, from any memory with zero counters: every weakly fair execution of the reference terminates with
    the logits, the class probabilities and the graph embedding at the named functions of the arguments, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v200) = Cert.Spec.logitsOf (E m c) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v211) = Cert.Spec.softmax (Cert.Spec.logitsOf (E m c) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_v191) = E m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v200).trans (res_logits (launchContents m c)),
      (h c main_v211).trans (res_probs (launchContents m c)),
      (h c main_v191).trans (res_embeds (launchContents m c)),
      (h c main_arg0).trans (keep_all (launchContents m c) main_arg0 (by decide) (by decide) (by decide) (by decide) (by decide) (by decide) (by decide) (by decide) (by decide)),
      (h c main_arg1).trans (keep_all (launchContents m c) main_arg1 (by decide) (by decide) (by decide) (by decide) (by decide) (by decide) (by decide) (by decide) (by decide)),
      (h c main_arg2).trans (keep_all (launchContents m c) main_arg2 (by decide) (by decide) (by decide) (by decide) (by decide) (by decide) (by decide) (by decide) (by decide)),
      (h c main_arg3).trans (keep_all (launchContents m c) main_arg3 (by decide) (by decide) (by decide) (by decide) (by decide) (by decide) (by decide) (by decide) (by decide)),
      (h c main_arg4).trans (keep_all (launchContents m c) main_arg4 (by decide) (by decide) (by decide) (by decide) (by decide) (by decide) (by decide) (by decide) (by decide)),
      (h c main_arg5).trans (keep_all (launchContents m c) main_arg5 (by decide) (by decide) (by decide) (by decide) (by decide) (by decide) (by decide) (by decide) (by decide)),
      (h c main_arg6).trans (keep_all (launchContents m c) main_arg6 (by decide) (by decide) (by decide) (by decide) (by decide) (by decide) (by decide) (by decide) (by decide)),
      (h c main_arg7).trans (keep_all (launchContents m c) main_arg7 (by decide) (by decide) (by decide) (by decide) (by decide) (by decide) (by decide) (by decide) (by decide)),
      (h c main_arg8).trans (keep_all (launchContents m c) main_arg8 (by decide) (by decide) (by decide) (by decide) (by decide) (by decide) (by decide) (by decide) (by decide)),
      (h c main_arg9).trans (keep_all (launchContents m c) main_arg9 (by decide) (by decide) (by decide) (by decide) (by decide) (by decide) (by decide) (by decide) (by decide)),
      (h c main_arg10).trans (keep_all (launchContents m c) main_arg10 (by decide) (by decide) (by decide) (by decide) (by decide) (by decide) (by decide) (by decide) (by decide)),
      (h c main_arg11).trans (keep_all (launchContents m c) main_arg11 (by decide) (by decide) (by decide) (by decide) (by decide) (by decide) (by decide) (by decide) (by decide)),
      (h c main_arg12).trans (keep_all (launchContents m c) main_arg12 (by decide) (by decide) (by decide) (by decide) (by decide) (by decide) (by decide) (by decide) (by decide))⟩)
    (run_seq ValueP.scopedRefs_eq ValueP.scopedSems_eq defs main (fun _ => ValueP.ops) ValueP.main_eq (fun _ => ValueP.ops_sub) m ρ)

end Cert.RefRun

end
-- ==== Proof.lean ====
/-
  The claim: a three-layer graph-convolution classifier on 40000 nodes and 640000 directed edges, written with
  its five dense products inside matrix-product kernels, computes the same three results — logits [256,10],
  class probabilities [256,10], graph embeddings [256,256] — as its plain reference, as extended reals, for finite
  float inputs and an edge list whose destination row has no negative entry.

  Each layer is   h ↦ (Σ_{e : dst e = n} norm e · (h·W)[src e]) + (h·W)[n] / deg n + b   with
  deg n = 1 + #{e : dst e = n} and norm e = (deg (src e) · deg (dst e))^(-1/2); then the nodes are summed and
  averaged per graph, and two dense layers and a softmax follow (Proof/Spec.lean names every piece).

  The two programs apply the same host operations to the same arrays, with two differences.
  (1) The dense products: a kernel tiled over 8 blocks of 5000 rows (or one whole block), each block the product
      of its rows with the whole weight matrix, against one whole product — the same sums over k
      (Proof/Region*.lean).
  (2) The index at which a layer's messages are summed: the reference reads the destination index Python-style
      (v + 40000 for a negative v), the kernel program takes it as it is, and a scatter drops an update whose
      index is outside the array. Under the precondition no destination index is negative, so the two index
      arrays are equal (Proof/PreIdx.lean).
  The kernel program's final buffer contents are read back through its segments (Proof/KChain.lean over
  Proof/KRun.lean), the reference's through its operation list (Proof/RefRun.lean over Proof/RefOps.lean); both
  are the same Spec function of the arguments, and the arguments agree.
  The ideal pass rewrote nothing in this kernel, so there is nothing to preserve.
-/
import proofs.«147250_j29549374997129_1_alg».proof.Defs
import proofs.«147250_j29549374997129_1_alg».proof.Proof.Gen.Kernel
import proofs.«147250_j29549374997129_1_alg».proof.Proof.Gen.Kernel.Frame
import proofs.«147250_j29549374997129_1_alg».proof.Proof.Gen.KernelIdeal
import proofs.«147250_j29549374997129_1_alg».proof.Proof.Gen.KernelIdeal.Frame
import proofs.«147250_j29549374997129_1_alg».proof.Proof.Gen.ReferenceIdeal
import proofs.«147250_j29549374997129_1_alg».proof.Proof.Gen.Pre_finite_inputs
import proofs.«147250_j29549374997129_1_alg».proof.Proof.Spec
import proofs.«147250_j29549374997129_1_alg».proof.Proof.PreIdx
import proofs.«147250_j29549374997129_1_alg».proof.Proof.KRun
import proofs.«147250_j29549374997129_1_alg».proof.Proof.KChain
import proofs.«147250_j29549374997129_1_alg».proof.Proof.RefRun
import Idealize.ShloMosaic.Adequacy
import Idealize.ShloMosaic.Init

noncomputable section

namespace Cert.Proof

open Idealize.ShloMosaic Idealize.SL.Sem

/-- The word-level kernel program runs and keeps its arguments: its generated frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.RefRun.run m ρ)

/-- The idealization rewrote nothing in this kernel: there is nothing to preserve. -/
theorem preserves : Cert.preserves_Kernel_KernelIdeal := trivial

/-- The two graph embeddings are one array: the arguments agree, and where no destination index is negative the
    index the reference's layers sum at (the destination read Python-style) is the destination index itself. -/
theorem embeds_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefRun.E m' c = Cert.KChain.E m c := by
  unfold Cert.RefRun.E Cert.KChain.E
  rw [a0, a1, a2, a3, a4, a5, a6, a7, a8, Cert.PreIdx.wrap_dst m hpre c]

/-- From memories that agree on the arguments, under the precondition, the two idealized programs end with equal
    logits, probabilities and graph embeddings: each result is the same Spec function of the arguments on both
    sides once the embeddings are identified. -/
theorem algebraic : Cert.algebraic_KernelIdeal_ReferenceIdeal := by
  intro m ρ m' ρ' hpre hagree
  refine ⟨fun c => Cert.KernelIdeal.Gen.W14 m ρ c (Proc.devRef .tc Cert.KernelIdeal.main_v125),
    fun c => Cert.KernelIdeal.Gen.W14 m ρ c (Proc.devRef .tc Cert.KernelIdeal.main_v136),
    fun c => Cert.KernelIdeal.Gen.W14 m ρ c (Proc.devRef .tc Cert.KernelIdeal.main_v116),
    Cert.KRun.run_results (F := Ideal) m ρ, ?_⟩
  refine (θ_run Cert.ReferenceIdeal.defs _ _).mono (fun r h c => ?_) (Cert.RefRun.run m' ρ')
  obtain ⟨h0, h1, h2, hargs⟩ := h c
  obtain ⟨a0, a1, a2, a3, a4, a5, a6, a7, a8, a9, a10, a11, a12⟩ := hagree c
  have hE := embeds_eq m m' c hpre a0 a1 a2 a3 a4 a5 a6 a7 a8
  refine ⟨h0.trans ?_, h1.trans ?_, h2.trans ?_, hargs⟩
  · rw [hE, a9, a10, a11, a12]; exact (Cert.KChain.W14_logits m ρ c).symm
  · rw [hE, a9, a10, a11, a12]; exact (Cert.KChain.W14_probs m ρ c).symm
  · rw [hE]; exact (Cert.KChain.W14_embeds m ρ c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
